-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S40000x128 .f32) (main_arg1 : IVec S2x640000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S4000x128 : Shape := ⟨2, ![4000, 128]⟩
abbrev S680000x128 : Shape := ⟨2, ![680000, 128]⟩
abbrev S1x128 : Shape := ⟨2, ![1, 128]⟩

abbrev nBuf : Space → Nat
  | .hbm => 149
  | .vmem => 26
  | .smem => 0
  | _ => 0

abbrev hbmTy0_0 (i : Nat) : BufTy := match i % 128 with
  | 0 => ⟨S40000x128, .f32⟩
  | 1 => ⟨S2x640000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S40000, .i32⟩
  | 11 => ⟨S1x640000, .i32⟩
  | 12 => ⟨S640000, .i32⟩
  | 13 => ⟨S680000, .i32⟩
  | 14 => ⟨S1x640000, .i32⟩
  | 15 => ⟨S640000, .i32⟩
  | 16 => ⟨S680000, .i32⟩
  | 17 => ⟨S_, .f32⟩
  | 18 => ⟨S680000, .f32⟩
  | 19 => ⟨S_, .f32⟩
  | 20 => ⟨S40000, .f32⟩
  | 21 => ⟨S680000x1, .i32⟩
  | 22 => ⟨S40000, .f32⟩
  | 23 => ⟨S40000, .f32⟩
  | 24 => ⟨S_, .i32⟩
  | 25 => ⟨S680000, .i32⟩
  | 26 => ⟨S680000, .i1⟩
  | 27 => ⟨S_, .i32⟩
  | 28 => ⟨S680000, .i32⟩
  | 29 => ⟨S680000, .i32⟩
  | 30 => ⟨S680000, .i32⟩
  | 31 => ⟨S680000x1, .i32⟩
  | 32 => ⟨S680000, .f32⟩
  | 33 => ⟨S_, .i32⟩
  | 34 => ⟨S680000, .i32⟩
  | 35 => ⟨S680000, .i1⟩
  | 36 => ⟨S_, .i32⟩
  | 37 => ⟨S680000, .i32⟩
  | 38 => ⟨S680000, .i32⟩
  | 39 => ⟨S680000, .i32⟩
  | 40 => ⟨S680000x1, .i32⟩
  | 41 => ⟨S680000, .f32⟩
  | 42 => ⟨S680000, .f32⟩
  | 43 => ⟨S40000x128, .f32⟩
  | 44 => ⟨S_, .i32⟩
  | 45 => ⟨S680000, .i32⟩
  | 46 => ⟨S680000, .i1⟩
  | 47 => ⟨S_, .i32⟩
  | 48 => ⟨S680000, .i32⟩
  | 49 => ⟨S680000, .i32⟩
  | 50 => ⟨S680000, .i32⟩
  | 51 => ⟨S680000x1, .i32⟩
  | 52 => ⟨S680000x128, .f32⟩
  | 53 => ⟨S680000x1, .f32⟩
  | 54 => ⟨S680000x128, .f32⟩
  | 55 => ⟨S680000x128, .f32⟩
  | 56 => ⟨S_, .f32⟩
  | 57 => ⟨S40000x128, .f32⟩
  | 58 => ⟨S680000x1, .i32⟩
  | 59 => ⟨S40000x128, .f32⟩
  | 60 => ⟨S1x128, .f32⟩
  | 61 => ⟨S40000x128, .f32⟩
  | 62 => ⟨S40000x128, .f32⟩
  | 63 => ⟨S_, .f32⟩
  | 64 => ⟨S128, .f32⟩
  | 65 => ⟨S_, .f32⟩
  | 66 => ⟨S128, .f32⟩
  | 67 => ⟨S128, .f32⟩
  | 68 => ⟨S_, .i32⟩
  | 69 => ⟨S_, .f32⟩
  | 70 => ⟨S128, .f32⟩
  | 71 => ⟨S1x128, .f32⟩
  | 72 => ⟨S_, .f32⟩
  | 73 => ⟨S1x128, .f32⟩
  | 74 => ⟨S1x128, .f32⟩
  | 75 => ⟨S40000x128, .f32⟩
  | 76 => ⟨S40000x128, .f32⟩
  | 77 => ⟨S40000x128, .f32⟩
  | 78 => ⟨S_, .f32⟩
  | 79 => ⟨S_, .f32⟩
  | 80 => ⟨S_, .f32⟩
  | 81 => ⟨S_, .f32⟩
  | 82 => ⟨S128, .f32⟩
  | 83 => ⟨S128, .f32⟩
  | 84 => ⟨S128, .f32⟩
  | 85 => ⟨S_, .f32⟩
  | 86 => ⟨S_, .i1⟩
  | 87 => ⟨S_, .f32⟩
  | 88 => ⟨S_, .f32⟩
  | 89 => ⟨S128, .f32⟩
  | 90 => ⟨S128, .f32⟩
  | 91 => ⟨S1x128, .f32⟩
  | 92 => ⟨S1x128, .f32⟩
  | 93 => ⟨S1x128, .f32⟩
  | 94 => ⟨S1x128, .f32⟩
  | 95 => ⟨S40000x128, .f32⟩
  | 96 => ⟨S40000x128, .f32⟩
  | 97 => ⟨S_, .i32⟩
  | 98 => ⟨S680000, .i32⟩
  | 99 => ⟨S680000, .i1⟩
  | 100 => ⟨S_, .i32⟩
  | 101 => ⟨S680000, .i32⟩
  | 102 => ⟨S680000, .i32⟩
  | 103 => ⟨S680000, .i32⟩
  | 104 => ⟨S680000x1, .i32⟩
  | 105 => ⟨S680000x128, .f32⟩
  | 106 => ⟨S680000x1, .f32⟩
  | 107 => ⟨S680000x128, .f32⟩
  | 108 => ⟨S680000x128, .f32⟩
  | 109 => ⟨S_, .f32⟩
  | 110 => ⟨S40000x128, .f32⟩
  | 111 => ⟨S680000x1, .i32⟩
  | 112 => ⟨S40000x128, .f32⟩
  | 113 => ⟨S1x128, .f32⟩
  | 114 => ⟨S40000x128, .f32⟩
  | 115 => ⟨S40000x128, .f32⟩
  | 116 => ⟨S_, .f32⟩
  | 117 => ⟨S128, .f32⟩
  | 118 => ⟨S_, .f32⟩
  | 119 => ⟨S128, .f32⟩
  | 120 => ⟨S128, .f32⟩
  | 121 => ⟨S_, .i32⟩
  | 122 => ⟨S_, .f32⟩
  | 123 => ⟨S128, .f32⟩
  | 124 => ⟨S1x128, .f32⟩
  | 125 => ⟨S_, .f32⟩
  | 126 => ⟨S1x128, .f32⟩
  | 127 => ⟨S1x128, .f32⟩
  | _ => ⟨S40000x128, .f32⟩

abbrev hbmTy0_1 (i : Nat) : BufTy := match i % 128 with
  | 0 => ⟨S40000x128, .f32⟩
  | 1 => ⟨S40000x128, .f32⟩
  | 2 => ⟨S40000x128, .f32⟩
  | 3 => ⟨S_, .f32⟩
  | 4 => ⟨S_, .f32⟩
  | 5 => ⟨S_, .f32⟩
  | 6 => ⟨S_, .f32⟩
  | 7 => ⟨S128, .f32⟩
  | 8 => ⟨S128, .f32⟩
  | 9 => ⟨S128, .f32⟩
  | 10 => ⟨S_, .f32⟩
  | 11 => ⟨S_, .i1⟩
  | 12 => ⟨S_, .f32⟩
  | 13 => ⟨S_, .f32⟩
  | 14 => ⟨S128, .f32⟩
  | 15 => ⟨S128, .f32⟩
  | 16 => ⟨S1x128, .f32⟩
  | 17 => ⟨S1x128, .f32⟩
  | 18 => ⟨S1x128, .f32⟩
  | 19 => ⟨S1x128, .f32⟩
  | 20 => ⟨S40000x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S128x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_cst_0 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_v7 : Ref sig .tc := ⟨.hbm, 78, rfl⟩
abbrev main_call0_cst_1 : Ref sig .tc := ⟨.hbm, 79, rfl⟩
abbrev main_call0_v8 : Ref sig .tc := ⟨.hbm, 80, rfl⟩
abbrev main_call0_cst_2 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_cst_3 : Ref sig .tc := ⟨.hbm, 85, rfl⟩
abbrev main_call0_v12 : Ref sig .tc := ⟨.hbm, 86, rfl⟩
abbrev main_call0_cst_4 : Ref sig .tc := ⟨.hbm, 87, rfl⟩
abbrev main_call0_call0_v0 : Ref sig .tc := ⟨.hbm, 88, rfl⟩
abbrev main_call0_call0_v1 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_c_10 : Ref sig .tc := ⟨.hbm, 97, rfl⟩
abbrev main_v54 : Ref sig .tc := ⟨.hbm, 98, rfl⟩
abbrev main_v55 : Ref sig .tc := ⟨.hbm, 99, rfl⟩
abbrev main_c_11 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_12 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_13 : Ref sig .tc := ⟨.hbm, 116, rfl⟩
abbrev main_v70 : Ref sig .tc := ⟨.hbm, 117, rfl⟩
abbrev main_cst_14 : Ref sig .tc := ⟨.hbm, 118, rfl⟩
abbrev main_v71 : Ref sig .tc := ⟨.hbm, 119, rfl⟩
abbrev main_v72 : Ref sig .tc := ⟨.hbm, 120, rfl⟩
abbrev main_c_15 : Ref sig .tc := ⟨.hbm, 121, rfl⟩
abbrev main_call1_cst : Ref sig .tc := ⟨.hbm, 122, rfl⟩
abbrev main_call1_v0 : Ref sig .tc := ⟨.hbm, 123, rfl⟩
abbrev main_call1_v1 : Ref sig .tc := ⟨.hbm, 124, rfl⟩
abbrev main_call1_cst_0 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_call1_v5 : Ref sig .tc := ⟨.hbm, 129, rfl⟩
abbrev main_call1_v6 : Ref sig .tc := ⟨.hbm, 130, rfl⟩
abbrev main_call1_v7 : Ref sig .tc := ⟨.hbm, 131, rfl⟩
abbrev main_call1_cst_1 : Ref sig .tc := ⟨.hbm, 132, rfl⟩
abbrev main_call1_v8 : Ref sig .tc := ⟨.hbm, 133, rfl⟩
abbrev main_call1_cst_2 : Ref sig .tc := ⟨.hbm, 134, rfl⟩
abbrev main_call1_v9 : Ref sig .tc := ⟨.hbm, 135, rfl⟩
abbrev main_call1_v10 : Ref sig .tc := ⟨.hbm, 136, rfl⟩
abbrev main_call1_v11 : Ref sig .tc := ⟨.hbm, 137, rfl⟩
abbrev main_call1_cst_3 : Ref sig .tc := ⟨.hbm, 138, rfl⟩
abbrev main_call1_v12 : Ref sig .tc := ⟨.hbm, 139, rfl⟩
abbrev main_call1_cst_4 : Ref sig .tc := ⟨.hbm, 140, rfl⟩
abbrev main_call1_call0_v0 : Ref sig .tc := ⟨.hbm, 141, rfl⟩
abbrev main_call1_call0_v1 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S40000x128_S128_d0 : S40000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S4000x128_S128x128_S4000x128_1_0_0_1_n_n_wf : DotDims.WF S4000x128 S128x128 S4000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S40000x128.size a
  hwx0_2 : ∀ i : grid0.Coords, EltTy.bits .f32 = 32 ∨ (Rect.block (s := S40000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S40000x128.size a
  hwx1_5 : ∀ i : grid1.Coords, EltTy.bits .f32 = 32 ∨ (Rect.block (s := S40000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .f32 = 32 ∨ (Rect.block (s := S40000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S40000x128.size a
  hwx2_2 : ∀ i : grid2.Coords, EltTy.bits .f32 = 32 ∨ (Rect.block (s := S40000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S40000x128.size a
  hwx3_0 : ∀ i : grid3.Coords, EltTy.bits .f32 = 32 ∨ (Rect.block (s := S40000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S40000x128.size a
  hwx3_5 : ∀ i : grid3.Coords, EltTy.bits .f32 = 32 ∨ (Rect.block (s := S40000x128) S4000x128.size (cc3_transform_5 i) (hinb3_5 i)).WholeWords (EltTy.packing .f32)

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v69) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S680000x128 : Shape := ⟨2, ![680000, 128]⟩
abbrev S1x128 : Shape := ⟨2, ![1, 128]⟩

abbrev nBuf : Space → Nat
  | .hbm => 210
  | .vmem => 0
  | .smem => 0
  | _ => 0

abbrev hbmTy0_0 (i : Nat) : BufTy := match i % 128 with
  | 0 => ⟨S40000x128, .f32⟩
  | 1 => ⟨S2x640000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S40000, .i32⟩
  | 11 => ⟨S1x640000, .i32⟩
  | 12 => ⟨S640000, .i32⟩
  | 13 => ⟨S680000, .i32⟩
  | 14 => ⟨S1x640000, .i32⟩
  | 15 => ⟨S640000, .i32⟩
  | 16 => ⟨S680000, .i32⟩
  | 17 => ⟨S_, .f32⟩
  | 18 => ⟨S680000, .f32⟩
  | 19 => ⟨S_, .f32⟩
  | 20 => ⟨S40000, .f32⟩
  | 21 => ⟨S680000x1, .i32⟩
  | 22 => ⟨S40000, .f32⟩
  | 23 => ⟨S40000, .f32⟩
  | 24 => ⟨S_, .i32⟩
  | 25 => ⟨S680000, .i32⟩
  | 26 => ⟨S680000, .i1⟩
  | 27 => ⟨S_, .i32⟩
  | 28 => ⟨S680000, .i32⟩
  | 29 => ⟨S680000, .i32⟩
  | 30 => ⟨S680000, .i32⟩
  | 31 => ⟨S680000x1, .i32⟩
  | 32 => ⟨S680000, .f32⟩
  | 33 => ⟨S_, .i32⟩
  | 34 => ⟨S680000, .i32⟩
  | 35 => ⟨S680000, .i1⟩
  | 36 => ⟨S_, .i32⟩
  | 37 => ⟨S680000, .i32⟩
  | 38 => ⟨S680000, .i32⟩
  | 39 => ⟨S680000, .i32⟩
  | 40 => ⟨S680000x1, .i32⟩
  | 41 => ⟨S680000, .f32⟩
  | 42 => ⟨S680000, .f32⟩
  | 43 => ⟨S40000x128, .f32⟩
  | 44 => ⟨S_, .i32⟩
  | 45 => ⟨S680000, .i32⟩
  | 46 => ⟨S680000, .i1⟩
  | 47 => ⟨S_, .i32⟩
  | 48 => ⟨S680000, .i32⟩
  | 49 => ⟨S680000, .i32⟩
  | 50 => ⟨S680000, .i32⟩
  | 51 => ⟨S680000x1, .i32⟩
  | 52 => ⟨S680000x128, .f32⟩
  | 53 => ⟨S680000x1, .f32⟩
  | 54 => ⟨S680000x128, .f32⟩
  | 55 => ⟨S680000x128, .f32⟩
  | 56 => ⟨S_, .f32⟩
  | 57 => ⟨S40000x128, .f32⟩
  | 58 => ⟨S680000x1, .i32⟩
  | 59 => ⟨S40000x128, .f32⟩
  | 60 => ⟨S1x128, .f32⟩
  | 61 => ⟨S40000x128, .f32⟩
  | 62 => ⟨S40000x128, .f32⟩
  | 63 => ⟨S_, .f32⟩
  | 64 => ⟨S128, .f32⟩
  | 65 => ⟨S_, .f32⟩
  | 66 => ⟨S128, .f32⟩
  | 67 => ⟨S128, .f32⟩
  | 68 => ⟨S_, .i32⟩
  | 69 => ⟨S_, .f32⟩
  | 70 => ⟨S128, .f32⟩
  | 71 => ⟨S1x128, .f32⟩
  | 72 => ⟨S_, .f32⟩
  | 73 => ⟨S1x128, .f32⟩
  | 74 => ⟨S1x128, .f32⟩
  | 75 => ⟨S40000x128, .f32⟩
  | 76 => ⟨S40000x128, .f32⟩
  | 77 => ⟨S40000x128, .f32⟩
  | 78 => ⟨S_, .f32⟩
  | 79 => ⟨S_, .f32⟩
  | 80 => ⟨S_, .f32⟩
  | 81 => ⟨S_, .f32⟩
  | 82 => ⟨S128, .f32⟩
  | 83 => ⟨S128, .f32⟩
  | 84 => ⟨S128, .f32⟩
  | 85 => ⟨S_, .f32⟩
  | 86 => ⟨S_, .i1⟩
  | 87 => ⟨S_, .f32⟩
  | 88 => ⟨S_, .f32⟩
  | 89 => ⟨S128, .f32⟩
  | 90 => ⟨S128, .f32⟩
  | 91 => ⟨S1x128, .f32⟩
  | 92 => ⟨S40000x128, .f32⟩
  | 93 => ⟨S40000x128, .f32⟩
  | 94 => ⟨S1x128, .f32⟩
  | 95 => ⟨S40000x128, .f32⟩
  | 96 => ⟨S40000x128, .f32⟩
  | 97 => ⟨S_, .f32⟩
  | 98 => ⟨S128, .f32⟩
  | 99 => ⟨S128, .f32⟩
  | 100 => ⟨S128, .f32⟩
  | 101 => ⟨S1x128, .f32⟩
  | 102 => ⟨S40000x128, .f32⟩
  | 103 => ⟨S40000x128, .f32⟩
  | 104 => ⟨S1x128, .f32⟩
  | 105 => ⟨S40000x128, .f32⟩
  | 106 => ⟨S40000x128, .f32⟩
  | 107 => ⟨S_, .f32⟩
  | 108 => ⟨S40000x128, .f32⟩
  | 109 => ⟨S40000x128, .f32⟩
  | 110 => ⟨S40000, .i32⟩
  | 111 => ⟨S1x640000, .i32⟩
  | 112 => ⟨S640000, .i32⟩
  | 113 => ⟨S680000, .i32⟩
  | 114 => ⟨S1x640000, .i32⟩
  | 115 => ⟨S640000, .i32⟩
  | 116 => ⟨S680000, .i32⟩
  | 117 => ⟨S_, .f32⟩
  | 118 => ⟨S680000, .f32⟩
  | 119 => ⟨S_, .f32⟩
  | 120 => ⟨S40000, .f32⟩
  | 121 => ⟨S680000x1, .i32⟩
  | 122 => ⟨S40000, .f32⟩
  | 123 => ⟨S40000, .f32⟩
  | 124 => ⟨S_, .i32⟩
  | 125 => ⟨S680000, .i32⟩
  | 126 => ⟨S680000, .i1⟩
  | 127 => ⟨S_, .i32⟩
  | _ => ⟨S40000x128, .f32⟩

abbrev hbmTy0_1 (i : Nat) : BufTy := match i % 128 with
  | 0 => ⟨S680000, .i32⟩
  | 1 => ⟨S680000, .i32⟩
  | 2 => ⟨S680000, .i32⟩
  | 3 => ⟨S680000x1, .i32⟩
  | 4 => ⟨S680000, .f32⟩
  | 5 => ⟨S_, .i32⟩
  | 6 => ⟨S680000, .i32⟩
  | 7 => ⟨S680000, .i1⟩
  | 8 => ⟨S_, .i32⟩
  | 9 => ⟨S680000, .i32⟩
  | 10 => ⟨S680000, .i32⟩
  | 11 => ⟨S680000, .i32⟩
  | 12 => ⟨S680000x1, .i32⟩
  | 13 => ⟨S680000, .f32⟩
  | 14 => ⟨S680000, .f32⟩
  | 15 => ⟨S40000x128, .f32⟩
  | 16 => ⟨S_, .i32⟩
  | 17 => ⟨S680000, .i32⟩
  | 18 => ⟨S680000, .i1⟩
  | 19 => ⟨S_, .i32⟩
  | 20 => ⟨S680000, .i32⟩
  | 21 => ⟨S680000, .i32⟩
  | 22 => ⟨S680000, .i32⟩
  | 23 => ⟨S680000x1, .i32⟩
  | 24 => ⟨S680000x128, .f32⟩
  | 25 => ⟨S680000x1, .f32⟩
  | 26 => ⟨S680000x128, .f32⟩
  | 27 => ⟨S680000x128, .f32⟩
  | 28 => ⟨S_, .f32⟩
  | 29 => ⟨S40000x128, .f32⟩
  | 30 => ⟨S680000x1, .i32⟩
  | 31 => ⟨S40000x128, .f32⟩
  | 32 => ⟨S1x128, .f32⟩
  | 33 => ⟨S40000x128, .f32⟩
  | 34 => ⟨S40000x128, .f32⟩
  | 35 => ⟨S_, .f32⟩
  | 36 => ⟨S128, .f32⟩
  | 37 => ⟨S_, .f32⟩
  | 38 => ⟨S128, .f32⟩
  | 39 => ⟨S128, .f32⟩
  | 40 => ⟨S_, .i32⟩
  | 41 => ⟨S_, .f32⟩
  | 42 => ⟨S128, .f32⟩
  | 43 => ⟨S1x128, .f32⟩
  | 44 => ⟨S_, .f32⟩
  | 45 => ⟨S1x128, .f32⟩
  | 46 => ⟨S1x128, .f32⟩
  | 47 => ⟨S40000x128, .f32⟩
  | 48 => ⟨S40000x128, .f32⟩
  | 49 => ⟨S40000x128, .f32⟩
  | 50 => ⟨S_, .f32⟩
  | 51 => ⟨S_, .f32⟩
  | 52 => ⟨S_, .f32⟩
  | 53 => ⟨S_, .f32⟩
  | 54 => ⟨S128, .f32⟩
  | 55 => ⟨S128, .f32⟩
  | 56 => ⟨S128, .f32⟩
  | 57 => ⟨S_, .f32⟩
  | 58 => ⟨S_, .i1⟩
  | 59 => ⟨S_, .f32⟩
  | 60 => ⟨S_, .f32⟩
  | 61 => ⟨S128, .f32⟩
  | 62 => ⟨S128, .f32⟩
  | 63 => ⟨S1x128, .f32⟩
  | 64 => ⟨S40000x128, .f32⟩
  | 65 => ⟨S40000x128, .f32⟩
  | 66 => ⟨S1x128, .f32⟩
  | 67 => ⟨S40000x128, .f32⟩
  | 68 => ⟨S40000x128, .f32⟩
  | 69 => ⟨S_, .f32⟩
  | 70 => ⟨S128, .f32⟩
  | 71 => ⟨S128, .f32⟩
  | 72 => ⟨S128, .f32⟩
  | 73 => ⟨S1x128, .f32⟩
  | 74 => ⟨S40000x128, .f32⟩
  | 75 => ⟨S40000x128, .f32⟩
  | 76 => ⟨S1x128, .f32⟩
  | 77 => ⟨S40000x128, .f32⟩
  | 78 => ⟨S40000x128, .f32⟩
  | 79 => ⟨S_, .f32⟩
  | 80 => ⟨S40000x128, .f32⟩
  | 81 => ⟨S40000x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_cst_0 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_v7 : Ref sig .tc := ⟨.hbm, 78, rfl⟩
abbrev main_call0_cst_1 : Ref sig .tc := ⟨.hbm, 79, rfl⟩
abbrev main_call0_v8 : Ref sig .tc := ⟨.hbm, 80, rfl⟩
abbrev main_call0_cst_2 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_cst_3 : Ref sig .tc := ⟨.hbm, 85, rfl⟩
abbrev main_call0_v12 : Ref sig .tc := ⟨.hbm, 86, rfl⟩
abbrev main_call0_cst_4 : Ref sig .tc := ⟨.hbm, 87, rfl⟩
abbrev main_call0_call0_v0 : Ref sig .tc := ⟨.hbm, 88, rfl⟩
abbrev main_call0_call0_v1 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_10 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_call1_cst : Ref sig .tc := ⟨.hbm, 107, rfl⟩
abbrev main_call1_v0 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_11 : Ref sig .tc := ⟨.hbm, 117, rfl⟩
abbrev main_v71 : Ref sig .tc := ⟨.hbm, 118, rfl⟩
abbrev main_cst_12 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_c_13 : Ref sig .tc := ⟨.hbm, 124, rfl⟩
abbrev main_v76 : Ref sig .tc := ⟨.hbm, 125, rfl⟩
abbrev main_v77 : Ref sig .tc := ⟨.hbm, 126, rfl⟩
abbrev main_c_14 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_c_15 : Ref sig .tc := ⟨.hbm, 133, rfl⟩
abbrev main_v83 : Ref sig .tc := ⟨.hbm, 134, rfl⟩
abbrev main_v84 : Ref sig .tc := ⟨.hbm, 135, rfl⟩
abbrev main_c_16 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_c_17 : Ref sig .tc := ⟨.hbm, 144, rfl⟩
abbrev main_v92 : Ref sig .tc := ⟨.hbm, 145, rfl⟩
abbrev main_v93 : Ref sig .tc := ⟨.hbm, 146, rfl⟩
abbrev main_c_18 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_cst_19 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_20 : Ref sig .tc := ⟨.hbm, 163, rfl⟩
abbrev main_v108 : Ref sig .tc := ⟨.hbm, 164, rfl⟩
abbrev main_cst_21 : Ref sig .tc := ⟨.hbm, 165, rfl⟩
abbrev main_v109 : Ref sig .tc := ⟨.hbm, 166, rfl⟩
abbrev main_v110 : Ref sig .tc := ⟨.hbm, 167, rfl⟩
abbrev main_c_22 : Ref sig .tc := ⟨.hbm, 168, rfl⟩
abbrev main_call2_cst : Ref sig .tc := ⟨.hbm, 169, rfl⟩
abbrev main_call2_v0 : Ref sig .tc := ⟨.hbm, 170, rfl⟩
abbrev main_call2_v1 : Ref sig .tc := ⟨.hbm, 171, rfl⟩
abbrev main_call2_cst_0 : Ref sig .tc := ⟨.hbm, 172, rfl⟩
abbrev main_call2_v2 : Ref sig .tc := ⟨.hbm, 173, rfl⟩
abbrev main_call2_v3 : Ref sig .tc := ⟨.hbm, 174, rfl⟩
abbrev main_call2_v4 : Ref sig .tc := ⟨.hbm, 175, rfl⟩
abbrev main_call2_v5 : Ref sig .tc := ⟨.hbm, 176, rfl⟩
abbrev main_call2_v6 : Ref sig .tc := ⟨.hbm, 177, rfl⟩
abbrev main_call2_v7 : Ref sig .tc := ⟨.hbm, 178, rfl⟩
abbrev main_call2_cst_1 : Ref sig .tc := ⟨.hbm, 179, rfl⟩
abbrev main_call2_v8 : Ref sig .tc := ⟨.hbm, 180, rfl⟩
abbrev main_call2_cst_2 : Ref sig .tc := ⟨.hbm, 181, rfl⟩
abbrev main_call2_v9 : Ref sig .tc := ⟨.hbm, 182, rfl⟩
abbrev main_call2_v10 : Ref sig .tc := ⟨.hbm, 183, rfl⟩
abbrev main_call2_v11 : Ref sig .tc := ⟨.hbm, 184, rfl⟩
abbrev main_call2_cst_3 : Ref sig .tc := ⟨.hbm, 185, rfl⟩
abbrev main_call2_v12 : Ref sig .tc := ⟨.hbm, 186, rfl⟩
abbrev main_call2_cst_4 : Ref sig .tc := ⟨.hbm, 187, rfl⟩
abbrev main_call2_call0_v0 : Ref sig .tc := ⟨.hbm, 188, rfl⟩
abbrev main_call2_call0_v1 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_cst_23 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_call3_cst : Ref sig .tc := ⟨.hbm, 207, rfl⟩
abbrev main_call3_v0 : Ref sig .tc := ⟨.hbm, 208, rfl⟩
abbrev main_v127 : Ref sig .tc := ⟨.hbm, 209, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S40000x128_S128_d0 : S40000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S40000x128_S128x128_S40000x128_1_0_0_1_n_n_wf : DotDims.WF S40000x128 S128x128 S40000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf

class Facts : Prop extends Facts₀ where

variable [Facts]
-- ==== Proof.KernelRun.lean ====
/-
  The kernel's run with its result array named.

  @main is eleven segments: a stretch of host operations, then a region per launched kernel, in order.  From any memory
  with zero counters every weakly fair execution passes through them in turn and terminates, nothing faulting; the
  last thread state holds every unscoped buffer at the last boundary's contents.  Reading that state at the result
  buffer as well as at the ten arguments gives the run with the result at the last boundary's contents and the
  arguments as launched.
-/
import proofs.«136930_j9698036155164_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result array at the last boundary's contents and the
    ten argument arrays as launched. -/
theorem run_named : θ_run defs (onTc (τ := τ) (main (F := F))) ⟨m, fun _ => 0, ρ⟩ (fun r => ∀ c : Dev nD,
      r.2.mem ((c.tc : Thread nD τ).loc main_v78) = W11 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v78 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.KernelRun

end
-- ==== Proof.HostSpec.lean ====
/-
  The host-side pieces of the two-layer graph convolution, each as ONE function of the arrays it reads, for any
  float values: the edge list with a self-loop appended for every node (`srcOf`, `dstOf`), an index column wrapped
  the way a negative position is (`wrap`: v + 40000 where v < 0), the inverse square root of the in-degree
  (`degInv`: a scatter-add of ones at the targets, then rsqrt), the symmetric edge weight dinv[src]·dinv[dst]
  (`normOf`), one aggregation step plus bias (`aggOf`: rows of h gathered at the sources, scaled by the edge
  weight, scatter-added at the targets into zeros, the bias row added), the column mean and the column variance
  of a table over its 40000 rows (`meanOf`, `varOf`: mean of squared deviations, kept under the
  "divisor positive" guard the variance is spelled with), a length-128 vector re-laid as a 1×128 row (`rowOf`), and the
  normalise–scale–shift–rectify chain spelled with whole-array operations (`bnHost`).
  None of these is opened by the certificate: both programs apply the same functions, so only their arguments are compared.
-/
import proofs.«136930_j9698036155164_1_alg».proof.KernelIdeal

noncomputable section

namespace Cert.KernelIdeal.HostSpec

open Idealize.ShloMosaic Cert.KernelIdeal Cert.KernelIdeal.Facts₀ Cert.KernelIdeal.Facts

/-- The contents of a buffer of shape `s` and element type `e`. -/
abbrev Ct (F : FTy → Type) (s : Shape) (e : EltTy) : Type := (⟨s, e⟩ : BufTy).Contents (Elt F)

variable {F : FTy → Type} [FloatOps F] [Facts]

/-- Node numbers 0 … 39999: the self-loops' endpoints. -/
def loopIdx : Ct F S40000 (.i32) := iotaInDim S40000 32 0

/-- Row `r` of the 2×640000 edge list followed by the self-loops. -/
def srcOf (ei : Ct F S2x640000 .i32) : Ct F S680000 .i32 :=
  concatenate S680000 0 [⟨S640000, fun i => shapeCast S640000 (extractStridedSlice S1x640000 ![0, 0] ei slices_S2x640000_S1x640000_0_0) shapeCasts_S1x640000_S640000 i⟩, ⟨S40000, loopIdx⟩] concatenates_S640000_S40000_S680000_d0

def dstOf (ei : Ct F S2x640000 .i32) : Ct F S680000 .i32 :=
  concatenate S680000 0 [⟨S640000, fun i => shapeCast S640000 (extractStridedSlice S1x640000 ![1, 0] ei slices_S2x640000_S1x640000_1_0) shapeCasts_S1x640000_S640000 i⟩, ⟨S40000, loopIdx⟩] concatenates_S640000_S40000_S680000_d0

/-- A position vector kept as a column. -/
def colOf (v : Ct F S680000 .i32) : Ct F S680000x1 .i32 := broadcastInDim S680000x1 ![0] bcast_S680000_S680000x1_0 v

/-- Positions below zero moved up by the table's length, as a column. -/
def wrap (v : Ct F S680000 .i32) : Ct F S680000x1 .i32 :=
  colOf (select (cmpi .slt v (broadcastInDim S680000 ![] bcast_S_S680000 (constantI S_ 32 0#32 : Ct F S_ .i32)))
    (addi v (broadcastInDim S680000 ![] bcast_S_S680000 (constantI S_ 32 40000#32 : Ct F S_ .i32))) v)

/-- deg^(-1/2): ones scatter-added at the targets into zeros, then the inverse square root. -/
def degInv (dst : Ct F S680000 .i32) : Ct F S40000 .f32 :=
  Host.rsqrt (Host.scatterAdd scatter_S40000_S680000x1_S680000_n_0_0_1
    (broadcastInDim S40000 ![] bcast_S_S40000 (constant S_ .f32 0x00000000#32 : Ct F S_ .f32))
    (colOf dst)
    (broadcastInDim S680000 ![] bcast_S_S680000 (constant S_ .f32 0x3F800000#32 : Ct F S_ .f32)))

/-- The edge weight dinv[src] · dinv[dst]. -/
def normOf (src dst : Ct F S680000 .i32) : Ct F S680000 .f32 :=
  mulf (Host.gather gather_S40000_S680000x1_S680000_n_0_n_n_0_1_1 (degInv dst) (wrap src))
    (Host.gather gather_S40000_S680000x1_S680000_n_0_n_n_0_1_1 (degInv dst) (wrap dst))

/-- A length-128 vector in every one of the 40000 rows. -/
def spread (b : Ct F S128 .f32) : Ct F S40000x128 .f32 :=
  broadcastInDim S40000x128 ![0, 1] bcast_S1x128_S40000x128_0_1 (broadcastInDim S1x128 ![1] bcast_S128_S1x128_1 b)

/-- One aggregation: Σ over edges into a target of weight · h[source], plus the bias. -/
def aggOf (h : Ct F S40000x128 .f32) (src dst : Ct F S680000 .i32) (nrm : Ct F S680000 .f32) (b : Ct F S128 .f32) :
    Ct F S40000x128 .f32 :=
  addf (Host.scatterAdd scatter_S40000x128_S680000x1_S680000x128_1_0_0_1
      (broadcastInDim S40000x128 ![] bcast_S_S40000x128 (constant S_ .f32 0x00000000#32 : Ct F S_ .f32))
      (colOf dst)
      (mulf (Host.gather gather_S40000x128_S680000x1_S680000x128_1_0_n_n_0_1_1128 h (wrap src))
        (broadcastInDim S680000x128 ![0, 1] bcast_S680000x1_S680000x128_0_1
          (broadcastInDim S680000x1 ![0] bcast_S680000_S680000x1_0 nrm))))
    (spread b)

/-- The column mean over the 40000 rows. -/
def meanOf (p : Ct F S40000x128 .f32) : Ct F S128 .f32 :=
  Host.divf (Host.reduceAdd p (constant S_ .f32 0x00000000#32 : Ct F S_ .f32) reducesTo_S40000x128_S128_d0 h_S_)
    (broadcastInDim S128 ![] bcast_S_S128 (constant S_ .f32 0x471C4000#32 : Ct F S_ .f32))

/-- The divisor of the variance: 40000 minus the correction, here the integer zero. -/
def varDen : Ct F S_ .f32 :=
  subf (constant S_ .f32 0x471C4000#32 : Ct F S_ .f32) (sitofp .f32 (constantI S_ 32 0#32 : Ct F S_ .i32))

/-- The column variance: the mean of the squared deviations from the column mean, guarded by "divisor > 0". -/
def varOf (p : Ct F S40000x128 .f32) : Ct F S128 .f32 :=
  select (broadcastInDim S128 ![] bcast_S_S128 (cmpf .ogt (varDen (F := F)) (constant S_ .f32 0x00000000#32 : Ct F S_ .f32)))
    (Host.divf
      (Host.reduceAdd
        (mulf
          (subf p (broadcastInDim S40000x128 ![0, 1] bcast_S1x128_S40000x128_0_1
            (Host.divf (broadcastInDim S1x128 ![1] bcast_S128_S1x128_1
                (Host.reduceAdd p (constant S_ .f32 0x00000000#32 : Ct F S_ .f32) reducesTo_S40000x128_S128_d0 h_S_))
              (broadcastInDim S1x128 ![] bcast_S_S1x128 (constant S_ .f32 0x471C4000#32 : Ct F S_ .f32)))))
          (subf p (broadcastInDim S40000x128 ![0, 1] bcast_S1x128_S40000x128_0_1
            (Host.divf (broadcastInDim S1x128 ![1] bcast_S128_S1x128_1
                (Host.reduceAdd p (constant S_ .f32 0x00000000#32 : Ct F S_ .f32) reducesTo_S40000x128_S128_d0 h_S_))
              (broadcastInDim S1x128 ![] bcast_S_S1x128 (constant S_ .f32 0x471C4000#32 : Ct F S_ .f32))))))
        (constant S_ .f32 0x00000000#32 : Ct F S_ .f32) reducesTo_S40000x128_S128_d0 h_S_)
      (broadcastInDim S128 ![] bcast_S_S128 (varDen (F := F))))
    (broadcastInDim S128 ![] bcast_S_S128 (id (constant S_ .f32 0x7FC00000#32 : Ct F S_ .f32)))

/-- A length-128 vector re-laid as a 1×128 row. -/
def rowOf (v : Ct F S128 .f32) : Ct F S1x128 .f32 := fun i => shapeCast S1x128 v shapeCasts_S128_S1x128 i

/-- Normalise, scale, shift and rectify with whole-array operations. -/
def bnHost (p : Ct F S40000x128 .f32) (mu va g be : Ct F S128 .f32) : Ct F S40000x128 .f32 :=
  maximumf
    (addf
      (mulf (mulf (spread g) (subf p (spread mu)))
        (spread (Host.rsqrt (addf va (broadcastInDim S128 ![] bcast_S_S128 (constant S_ .f32 0x3727C5AC#32 : Ct F S_ .f32))))))
      (spread be))
    (broadcastInDim S40000x128 ![] bcast_S_S40000x128 (constant S_ .f32 0x00000000#32 : Ct F S_ .f32))

end Cert.KernelIdeal.HostSpec

end
-- ==== Proof.HostStretches.lean ====
/-
  What the host operations between the kernel's four regions compute, for ANY contents `V` of the buffers they start
  from, each result named as one of the functions of HostSpec applied to the buffers read:

  * before the first region: the extended edge lists (sources, targets) and the symmetric edge weight, functions of the
    edge-index argument alone; no argument array is written;
  * between a matrix-product region and the following normalisation region: the aggregation of the product over the
    edges plus the bias, its column mean and column variance re-laid as 1×128 rows, and the scale and shift vectors
    re-laid as rows; the edge lists, the edge weight and the later arguments pass through unchanged.

  Each statement is the fold of the operations' results read at one buffer; the heavy operations (gather, scatter-add,
  the column sums) are kept closed, so that the comparison only matches the two spellings' shape.
-/
import proofs.«136930_j9698036155164_1_alg».proof.Proof.Gen.KernelIdeal.Launch
import proofs.«136930_j9698036155164_1_alg».proof.Proof.HostSpec
import Idealize.ShloMosaic.Lib.StableHlo.Run

noncomputable section

namespace Cert.KernelIdeal.Stretch

open Idealize.ShloMosaic Idealize.ShloMosaic.StableHlo Cert.KernelIdeal Cert.KernelIdeal.Gen Cert.KernelIdeal.HostSpec

variable {F : FTy → Type} [FloatOps F]

/-! ## Before the first region -/

attribute [local irreducible] Host.gather Host.scatterAdd Host.reduceAdd Host.rsqrt Host.divf concatenate in
theorem pre_src (V : Valuation τ sig (Elt F)) :
    after hostOps0 V (Proc.devRef .tc main_v3) = srcOf (V (Proc.devRef .tc main_arg1)) := by
  after_results_simp
  rfl

attribute [local irreducible] Host.gather Host.scatterAdd Host.reduceAdd Host.rsqrt Host.divf concatenate in
theorem pre_dst (V : Valuation τ sig (Elt F)) :
    after hostOps0 V (Proc.devRef .tc main_v6) = dstOf (V (Proc.devRef .tc main_arg1)) := by
  after_results_simp
  rfl

attribute [local irreducible] Host.gather Host.scatterAdd Host.reduceAdd Host.rsqrt Host.divf concatenate in
theorem pre_norm (V : Valuation τ sig (Elt F)) :
    after hostOps0 V (Proc.devRef .tc main_v26) = normOf (srcOf (V (Proc.devRef .tc main_arg1))) (dstOf (V (Proc.devRef .tc main_arg1))) := by
  after_results_simp
  rfl

attribute [local irreducible] Host.gather Host.scatterAdd Host.reduceAdd Host.rsqrt Host.divf concatenate in
theorem pre_arg0 (V : Valuation τ sig (Elt F)) :
    after hostOps0 V (Proc.devRef .tc main_arg0) = V (Proc.devRef .tc main_arg0) := by
  after_results_simp

attribute [local irreducible] Host.gather Host.scatterAdd Host.reduceAdd Host.rsqrt Host.divf concatenate in
theorem pre_arg2 (V : Valuation τ sig (Elt F)) :
    after hostOps0 V (Proc.devRef .tc main_arg2) = V (Proc.devRef .tc main_arg2) := by
  after_results_simp

attribute [local irreducible] Host.gather Host.scatterAdd Host.reduceAdd Host.rsqrt Host.divf concatenate in
theorem pre_arg3 (V : Valuation τ sig (Elt F)) :
    after hostOps0 V (Proc.devRef .tc main_arg3) = V (Proc.devRef .tc main_arg3) := by
  after_results_simp

attribute [local irreducible] Host.gather Host.scatterAdd Host.reduceAdd Host.rsqrt Host.divf concatenate in
theorem pre_arg4 (V : Valuation τ sig (Elt F)) :
    after hostOps0 V (Proc.devRef .tc main_arg4) = V (Proc.devRef .tc main_arg4) := by
  after_results_simp

attribute [local irreducible] Host.gather Host.scatterAdd Host.reduceAdd Host.rsqrt Host.divf concatenate in
theorem pre_arg5 (V : Valuation τ sig (Elt F)) :
    after hostOps0 V (Proc.devRef .tc main_arg5) = V (Proc.devRef .tc main_arg5) := by
  after_results_simp

attribute [local irreducible] Host.gather Host.scatterAdd Host.reduceAdd Host.rsqrt Host.divf concatenate in
theorem pre_arg6 (V : Valuation τ sig (Elt F)) :
    after hostOps0 V (Proc.devRef .tc main_arg6) = V (Proc.devRef .tc main_arg6) := by
  after_results_simp

attribute [local irreducible] Host.gather Host.scatterAdd Host.reduceAdd Host.rsqrt Host.divf concatenate in
theorem pre_arg7 (V : Valuation τ sig (Elt F)) :
    after hostOps0 V (Proc.devRef .tc main_arg7) = V (Proc.devRef .tc main_arg7) := by
  after_results_simp

attribute [local irreducible] Host.gather Host.scatterAdd Host.reduceAdd Host.rsqrt Host.divf concatenate in
theorem pre_arg8 (V : Valuation τ sig (Elt F)) :
    after hostOps0 V (Proc.devRef .tc main_arg8) = V (Proc.devRef .tc main_arg8) := by
  after_results_simp

attribute [local irreducible] Host.gather Host.scatterAdd Host.reduceAdd Host.rsqrt Host.divf concatenate in
theorem pre_arg9 (V : Valuation τ sig (Elt F)) :
    after hostOps0 V (Proc.devRef .tc main_arg9) = V (Proc.devRef .tc main_arg9) := by
  after_results_simp

/-! ## Between the first product and the first normalisation -/

attribute [local irreducible] Host.gather Host.scatterAdd Host.reduceAdd Host.rsqrt Host.divf concatenate in
theorem mid1_agg (V : Valuation τ sig (Elt F)) :
    after hostOps1_2 (after hostOps1_1 (after hostOps1 V)) (Proc.devRef .tc main_v43) = aggOf (V (Proc.devRef .tc main_v27)) (V (Proc.devRef .tc main_v3)) (V (Proc.devRef .tc main_v6)) (V (Proc.devRef .tc main_v26)) (V (Proc.devRef .tc main_arg3)) := by
  after_results_simp
  rfl

attribute [local irreducible] Host.gather Host.scatterAdd Host.reduceAdd Host.rsqrt Host.divf concatenate in
theorem mid1_mean (V : Valuation τ sig (Elt F)) :
    after hostOps1_2 (after hostOps1_1 (after hostOps1 V)) (Proc.devRef .tc main_v48) = rowOf (meanOf (aggOf (V (Proc.devRef .tc main_v27)) (V (Proc.devRef .tc main_v3)) (V (Proc.devRef .tc main_v6)) (V (Proc.devRef .tc main_v26)) (V (Proc.devRef .tc main_arg3)))) := by
  after_results_simp
  rfl

attribute [local irreducible] Host.gather Host.scatterAdd Host.reduceAdd Host.rsqrt Host.divf concatenate in
theorem mid1_var (V : Valuation τ sig (Elt F)) :
    after hostOps1_2 (after hostOps1_1 (after hostOps1 V)) (Proc.devRef .tc main_v49) = rowOf (varOf (aggOf (V (Proc.devRef .tc main_v27)) (V (Proc.devRef .tc main_v3)) (V (Proc.devRef .tc main_v6)) (V (Proc.devRef .tc main_v26)) (V (Proc.devRef .tc main_arg3)))) := by
  after_results_simp
  rfl

attribute [local irreducible] Host.gather Host.scatterAdd Host.reduceAdd Host.rsqrt Host.divf concatenate in
theorem mid1_scale (V : Valuation τ sig (Elt F)) :
    after hostOps1_2 (after hostOps1_1 (after hostOps1 V)) (Proc.devRef .tc main_v50) = rowOf (V (Proc.devRef .tc main_arg4)) := by
  after_results_simp
  rfl

attribute [local irreducible] Host.gather Host.scatterAdd Host.reduceAdd Host.rsqrt Host.divf concatenate in
theorem mid1_shift (V : Valuation τ sig (Elt F)) :
    after hostOps1_2 (after hostOps1_1 (after hostOps1 V)) (Proc.devRef .tc main_v51) = rowOf (V (Proc.devRef .tc main_arg5)) := by
  after_results_simp
  rfl

attribute [local irreducible] Host.gather Host.scatterAdd Host.reduceAdd Host.rsqrt Host.divf concatenate in
theorem mid1_keep_v3 (V : Valuation τ sig (Elt F)) :
    after hostOps1_2 (after hostOps1_1 (after hostOps1 V)) (Proc.devRef .tc main_v3) = V (Proc.devRef .tc main_v3) := by
  after_results_simp

attribute [local irreducible] Host.gather Host.scatterAdd Host.reduceAdd Host.rsqrt Host.divf concatenate in
theorem mid1_keep_v6 (V : Valuation τ sig (Elt F)) :
    after hostOps1_2 (after hostOps1_1 (after hostOps1 V)) (Proc.devRef .tc main_v6) = V (Proc.devRef .tc main_v6) := by
  after_results_simp

attribute [local irreducible] Host.gather Host.scatterAdd Host.reduceAdd Host.rsqrt Host.divf concatenate in
theorem mid1_keep_v26 (V : Valuation τ sig (Elt F)) :
    after hostOps1_2 (after hostOps1_1 (after hostOps1 V)) (Proc.devRef .tc main_v26) = V (Proc.devRef .tc main_v26) := by
  after_results_simp

attribute [local irreducible] Host.gather Host.scatterAdd Host.reduceAdd Host.rsqrt Host.divf concatenate in
theorem mid1_keep_arg6 (V : Valuation τ sig (Elt F)) :
    after hostOps1_2 (after hostOps1_1 (after hostOps1 V)) (Proc.devRef .tc main_arg6) = V (Proc.devRef .tc main_arg6) := by
  after_results_simp

attribute [local irreducible] Host.gather Host.scatterAdd Host.reduceAdd Host.rsqrt Host.divf concatenate in
theorem mid1_keep_arg7 (V : Valuation τ sig (Elt F)) :
    after hostOps1_2 (after hostOps1_1 (after hostOps1 V)) (Proc.devRef .tc main_arg7) = V (Proc.devRef .tc main_arg7) := by
  after_results_simp

attribute [local irreducible] Host.gather Host.scatterAdd Host.reduceAdd Host.rsqrt Host.divf concatenate in
theorem mid1_keep_arg8 (V : Valuation τ sig (Elt F)) :
    after hostOps1_2 (after hostOps1_1 (after hostOps1 V)) (Proc.devRef .tc main_arg8) = V (Proc.devRef .tc main_arg8) := by
  after_results_simp

attribute [local irreducible] Host.gather Host.scatterAdd Host.reduceAdd Host.rsqrt Host.divf concatenate in
theorem mid1_keep_arg9 (V : Valuation τ sig (Elt F)) :
    after hostOps1_2 (after hostOps1_1 (after hostOps1 V)) (Proc.devRef .tc main_arg9) = V (Proc.devRef .tc main_arg9) := by
  after_results_simp

/-! ## Between the second product and the second normalisation -/

attribute [local irreducible] Host.gather Host.scatterAdd Host.reduceAdd Host.rsqrt Host.divf concatenate in
theorem mid3_agg (V : Valuation τ sig (Elt F)) :
    after hostOps3_2 (after hostOps3_1 (after hostOps3 V)) (Proc.devRef .tc main_v69) = aggOf (V (Proc.devRef .tc main_v53)) (V (Proc.devRef .tc main_v3)) (V (Proc.devRef .tc main_v6)) (V (Proc.devRef .tc main_v26)) (V (Proc.devRef .tc main_arg7)) := by
  after_results_simp
  rfl

attribute [local irreducible] Host.gather Host.scatterAdd Host.reduceAdd Host.rsqrt Host.divf concatenate in
theorem mid3_mean (V : Valuation τ sig (Elt F)) :
    after hostOps3_2 (after hostOps3_1 (after hostOps3 V)) (Proc.devRef .tc main_v74) = rowOf (meanOf (aggOf (V (Proc.devRef .tc main_v53)) (V (Proc.devRef .tc main_v3)) (V (Proc.devRef .tc main_v6)) (V (Proc.devRef .tc main_v26)) (V (Proc.devRef .tc main_arg7)))) := by
  after_results_simp
  rfl

attribute [local irreducible] Host.gather Host.scatterAdd Host.reduceAdd Host.rsqrt Host.divf concatenate in
theorem mid3_var (V : Valuation τ sig (Elt F)) :
    after hostOps3_2 (after hostOps3_1 (after hostOps3 V)) (Proc.devRef .tc main_v75) = rowOf (varOf (aggOf (V (Proc.devRef .tc main_v53)) (V (Proc.devRef .tc main_v3)) (V (Proc.devRef .tc main_v6)) (V (Proc.devRef .tc main_v26)) (V (Proc.devRef .tc main_arg7)))) := by
  after_results_simp
  rfl

attribute [local irreducible] Host.gather Host.scatterAdd Host.reduceAdd Host.rsqrt Host.divf concatenate in
theorem mid3_scale (V : Valuation τ sig (Elt F)) :
    after hostOps3_2 (after hostOps3_1 (after hostOps3 V)) (Proc.devRef .tc main_v76) = rowOf (V (Proc.devRef .tc main_arg8)) := by
  after_results_simp
  rfl

attribute [local irreducible] Host.gather Host.scatterAdd Host.reduceAdd Host.rsqrt Host.divf concatenate in
theorem mid3_shift (V : Valuation τ sig (Elt F)) :
    after hostOps3_2 (after hostOps3_1 (after hostOps3 V)) (Proc.devRef .tc main_v77) = rowOf (V (Proc.devRef .tc main_arg9)) := by
  after_results_simp
  rfl

end Cert.KernelIdeal.Stretch

end
-- ==== Proof.LayerSpec.lean ====
/-
  The two dense pieces of a graph-convolution layer, entry by entry over the extended reals.

  `mm x w` is the matrix product of a 40000×128 table with a 128×128 weight matrix:
  (x·w)(p, q) = Σ_k x(p, k) · w(k, q).

  `bnRelu h mu va g be` is the affine normalisation of a table by per-column statistics kept as 1×128 rows,
  followed by the positive part:
  max( g(q) · (h(p, q) − mu(q)) · (va(q) + ε)^(-1/2) + be(q), 0 ),
  with ε the single-precision word nearest to 10⁻⁵ and the product associated as written
  (the scale first, the inverse standard deviation second).
-/
import Idealize.ShloMosaic.PureOps.Ideal
import Idealize.ShloMosaic.Lib.ValueIdx

noncomputable section

namespace Cert.Layers

open Idealize.ShloMosaic Idealize.ShloMosaic.ValueIdx

/-- The node table's shape, the weight matrix's, and a row of per-column statistics. -/
abbrev SN : Shape := ⟨2, ![40000, 128]⟩
abbrev SW : Shape := ⟨2, ![128, 128]⟩
abbrev SR : Shape := ⟨2, ![1, 128]⟩

/-- The matrix product, entry (p, q) the sum over the contracted coordinate. -/
def mm (x : FVec Ideal SN .f32) (w : FVec Ideal SW .f32) : FVec Ideal SN .f32 :=
  fun i => ∑ k : Fin 128, x (ix2 (i 0 : Fin 40000) k) * w (ix2 k (i 1 : Fin 128))

theorem mm_apply (x : FVec Ideal SN .f32) (w : FVec Ideal SW .f32) (p : Fin 40000) (q : Fin 128) :
    mm x w (ix2 p q) = ∑ k : Fin 128, x (ix2 p k) * w (ix2 k q) := rfl

/-- Normalise column q by its statistics, scale, shift, and keep the positive part. -/
def bnRelu (h : FVec Ideal SN .f32) (mu va g be : FVec Ideal SR .f32) : FVec Ideal SN .f32 :=
  fun i => max (g (ix2 (0 : Fin 1) (i 1 : Fin 128)) * (h i - mu (ix2 (0 : Fin 1) (i 1 : Fin 128)))
      * Ideal.rsqrt (va (ix2 (0 : Fin 1) (i 1 : Fin 128)) + Ideal.ofBits .f32 0x3727C5AC#32)
      + be (ix2 (0 : Fin 1) (i 1 : Fin 128))) (Ideal.ofBits .f32 0x00000000#32)

theorem bnRelu_apply (h : FVec Ideal SN .f32) (mu va g be : FVec Ideal SR .f32) (p : Fin 40000) (q : Fin 128) :
    bnRelu h mu va g be (ix2 p q)
      = max (g (ix2 (0 : Fin 1) q) * (h (ix2 p q) - mu (ix2 (0 : Fin 1) q))
          * Ideal.rsqrt (va (ix2 (0 : Fin 1) q) + Ideal.ofBits .f32 0x3727C5AC#32)
          + be (ix2 (0 : Fin 1) q)) (Ideal.ofBits .f32 0x00000000#32) := rfl

end Cert.Layers

end
-- ==== Proof.NetSpec.lean ====
/-
  The two-layer network as ONE function of the ten argument arrays, over the extended reals, in two spellings.

  A layer takes a node table x, multiplies it by a weight matrix, aggregates the product over the edges with the
  symmetric edge weights and adds the bias (`aggOf`), and normalises every column of the result by that column's own mean
  and variance, scales, shifts and rectifies.  `layer` spells the product entry by entry as a sum and the normalisation
  entry by entry over statistics kept as rows; `layerHost` spells the product as any given whole-array product `dot` and the
  normalisation with whole-array operations.  They agree as soon as `dot` is the matrix product and the two
  normalisations agree, and then so do the two networks: everything else in them is literally the same function.
-/
import proofs.«136930_j9698036155164_1_alg».proof.Proof.HostSpec
import proofs.«136930_j9698036155164_1_alg».proof.Proof.LayerSpec

noncomputable section

namespace Cert.KernelIdeal.NetSpec

open Idealize.ShloMosaic Cert.KernelIdeal Cert.KernelIdeal.HostSpec

variable [Facts]

/-- One layer, the dense pieces entry by entry. -/
def layer (x : Ct Ideal S40000x128 .f32) (src dst : Ct Ideal S680000 .i32) (nrm : Ct Ideal S680000 .f32)
    (W : Ct Ideal S128x128 .f32) (b g be : Ct Ideal S128 .f32) : Ct Ideal S40000x128 .f32 :=
  Cert.Layers.bnRelu (aggOf (Cert.Layers.mm x W) src dst nrm b)
    (rowOf (meanOf (aggOf (Cert.Layers.mm x W) src dst nrm b)))
    (rowOf (varOf (aggOf (Cert.Layers.mm x W) src dst nrm b))) (rowOf g) (rowOf be)

/-- The network: two layers over one edge list and one set of edge weights. -/
def net (x : Ct Ideal S40000x128 .f32) (ei : Ct Ideal S2x640000 .i32)
    (W1 : Ct Ideal S128x128 .f32) (b1 g1 be1 : Ct Ideal S128 .f32)
    (W2 : Ct Ideal S128x128 .f32) (b2 g2 be2 : Ct Ideal S128 .f32) : Ct Ideal S40000x128 .f32 :=
  layer (layer x (srcOf ei) (dstOf ei) (normOf (srcOf ei) (dstOf ei)) W1 b1 g1 be1)
    (srcOf ei) (dstOf ei) (normOf (srcOf ei) (dstOf ei)) W2 b2 g2 be2

/-- One layer, the dense pieces as whole-array operations, the product a parameter. -/
def layerHost (dot : Ct Ideal S40000x128 .f32 → Ct Ideal S128x128 .f32 → Ct Ideal S40000x128 .f32)
    (x : Ct Ideal S40000x128 .f32) (src dst : Ct Ideal S680000 .i32) (nrm : Ct Ideal S680000 .f32)
    (W : Ct Ideal S128x128 .f32) (b g be : Ct Ideal S128 .f32) : Ct Ideal S40000x128 .f32 :=
  bnHost (aggOf (dot x W) src dst nrm b) (meanOf (aggOf (dot x W) src dst nrm b))
    (varOf (aggOf (dot x W) src dst nrm b)) g be

/-- The network in the whole-array spelling; the edge weights are computed afresh for the second layer. -/
def netHost (dot : Ct Ideal S40000x128 .f32 → Ct Ideal S128x128 .f32 → Ct Ideal S40000x128 .f32)
    (x : Ct Ideal S40000x128 .f32) (ei : Ct Ideal S2x640000 .i32)
    (W1 : Ct Ideal S128x128 .f32) (b1 g1 be1 : Ct Ideal S128 .f32)
    (W2 : Ct Ideal S128x128 .f32) (b2 g2 be2 : Ct Ideal S128 .f32) : Ct Ideal S40000x128 .f32 :=
  layerHost dot (layerHost dot x (srcOf ei) (dstOf ei) (normOf (srcOf ei) (dstOf ei)) W1 b1 g1 be1)
    (srcOf ei) (dstOf ei) (normOf (srcOf ei) (dstOf ei)) W2 b2 g2 be2

/-- The two spellings are one network once the product is the matrix product and the normalisations agree. -/
theorem netHost_eq_net
    (dot : Ct Ideal S40000x128 .f32 → Ct Ideal S128x128 .f32 → Ct Ideal S40000x128 .f32)
    (hdot : ∀ x W, dot x W = Cert.Layers.mm x W)
    (hbn : ∀ (p : Ct Ideal S40000x128 .f32) (mu va g be : Ct Ideal S128 .f32),
      bnHost p mu va g be = Cert.Layers.bnRelu p (rowOf mu) (rowOf va) (rowOf g) (rowOf be))
    (x : Ct Ideal S40000x128 .f32) (ei : Ct Ideal S2x640000 .i32)
    (W1 : Ct Ideal S128x128 .f32) (b1 g1 be1 : Ct Ideal S128 .f32)
    (W2 : Ct Ideal S128x128 .f32) (b2 g2 be2 : Ct Ideal S128 .f32) :
    netHost dot x ei W1 b1 g1 be1 W2 b2 g2 be2 = net x ei W1 b1 g1 be1 W2 b2 g2 be2 := by
  unfold netHost net layerHost layer
  simp only [hdot, hbn]

end Cert.KernelIdeal.NetSpec

end
-- ==== Proof.KernelValue.lean ====
/-
  The kernel's result array as the network function of the launch arguments.

  The run's buffer contents at the eleven boundaries of @main are a fold from the launch memory: a host stretch applies
  its operations, a region replaces its output array by what its ten row blocks wrote and leaves every other buffer.
  Reading that fold backwards from the result: the last region's output is the normalisation of the second aggregation
  by its own column statistics; the aggregation reads the second product, which reads the first normalisation's output,
  and so on down to the arguments.  The edge lists and the edge weight are computed once, before the first region, and
  reach both aggregations unchanged because no region and no later operation writes them.  The four regions' values are
  taken as hypotheses here (each an equation for ANY entry contents) and supplied where the certificate is assembled.
-/
import proofs.«136930_j9698036155164_1_alg».proof.Proof.Gen.KernelIdeal.Frame
import proofs.«136930_j9698036155164_1_alg».proof.Proof.HostStretches
import proofs.«136930_j9698036155164_1_alg».proof.Proof.NetSpec

noncomputable section

namespace Cert.KernelIdeal.KernelValue

open Idealize.ShloMosaic Idealize.ShloMosaic.TcCoe Idealize.ShloMosaic.StableHlo Idealize.SL.Sem
open Cert.KernelIdeal Cert.KernelIdeal.Gen Cert.KernelIdeal.HostSpec Cert.KernelIdeal.NetSpec Cert.KernelIdeal.Stretch

variable (m : (ℓ : Loc nD τ sig) → Buf (Elt Ideal) ℓ) (ρ : Dev nD → PrngReg) (c : Dev nD)

/-- The contents type of the parameter every region is stated at. -/
abbrev Entry : Type := (c : Dev nD) → (b : Ref sig .tc) → Buf (Elt Ideal) ((c : Thread nD τ).loc b)

/-! ## After the first stretch and the first product -/

section
variable (h0 : ∀ (V : Entry) (c : Dev nD), (dat0 (F := Ideal) V c).arrAt 2 cfg0.N = Cert.Layers.mm (V c main_arg0) (V c main_arg2))
include h0

theorem at2_prod : W2 m ρ c (Proc.devRef .tc main_v27) = Cert.Layers.mm (m ((c : Thread nD τ).loc main_arg0)) (m ((c : Thread nD τ).loc main_arg2)) := by
  refine (W2_arr m ρ c 2).trans ((h0 (V1 m ρ) c).trans ?_)
  rw [show V1 m ρ c main_arg0 = (m ((c : Thread nD τ).loc main_arg0)) from pre_arg0 (W0 m ρ c),
    show V1 m ρ c main_arg2 = (m ((c : Thread nD τ).loc main_arg2)) from pre_arg2 (W0 m ρ c)]
end

theorem at2_src : W2 m ρ c (Proc.devRef .tc main_v3) = srcOf (m ((c : Thread nD τ).loc main_arg1)) :=
  (W2_of_ne m ρ c main_v3 (by decide)).trans (pre_src (W0 m ρ c))
theorem at2_dst : W2 m ρ c (Proc.devRef .tc main_v6) = dstOf (m ((c : Thread nD τ).loc main_arg1)) :=
  (W2_of_ne m ρ c main_v6 (by decide)).trans (pre_dst (W0 m ρ c))
theorem at2_norm : W2 m ρ c (Proc.devRef .tc main_v26) = normOf (srcOf (m ((c : Thread nD τ).loc main_arg1))) (dstOf (m ((c : Thread nD τ).loc main_arg1))) :=
  (W2_of_ne m ρ c main_v26 (by decide)).trans (pre_norm (W0 m ρ c))
theorem at2_arg3 : W2 m ρ c (Proc.devRef .tc main_arg3) = m ((c : Thread nD τ).loc main_arg3) :=
  (W2_of_ne m ρ c main_arg3 (by decide)).trans (pre_arg3 (W0 m ρ c))
theorem at2_arg4 : W2 m ρ c (Proc.devRef .tc main_arg4) = m ((c : Thread nD τ).loc main_arg4) :=
  (W2_of_ne m ρ c main_arg4 (by decide)).trans (pre_arg4 (W0 m ρ c))
theorem at2_arg5 : W2 m ρ c (Proc.devRef .tc main_arg5) = m ((c : Thread nD τ).loc main_arg5) :=
  (W2_of_ne m ρ c main_arg5 (by decide)).trans (pre_arg5 (W0 m ρ c))
theorem at2_arg6 : W2 m ρ c (Proc.devRef .tc main_arg6) = m ((c : Thread nD τ).loc main_arg6) :=
  (W2_of_ne m ρ c main_arg6 (by decide)).trans (pre_arg6 (W0 m ρ c))
theorem at2_arg7 : W2 m ρ c (Proc.devRef .tc main_arg7) = m ((c : Thread nD τ).loc main_arg7) :=
  (W2_of_ne m ρ c main_arg7 (by decide)).trans (pre_arg7 (W0 m ρ c))
theorem at2_arg8 : W2 m ρ c (Proc.devRef .tc main_arg8) = m ((c : Thread nD τ).loc main_arg8) :=
  (W2_of_ne m ρ c main_arg8 (by decide)).trans (pre_arg8 (W0 m ρ c))
theorem at2_arg9 : W2 m ρ c (Proc.devRef .tc main_arg9) = m ((c : Thread nD τ).loc main_arg9) :=
  (W2_of_ne m ρ c main_arg9 (by decide)).trans (pre_arg9 (W0 m ρ c))

/-! ## At the first normalisation's entry, after it, and after the second product -/

section
variable (h0 : ∀ (V : Entry) (c : Dev nD), (dat0 (F := Ideal) V c).arrAt 2 cfg0.N = Cert.Layers.mm (V c main_arg0) (V c main_arg2))
include h0

theorem at5_agg : W5 m ρ c (Proc.devRef .tc main_v43) = aggOf (Cert.Layers.mm (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg3)) := by
  refine (mid1_agg (W2 m ρ c)).trans ?_
  rw [at2_prod m ρ c h0, at2_src, at2_dst, at2_norm, at2_arg3]
theorem at5_mean : W5 m ρ c (Proc.devRef .tc main_v48) = rowOf (meanOf (aggOf (Cert.Layers.mm (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg3)))) := by
  refine (mid1_mean (W2 m ρ c)).trans ?_
  rw [at2_prod m ρ c h0, at2_src, at2_dst, at2_norm, at2_arg3]
theorem at5_var : W5 m ρ c (Proc.devRef .tc main_v49) = rowOf (varOf (aggOf (Cert.Layers.mm (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg3)))) := by
  refine (mid1_var (W2 m ρ c)).trans ?_
  rw [at2_prod m ρ c h0, at2_src, at2_dst, at2_norm, at2_arg3]
end

theorem at5_scale : W5 m ρ c (Proc.devRef .tc main_v50) = rowOf (m ((c : Thread nD τ).loc main_arg4)) := by
  refine (mid1_scale (W2 m ρ c)).trans ?_
  rw [at2_arg4]
theorem at5_shift : W5 m ρ c (Proc.devRef .tc main_v51) = rowOf (m ((c : Thread nD τ).loc main_arg5)) := by
  refine (mid1_shift (W2 m ρ c)).trans ?_
  rw [at2_arg5]
theorem at5_v3 : W5 m ρ c (Proc.devRef .tc main_v3) = srcOf (m ((c : Thread nD τ).loc main_arg1)) :=
  (mid1_keep_v3 (W2 m ρ c)).trans (at2_src m ρ c)
theorem at6_v3 : W6 m ρ c (Proc.devRef .tc main_v3) = srcOf (m ((c : Thread nD τ).loc main_arg1)) :=
  (W6_of_ne m ρ c main_v3 (by decide)).trans (at5_v3 m ρ c)
theorem at5_v6 : W5 m ρ c (Proc.devRef .tc main_v6) = dstOf (m ((c : Thread nD τ).loc main_arg1)) :=
  (mid1_keep_v6 (W2 m ρ c)).trans (at2_dst m ρ c)
theorem at6_v6 : W6 m ρ c (Proc.devRef .tc main_v6) = dstOf (m ((c : Thread nD τ).loc main_arg1)) :=
  (W6_of_ne m ρ c main_v6 (by decide)).trans (at5_v6 m ρ c)
theorem at5_v26 : W5 m ρ c (Proc.devRef .tc main_v26) = normOf (srcOf (m ((c : Thread nD τ).loc main_arg1))) (dstOf (m ((c : Thread nD τ).loc main_arg1))) :=
  (mid1_keep_v26 (W2 m ρ c)).trans (at2_norm m ρ c)
theorem at6_v26 : W6 m ρ c (Proc.devRef .tc main_v26) = normOf (srcOf (m ((c : Thread nD τ).loc main_arg1))) (dstOf (m ((c : Thread nD τ).loc main_arg1))) :=
  (W6_of_ne m ρ c main_v26 (by decide)).trans (at5_v26 m ρ c)
theorem at5_arg6 : W5 m ρ c (Proc.devRef .tc main_arg6) = m ((c : Thread nD τ).loc main_arg6) :=
  (mid1_keep_arg6 (W2 m ρ c)).trans (at2_arg6 m ρ c)
theorem at6_arg6 : W6 m ρ c (Proc.devRef .tc main_arg6) = m ((c : Thread nD τ).loc main_arg6) :=
  (W6_of_ne m ρ c main_arg6 (by decide)).trans (at5_arg6 m ρ c)
theorem at5_arg7 : W5 m ρ c (Proc.devRef .tc main_arg7) = m ((c : Thread nD τ).loc main_arg7) :=
  (mid1_keep_arg7 (W2 m ρ c)).trans (at2_arg7 m ρ c)
theorem at6_arg7 : W6 m ρ c (Proc.devRef .tc main_arg7) = m ((c : Thread nD τ).loc main_arg7) :=
  (W6_of_ne m ρ c main_arg7 (by decide)).trans (at5_arg7 m ρ c)
theorem at5_arg8 : W5 m ρ c (Proc.devRef .tc main_arg8) = m ((c : Thread nD τ).loc main_arg8) :=
  (mid1_keep_arg8 (W2 m ρ c)).trans (at2_arg8 m ρ c)
theorem at6_arg8 : W6 m ρ c (Proc.devRef .tc main_arg8) = m ((c : Thread nD τ).loc main_arg8) :=
  (W6_of_ne m ρ c main_arg8 (by decide)).trans (at5_arg8 m ρ c)
theorem at5_arg9 : W5 m ρ c (Proc.devRef .tc main_arg9) = m ((c : Thread nD τ).loc main_arg9) :=
  (mid1_keep_arg9 (W2 m ρ c)).trans (at2_arg9 m ρ c)
theorem at6_arg9 : W6 m ρ c (Proc.devRef .tc main_arg9) = m ((c : Thread nD τ).loc main_arg9) :=
  (W6_of_ne m ρ c main_arg9 (by decide)).trans (at5_arg9 m ρ c)
theorem at7_v3 : W7 m ρ c (Proc.devRef .tc main_v3) = srcOf (m ((c : Thread nD τ).loc main_arg1)) :=
  (W7_of_ne m ρ c main_v3 (by decide)).trans (at6_v3 m ρ c)
theorem at7_v6 : W7 m ρ c (Proc.devRef .tc main_v6) = dstOf (m ((c : Thread nD τ).loc main_arg1)) :=
  (W7_of_ne m ρ c main_v6 (by decide)).trans (at6_v6 m ρ c)
theorem at7_v26 : W7 m ρ c (Proc.devRef .tc main_v26) = normOf (srcOf (m ((c : Thread nD τ).loc main_arg1))) (dstOf (m ((c : Thread nD τ).loc main_arg1))) :=
  (W7_of_ne m ρ c main_v26 (by decide)).trans (at6_v26 m ρ c)
theorem at7_arg7 : W7 m ρ c (Proc.devRef .tc main_arg7) = m ((c : Thread nD τ).loc main_arg7) :=
  (W7_of_ne m ρ c main_arg7 (by decide)).trans (at6_arg7 m ρ c)
theorem at7_arg8 : W7 m ρ c (Proc.devRef .tc main_arg8) = m ((c : Thread nD τ).loc main_arg8) :=
  (W7_of_ne m ρ c main_arg8 (by decide)).trans (at6_arg8 m ρ c)
theorem at7_arg9 : W7 m ρ c (Proc.devRef .tc main_arg9) = m ((c : Thread nD τ).loc main_arg9) :=
  (W7_of_ne m ρ c main_arg9 (by decide)).trans (at6_arg9 m ρ c)

section
variable (h0 : ∀ (V : Entry) (c : Dev nD), (dat0 (F := Ideal) V c).arrAt 2 cfg0.N = Cert.Layers.mm (V c main_arg0) (V c main_arg2))
  (h1 : ∀ (V : Entry) (c : Dev nD), (dat1 (F := Ideal) V c).arrAt 5 cfg1.N
    = Cert.Layers.bnRelu (V c main_v43) (V c main_v48) (V c main_v49) (V c main_v50) (V c main_v51))
include h0 h1

theorem at6_out : W6 m ρ c (Proc.devRef .tc main_v52) = layer (m ((c : Thread nD τ).loc main_arg0)) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg2)) (m ((c : Thread nD τ).loc main_arg3)) (m ((c : Thread nD τ).loc main_arg4)) (m ((c : Thread nD τ).loc main_arg5)) := by
  refine (W6_arr m ρ c 5).trans ((h1 (V5 m ρ) c).trans ?_)
  rw [show V5 m ρ c main_v43 = _ from at5_agg m ρ c h0, show V5 m ρ c main_v48 = _ from at5_mean m ρ c h0,
    show V5 m ρ c main_v49 = _ from at5_var m ρ c h0, show V5 m ρ c main_v50 = _ from at5_scale m ρ c,
    show V5 m ρ c main_v51 = _ from at5_shift m ρ c]
  rfl

variable (h2 : ∀ (V : Entry) (c : Dev nD), (dat2 (F := Ideal) V c).arrAt 2 cfg2.N = Cert.Layers.mm (V c main_v52) (V c main_arg6))
include h2

theorem at7_prod : W7 m ρ c (Proc.devRef .tc main_v53) = Cert.Layers.mm (layer (m ((c : Thread nD τ).loc main_arg0)) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg2)) (m ((c : Thread nD τ).loc main_arg3)) (m ((c : Thread nD τ).loc main_arg4)) (m ((c : Thread nD τ).loc main_arg5))) (m ((c : Thread nD τ).loc main_arg6)) := by
  refine (W7_arr m ρ c 2).trans ((h2 (V6 m ρ) c).trans ?_)
  rw [show V6 m ρ c main_v52 = _ from at6_out m ρ c h0 h1, show V6 m ρ c main_arg6 = _ from at6_arg6 m ρ c]

/-! ## At the second normalisation's entry, and the result -/

theorem at10_agg : W10 m ρ c (Proc.devRef .tc main_v69) = aggOf (Cert.Layers.mm (layer (m ((c : Thread nD τ).loc main_arg0)) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg2)) (m ((c : Thread nD τ).loc main_arg3)) (m ((c : Thread nD τ).loc main_arg4)) (m ((c : Thread nD τ).loc main_arg5))) (m ((c : Thread nD τ).loc main_arg6))) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg7)) := by
  refine (mid3_agg (W7 m ρ c)).trans ?_
  rw [at7_prod m ρ c h0 h1 h2, at7_v3, at7_v6, at7_v26, at7_arg7]
theorem at10_mean : W10 m ρ c (Proc.devRef .tc main_v74) = rowOf (meanOf (aggOf (Cert.Layers.mm (layer (m ((c : Thread nD τ).loc main_arg0)) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg2)) (m ((c : Thread nD τ).loc main_arg3)) (m ((c : Thread nD τ).loc main_arg4)) (m ((c : Thread nD τ).loc main_arg5))) (m ((c : Thread nD τ).loc main_arg6))) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg7)))) := by
  refine (mid3_mean (W7 m ρ c)).trans ?_
  rw [at7_prod m ρ c h0 h1 h2, at7_v3, at7_v6, at7_v26, at7_arg7]
theorem at10_var : W10 m ρ c (Proc.devRef .tc main_v75) = rowOf (varOf (aggOf (Cert.Layers.mm (layer (m ((c : Thread nD τ).loc main_arg0)) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg2)) (m ((c : Thread nD τ).loc main_arg3)) (m ((c : Thread nD τ).loc main_arg4)) (m ((c : Thread nD τ).loc main_arg5))) (m ((c : Thread nD τ).loc main_arg6))) (srcOf (m ((c : Thread nD τ).loc main_arg1))) (dstOf (m ((c : Thread nD τ).loc main_arg1))) (normOf (srcOf (m ((c : Thread nD τ).loc main_arg1))) (dstOf (m ((c : Thread nD τ).loc main_arg1)))) (m ((c : Thread nD τ).loc main_arg7)))) := by
  refine (mid3_var (W7 m ρ c)).trans ?_
  rw [at7_prod m ρ c h0 h1 h2, at7_v3, at7_v6, at7_v26, at7_arg7]
omit h0 h1 h2 in
theorem at10_scale : W10 m ρ c (Proc.devRef .tc main_v76) = rowOf (m ((c : Thread nD τ).loc main_arg8)) := by
  refine (mid3_scale (W7 m ρ c)).trans ?_
  rw [at7_arg8]
omit h0 h1 h2 in
theorem at10_shift : W10 m ρ c (Proc.devRef .tc main_v77) = rowOf (m ((c : Thread nD τ).loc main_arg9)) := by
  refine (mid3_shift (W7 m ρ c)).trans ?_
  rw [at7_arg9]

variable (h3 : ∀ (V : Entry) (c : Dev nD), (dat3 (F := Ideal) V c).arrAt 5 cfg3.N
    = Cert.Layers.bnRelu (V c main_v69) (V c main_v74) (V c main_v75) (V c main_v76) (V c main_v77))
include h3

/-- The result array at the last boundary is the network of the launch arguments. -/
theorem result : W11 m ρ c (Proc.devRef .tc main_v78) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W11_arr m ρ c 5).trans ((h3 (V10 m ρ) c).trans ?_)
  rw [show V10 m ρ c main_v69 = _ from at10_agg m ρ c h0 h1 h2, show V10 m ρ c main_v74 = _ from at10_mean m ρ c h0 h1 h2,
    show V10 m ρ c main_v75 = _ from at10_var m ρ c h0 h1 h2, show V10 m ρ c main_v76 = _ from at10_scale m ρ c,
    show V10 m ρ c main_v77 = _ from at10_shift m ρ c]
  rfl
end

end Cert.KernelIdeal.KernelValue

end
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.MatmulRegions.lean ====
/-
  The two matrix-product layers, read entry by entry.

  Each of the two regions walks the 40000×128 table in ten blocks of 4000 consecutive rows. At block t the body
  takes rows 4000·t … 4000·t + 3999 of the table and the whole 128×128 weight matrix, narrows both to the
  16-bit format (over the extended reals that changes nothing), multiplies them into a zero accumulator and
  stores the 4000×128 product as block t of the result. Entry (r, q) of that product is
  Σ_k x(4000·t + r, k) · w(k, q): it depends on row 4000·t + r of the table only, and on column q of the weights.
  Row p of the result lies in block p / 4000 at local row p % 4000, and the ten blocks cover all 40000 rows, so
  the result array is the matrix product x·w of the whole table with the weights, entry by entry.
-/
import proofs.«136930_j9698036155164_1_alg».proof.Proof.Gen.KernelIdeal.Frame
import proofs.«136930_j9698036155164_1_alg».proof.Proof.LayerSpec
import proofs.«136930_j9698036155164_1_alg».proof.Proof.LibTwoBlocks
import Idealize.ShloMosaic.Lib.Pipeline.Value
import Idealize.ShloMosaic.Lib.ValueIdx
import Idealize.ShloMosaic.PureOps.Ideal.Laws

noncomputable section

open scoped BigOperators

namespace Cert.KernelIdeal.MatmulRegions

open Cert.KernelIdeal Cert.KernelIdeal.Gen
open Idealize.ShloMosaic Idealize.ShloMosaic.ValueIdx Idealize.ShloMosaic.TcCoe Idealize.SL.Sem
open Idealize.ShloMosaic.Pipeline (Dat)

/-- The zero offsets of a whole-buffer access, however spelt. -/
theorem hz : (![0, 0] : Fin 2 → Nat) = fun _ => 0 := funext fun a => by fin_cases a <;> rfl

/-! ## The product of one block with the weights, at an entry -/

/-- Entry (r, q) of the first product's payload: the sum over the shared axis; narrowing is the identity. -/
theorem pay0_apply (x : Vec Ideal S4000x128 .f32) (w : Vec Ideal S128x128 .f32) (r : Fin 4000) (q : Fin 128) :
    k0_pay1 (F := Ideal) x w (ix2 r q) = ∑ k : Fin 128, x (ix2 r k) * w (ix2 k q) := by
  unfold k0_pay1
  exact Cert.Lib.TwoBlocks.plain_matmul_zero_apply dot_S4000x128_S128x128_S4000x128_1_0_0_1_n_n rfl none _ _ r q

/-- If the block holds rows 4000·t … of a table X and the weights are W, entry (r, q) of the payload is entry
    (4000·t + r, q) of the product X·W. -/
theorem pay0_block (X : FVec Ideal Cert.Layers.SN .f32) (W : FVec Ideal Cert.Layers.SW .f32)
    (x : Vec Ideal S4000x128 .f32) (w : Vec Ideal S128x128 .f32) (t : Nat) (r : Fin 4000) (q : Fin 128)
    (hb : t * 4000 + r.val < 40000)
    (hx : ∀ k : Fin 128, x (ix2 r k) = X (ix2 (⟨t * 4000 + r.val, hb⟩ : Fin 40000) k))
    (hw : ∀ k : Fin 128, w (ix2 k q) = W (ix2 k q)) :
    k0_pay1 (F := Ideal) x w (ix2 r q) = Cert.Layers.mm X W (ix2 (⟨t * 4000 + r.val, hb⟩ : Fin 40000) q) := by
  rw [pay0_apply, Cert.Layers.mm_apply]
  exact Finset.sum_congr rfl fun k _ => by rw [hx k, hw k]

/-- Entry (r, q) of the second product's payload: the same sum; the cast to the same shape and the narrowing are
    identities. -/
theorem pay2_apply (x : Vec Ideal S4000x128 .f32) (w : Vec Ideal S128x128 .f32) (r : Fin 4000) (q : Fin 128) :
    k2_pay1 (F := Ideal) x w (ix2 r q) = ∑ k : Fin 128, x (ix2 r k) * w (ix2 k q) := by
  have e : shapeCast S4000x128 x shapeCasts_S4000x128_S4000x128 = x := shapeCast_self x _
  unfold k2_pay1
  refine (Cert.Lib.TwoBlocks.plain_matmul_zero_apply dot_S4000x128_S128x128_S4000x128_1_0_0_1_n_n rfl none
    (truncf .bf16 (shapeCast S4000x128 x shapeCasts_S4000x128_S4000x128) bitsLt_bf16_f32) (truncf .bf16 w bitsLt_bf16_f32) r q).trans ?_
  refine Finset.sum_congr rfl fun k _ => ?_
  show shapeCast S4000x128 x shapeCasts_S4000x128_S4000x128 (ix2 r k) * w (ix2 k q) = x (ix2 r k) * w (ix2 k q)
  rw [e]

/-- The same reading of a block of a table X against weights W, for the second product's payload. -/
theorem pay2_block (X : FVec Ideal Cert.Layers.SN .f32) (W : FVec Ideal Cert.Layers.SW .f32)
    (x : Vec Ideal S4000x128 .f32) (w : Vec Ideal S128x128 .f32) (t : Nat) (r : Fin 4000) (q : Fin 128)
    (hb : t * 4000 + r.val < 40000)
    (hx : ∀ k : Fin 128, x (ix2 r k) = X (ix2 (⟨t * 4000 + r.val, hb⟩ : Fin 40000) k))
    (hw : ∀ k : Fin 128, w (ix2 k q) = W (ix2 k q)) :
    k2_pay1 (F := Ideal) x w (ix2 r q) = Cert.Layers.mm X W (ix2 (⟨t * 4000 + r.val, hb⟩ : Fin 40000) q) := by
  rw [pay2_apply, Cert.Layers.mm_apply]
  exact Finset.sum_congr rfl fun k _ => by rw [hx k, hw k]

/-! ## Region 0: the blocks, what a point writes back, the cover -/

section Region0

variable (V : (c : Dev nD) → (b : Ref sig .tc) → Buf (Elt Ideal) ((c : Thread nD τ).loc b))

/-- The printed index maps over the grid: the table's and the result's block t starts at row block t, column
    block 0; the weights' block is always the whole matrix. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of the table and the weights as the region finds them. -/
abbrev G0 (c : Dev nD) : FVec Ideal Cert.Layers.SN .f32 := Cert.Layers.mm (V c main_arg0) (V c main_arg2)

/-- Entry (r, k) of the table's block at point t is entry (4000·t + r, k) of the table. -/
theorem iblk0_0_apply (c : Dev nD) (t : Fin cfg0.N) (r : Fin 4000) (k : Fin 128) (hb : t.val * 4000 + r.val < 40000) :
    (iblk0 (F := Ideal) V c 0 t : Vec Ideal S4000x128 .f32) (ix2 r k)
      = (V c main_arg0 : FVec Ideal Cert.Layers.SN .f32) (ix2 (⟨t.val * 4000 + r.val, hb⟩ : Fin 40000) k) := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 4000 + 1 * r.val = t.val * 4000 + r.val; rw [e0]; omega
  | ⟨1, _⟩ => show win0_0.index t (1 : Fin 2) * 128 + 1 * k.val = k.val; rw [e1]; omega

/-- The weights' block at any point is the whole weight matrix. -/
theorem iblk0_1_apply (c : Dev nD) (t : Fin cfg0.N) (k : Fin 128) (q : Fin 128) :
    (iblk0 (F := Ideal) V c 1 t : Vec Ideal S128x128 .f32) (ix2 k q)
      = (V c main_arg2 : FVec Ideal Cert.Layers.SW .f32) (ix2 k q) := by
  obtain ⟨-, -, e2, e3, -⟩ := idx0 t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- WHAT POINT t WRITES BACK is block t of the product of the table and the weights. -/
theorem flushed0_eq (c : Dev nD) (t : Fin cfg0.N) :
    (dat0 (F := Ideal) V c).flushed 2 t = ((cfg0.win 2).blk t).view.read (Elt Ideal) (G0 V c) := by
  have hN : grid0.N = 10 := N_0
  obtain ⟨-, -, -, -, e4, e5⟩ := idx0 t
  show (cfg0.win 2).cut (grid0.coords t) ((dat0 V c).after 2 t) = _
  rw [after0_2]
  unfold out0_2
  rw [View.canon_unit_zero hz]
  simp only [View.ld_unit_zero (S := S4000x128) hz, View.ld_unit_zero (S := S128x128) hz]
  funext j
  show k0_pay1 (F := Ideal) (iblk0 V c 0 t) (iblk0 V c 1 t) j = G0 V c (((cfg0.win 2).blk t).view.emb j)
  have ht : t.val < grid0.N := t.isLt
  have hj0 : (j 0).val < 4000 := (j 0).isLt
  have hb : t.val * 4000 + (j 0).val < 40000 := by omega
  refine (congrArg (k0_pay1 (F := Ideal) (iblk0 V c 0 t) (iblk0 V c 1 t)) (eq_ix2 j)).trans ?_
  refine (pay0_block (V c main_arg0) (V c main_arg2) (iblk0 V c 0 t) (iblk0 V c 1 t) t.val (j 0) (j 1) hb
    (fun k => iblk0_0_apply V c t (j 0) k hb) (fun k => iblk0_1_apply V c t k (j 1))).trans ?_
  show G0 V c _ = G0 V c _
  congr 1
  funext a
  apply Fin.ext
  match a with
  | ⟨0, _⟩ => show t.val * 4000 + (j 0).val = win0_2.index t (0 : Fin 2) * 4000 + 1 * (j 0).val; rw [e4]; omega
  | ⟨1, _⟩ => show (j 1).val = win0_2.index t (1 : Fin 2) * 128 + 1 * (j 1).val; rw [e5]; omega

/-- An entry of the result is in point t's block iff each coordinate is in the block's range on its axis. -/
theorem mem_blk0 (t : Fin cfg0.N) (i : S40000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v27).slice (win0_2.rect t)).set ↔ _
  rw [View.set_slice_whole, Rect.mem_set_unit]
  exact Iff.rfl

/-- Row p of the result lies in block p / 4000: the ten blocks cover the array. -/
theorem cover0 (i : S40000x128.Idx) :
    ∃ t : Fin cfg0.N, (cfg0.win 2).flush t = true ∧ i ∈ ((cfg0.win 2).blk t).view.set := by
  have hN : grid0.N = 10 := N_0
  have hi0 : (i 0).val < 40000 := (i 0).isLt
  have hi1 : (i 1).val < 128 := (i 1).isLt
  obtain ⟨t, ht⟩ : ∃ t : Fin cfg0.N, t.val = (i 0).val / 4000 :=
    ⟨⟨(i 0).val / 4000, by show (i 0).val / 4000 < grid0.N; omega⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 4000 ≤ (i 0).val ∧ (i 0).val < win0_2.index t (0 : Fin 2) * 4000 + 4000
    rw [e4]; omega
  | ⟨1, _⟩ =>
    show win0_2.index t (1 : Fin 2) * 128 ≤ (i 1).val ∧ (i 1).val < win0_2.index t (1 : Fin 2) * 128 + 128
    rw [e5]; omega

/-- THE RESULT of the first matrix-product region: the product of the table and the weights it was entered with. -/
theorem region0 (c : Dev nD) :
    (Gen.dat0 (F := Ideal) V c).arrAt 2 cfg0.N = Cert.Layers.mm (V c main_arg0) (V c main_arg2) :=
  (dat0 (F := Ideal) V c).arrAt_eq_of_cover 2 (G0 V c) (fun t _ => flushed0_eq V c t) (cover0)

end Region0

/-! ## Region 2: the blocks, what a point writes back, the cover -/

section Region2

variable (V : (c : Dev nD) → (b : Ref sig .tc) → Buf (Elt Ideal) ((c : Thread nD τ).loc b))

/-- The printed index maps over the grid: the table's and the result's block t starts at row block t, column
    block 0; the weights' block is always the whole matrix. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The product of the table and the weights as the region finds them. -/
abbrev G2 (c : Dev nD) : FVec Ideal Cert.Layers.SN .f32 := Cert.Layers.mm (V c main_v52) (V c main_arg6)

/-- Entry (r, k) of the table's block at point t is entry (4000·t + r, k) of the table. -/
theorem iblk2_0_apply (c : Dev nD) (t : Fin cfg2.N) (r : Fin 4000) (k : Fin 128) (hb : t.val * 4000 + r.val < 40000) :
    (iblk2 (F := Ideal) V c 0 t : Vec Ideal S4000x128 .f32) (ix2 r k)
      = (V c main_v52 : FVec Ideal Cert.Layers.SN .f32) (ix2 (⟨t.val * 4000 + r.val, hb⟩ : Fin 40000) k) := by
  obtain ⟨e0, e1, -⟩ := idx2 t
  unfold iblk2
  rw [View.read_apply]
  show V c main_v52 _ = V c main_v52 _
  congr 1
  funext a
  apply Fin.ext
  match a with
  | ⟨0, _⟩ => show win2_0.index t (0 : Fin 2) * 4000 + 1 * r.val = t.val * 4000 + r.val; rw [e0]; omega
  | ⟨1, _⟩ => show win2_0.index t (1 : Fin 2) * 128 + 1 * k.val = k.val; rw [e1]; omega

/-- The weights' block at any point is the whole weight matrix. -/
theorem iblk2_1_apply (c : Dev nD) (t : Fin cfg2.N) (k : Fin 128) (q : Fin 128) :
    (iblk2 (F := Ideal) V c 1 t : Vec Ideal S128x128 .f32) (ix2 k q)
      = (V c main_arg6 : FVec Ideal Cert.Layers.SW .f32) (ix2 k q) := by
  obtain ⟨-, -, e2, e3, -⟩ := idx2 t
  unfold iblk2
  rw [View.read_apply]
  show V c main_arg6 _ = V c main_arg6 _
  congr 1
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- WHAT POINT t WRITES BACK is block t of the product of the table and the weights. -/
theorem flushed2_eq (c : Dev nD) (t : Fin cfg2.N) :
    (dat2 (F := Ideal) V c).flushed 2 t = ((cfg2.win 2).blk t).view.read (Elt Ideal) (G2 V c) := by
  have hN : grid2.N = 10 := N_2
  obtain ⟨-, -, -, -, e4, e5⟩ := idx2 t
  show (cfg2.win 2).cut (grid2.coords t) ((dat2 V c).after 2 t) = _
  rw [after2_2]
  unfold out2_2
  rw [View.canon_unit_zero hz]
  simp only [View.ld_unit_zero (S := S4000x128) hz, View.ld_unit_zero (S := S128x128) hz]
  funext j
  show k2_pay1 (F := Ideal) (iblk2 V c 0 t) (iblk2 V c 1 t) j = G2 V c (((cfg2.win 2).blk t).view.emb j)
  have ht : t.val < grid2.N := t.isLt
  have hj0 : (j 0).val < 4000 := (j 0).isLt
  have hb : t.val * 4000 + (j 0).val < 40000 := by omega
  refine (congrArg (k2_pay1 (F := Ideal) (iblk2 V c 0 t) (iblk2 V c 1 t)) (eq_ix2 j)).trans ?_
  refine (pay2_block (V c main_v52) (V c main_arg6) (iblk2 V c 0 t) (iblk2 V c 1 t) t.val (j 0) (j 1) hb
    (fun k => iblk2_0_apply V c t (j 0) k hb) (fun k => iblk2_1_apply V c t k (j 1))).trans ?_
  show G2 V c _ = G2 V c _
  congr 1
  funext a
  apply Fin.ext
  match a with
  | ⟨0, _⟩ => show t.val * 4000 + (j 0).val = win2_2.index t (0 : Fin 2) * 4000 + 1 * (j 0).val; rw [e4]; omega
  | ⟨1, _⟩ => show (j 1).val = win2_2.index t (1 : Fin 2) * 128 + 1 * (j 1).val; rw [e5]; omega

/-- An entry of the result is in point t's block iff each coordinate is in the block's range on its axis. -/
theorem mem_blk2 (t : Fin cfg2.N) (i : S40000x128.Idx) :
    i ∈ ((cfg2.win 2).blk t).view.set ↔ ∀ a : Fin 2, win2_2.index t a * S4000x128.size a ≤ (i a).val
      ∧ (i a).val < win2_2.index t a * S4000x128.size a + S4000x128.size a := by
  show i ∈ ((View.whole main_v53).slice (win2_2.rect t)).set ↔ _
  rw [View.set_slice_whole, Rect.mem_set_unit]
  exact Iff.rfl

/-- Row p of the result lies in block p / 4000: the ten blocks cover the array. -/
theorem cover2 (i : S40000x128.Idx) :
    ∃ t : Fin cfg2.N, (cfg2.win 2).flush t = true ∧ i ∈ ((cfg2.win 2).blk t).view.set := by
  have hN : grid2.N = 10 := N_2
  have hi0 : (i 0).val < 40000 := (i 0).isLt
  have hi1 : (i 1).val < 128 := (i 1).isLt
  obtain ⟨t, ht⟩ : ∃ t : Fin cfg2.N, t.val = (i 0).val / 4000 :=
    ⟨⟨(i 0).val / 4000, by show (i 0).val / 4000 < grid2.N; omega⟩, rfl⟩
  obtain ⟨-, -, -, -, e4, e5⟩ := idx2 t
  refine ⟨t, flush2_2 t, ?_⟩
  rw [mem_blk2]
  intro a
  match a with
  | ⟨0, _⟩ =>
    show win2_2.index t (0 : Fin 2) * 4000 ≤ (i 0).val ∧ (i 0).val < win2_2.index t (0 : Fin 2) * 4000 + 4000
    rw [e4]; omega
  | ⟨1, _⟩ =>
    show win2_2.index t (1 : Fin 2) * 128 ≤ (i 1).val ∧ (i 1).val < win2_2.index t (1 : Fin 2) * 128 + 128
    rw [e5]; omega

/-- THE RESULT of the second matrix-product region: the product of the table and the weights it was entered with. -/
theorem region2 (c : Dev nD) :
    (Gen.dat2 (F := Ideal) V c).arrAt 2 cfg2.N = Cert.Layers.mm (V c main_v52) (V c main_arg6) :=
  (dat2 (F := Ideal) V c).arrAt_eq_of_cover 2 (G2 V c) (fun t _ => flushed2_eq V c t) (cover2)

end Region2

end Cert.KernelIdeal.MatmulRegions

end
-- ==== Proof.NormRegions.lean ====
/-
  The two normalise-and-rectify regions of the layer, read as whole arrays.

  Each region walks a 40000×128 table in 10 blocks of 4000 consecutive rows: grid point t holds rows
  4000·t … 4000·t + 3999, all 128 columns, so entry (r, q) of block t is entry (4000·t + r, q) of the table.
  The four per-column statistics (mean, variance, scale, shift) are 1×128 rows; every grid point sees each of them
  whole, at block index (0, 0), so entry (0, q) of a statistics block is entry (0, q) of the row itself.

  Inside a block the body spreads each 1×128 row down the 4000 rows, so at (r, q) it reads the row's entry (0, q),
  and computes
      max( g(q) · (h(r, q) − mu(q)) · (va(q) + ε)^(-1/2) + be(q), 0 ),
  the product associated as written. Entry (r, q) of the result therefore depends on the one table entry
  (4000·t + r, q) and on column q of the four rows, and on nothing else: the block written back at point t is the
  restriction to rows 4000·t … 4000·t + 3999 of ONE function of the whole arrays, `Cert.Layers.bnRelu`.
  Row p of the table lies in block p / 4000, so the 10 blocks cover the table and the output array ends holding
  that function everywhere.

  The second such region is the first with other arrays: the same statements, the same proofs.
-/
import proofs.«136930_j9698036155164_1_alg».proof.Proof.Gen.KernelIdeal.Frame
import proofs.«136930_j9698036155164_1_alg».proof.Proof.LayerSpec
import Idealize.ShloMosaic.Lib.Pipeline.Value
import Idealize.ShloMosaic.Lib.ValueIdx
import Idealize.ShloMosaic.Lib.ValueLayout

noncomputable section

namespace Cert.KernelIdeal.NormRegions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-! ## The first normalise-and-rectify region -/

/-- The body's result at (p, q): the rows' entries at (0, q), the table's at (p, q), combined as
    max(g·(h − mu)·(va + ε)^(-1/2) + be, 0). The shape casts are to the same shape; a 1×128 row spread down
    4000 rows reads its entry (0, q); the remaining operations act entry by entry. -/
theorem pay1_apply (v0 : Vec Ideal S4000x128 .f32) (v2 v4 v6 v8 : Vec Ideal S1x128 .f32) (p : Fin 4000) (q : Fin 128) :
    Gen.k1_pay1 v0 v2 v4 v6 v8 (ix2 p q)
      = max (v6 (ix2 (0 : Fin 1) q) * (v0 (ix2 p q) - v2 (ix2 (0 : Fin 1) q))
          * Ideal.rsqrt (v4 (ix2 (0 : Fin 1) q) + Ideal.ofBits .f32 0x3727C5AC#32)
          + v8 (ix2 (0 : Fin 1) q)) (Ideal.ofBits .f32 0x00000000#32) := by
  unfold Gen.k1_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  rfl

/-- The block indices at grid point t, decided over the 10 points: the table's and the output's block is (t, 0),
    each statistics row's is (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- There are 10 grid points. -/
theorem t_lt1 (t : Fin cfg1.N) : t.val < 10 := by
  have h : t.val < cfg1.N := t.isLt
  have e : cfg1.N = 10 := N_1
  omega

/-- Entry (p, q) of the table's block t is entry (4000·t + p, q) of the table. -/
theorem emb1_0 (t : Fin cfg1.N) (p : Fin 4000) (q : Fin 128) (h : t.val * 4000 + p.val < 40000) :
    ((cfg1.win 0).blk t).view.emb (ix2 p q) = ix2 (⟨t.val * 4000 + p.val, h⟩ : Fin 40000) q := by
  obtain ⟨e0, e1, -⟩ := idx_facts1 t
  funext a; apply Fin.ext
  match a with
  | ⟨0, _⟩ => show win1_0.index t (0 : Fin 2) * 4000 + 1 * p.val = t.val * 4000 + p.val; omega
  | ⟨1, _⟩ => show win1_0.index t (1 : Fin 2) * 128 + 1 * q.val = q.val; omega

/-- Entry (p, q) of the output's block t is entry (4000·t + p, q) of the output. -/
theorem emb1_5 (t : Fin cfg1.N) (p : Fin 4000) (q : Fin 128) (h : t.val * 4000 + p.val < 40000) :
    ((cfg1.win 5).blk t).view.emb (ix2 p q) = ix2 (⟨t.val * 4000 + p.val, h⟩ : Fin 40000) q := by
  obtain ⟨-, -, -, -, -, -, -, -, -, -, e0, e1⟩ := idx_facts1 t
  funext a; apply Fin.ext
  match a with
  | ⟨0, _⟩ => show win1_5.index t (0 : Fin 2) * 4000 + 1 * p.val = t.val * 4000 + p.val; omega
  | ⟨1, _⟩ => show win1_5.index t (1 : Fin 2) * 128 + 1 * q.val = q.val; omega

/-- Entry (0, q) of the mean row's block, at any point, is entry (0, q) of the row. -/
theorem emb1_1 (t : Fin cfg1.N) (q : Fin 128) :
    ((cfg1.win 1).blk t).view.emb (ix2 (0 : Fin 1) q) = ix2 (0 : Fin 1) q := by
  obtain ⟨-, -, e0, e1, -⟩ := idx_facts1 t
  funext a; apply Fin.ext
  match a with
  | ⟨0, _⟩ => show win1_1.index t (0 : Fin 2) * 1 + 1 * 0 = 0; omega
  | ⟨1, _⟩ => show win1_1.index t (1 : Fin 2) * 128 + 1 * q.val = q.val; omega

/-- Entry (0, q) of the variance row's block, at any point, is entry (0, q) of the row. -/
theorem emb1_2 (t : Fin cfg1.N) (q : Fin 128) :
    ((cfg1.win 2).blk t).view.emb (ix2 (0 : Fin 1) q) = ix2 (0 : Fin 1) q := by
  obtain ⟨-, -, -, -, e0, e1, -⟩ := idx_facts1 t
  funext a; apply Fin.ext
  match a with
  | ⟨0, _⟩ => show win1_2.index t (0 : Fin 2) * 1 + 1 * 0 = 0; omega
  | ⟨1, _⟩ => show win1_2.index t (1 : Fin 2) * 128 + 1 * q.val = q.val; omega

/-- Entry (0, q) of the scale row's block, at any point, is entry (0, q) of the row. -/
theorem emb1_3 (t : Fin cfg1.N) (q : Fin 128) :
    ((cfg1.win 3).blk t).view.emb (ix2 (0 : Fin 1) q) = ix2 (0 : Fin 1) q := by
  obtain ⟨-, -, -, -, -, -, e0, e1, -⟩ := idx_facts1 t
  funext a; apply Fin.ext
  match a with
  | ⟨0, _⟩ => show win1_3.index t (0 : Fin 2) * 1 + 1 * 0 = 0; omega
  | ⟨1, _⟩ => show win1_3.index t (1 : Fin 2) * 128 + 1 * q.val = q.val; omega

/-- Entry (0, q) of the shift row's block, at any point, is entry (0, q) of the row. -/
theorem emb1_4 (t : Fin cfg1.N) (q : Fin 128) :
    ((cfg1.win 4).blk t).view.emb (ix2 (0 : Fin 1) q) = ix2 (0 : Fin 1) q := by
  obtain ⟨-, -, -, -, -, -, -, -, e0, e1, -⟩ := idx_facts1 t
  funext a; apply Fin.ext
  match a with
  | ⟨0, _⟩ => show win1_4.index t (0 : Fin 2) * 1 + 1 * 0 = 0; omega
  | ⟨1, _⟩ => show win1_4.index t (1 : Fin 2) * 128 + 1 * q.val = q.val; omega

/-- The table's block t read at (p, q) is the table at (4000·t + p, q). -/
theorem blk1_0 (c : Dev nD) (t : Fin cfg1.N) (p : Fin 4000) (q : Fin 128) (h : t.val * 4000 + p.val < 40000) :
    iblk1 V c 0 t (ix2 p q) = V c main_v43 (ix2 (⟨t.val * 4000 + p.val, h⟩ : Fin 40000) q) := by
  show V c main_v43 (((cfg1.win 0).blk t).view.emb (ix2 p q)) = _
  rw [emb1_0 t p q h]

/-- The mean row's block read at (0, q) is the row at (0, q). -/
theorem blk1_1 (c : Dev nD) (t : Fin cfg1.N) (q : Fin 128) :
    iblk1 V c 1 t (ix2 (0 : Fin 1) q) = V c main_v48 (ix2 (0 : Fin 1) q) := by
  show V c main_v48 (((cfg1.win 1).blk t).view.emb (ix2 (0 : Fin 1) q)) = _
  rw [emb1_1 t q]

/-- The variance row's block read at (0, q) is the row at (0, q). -/
theorem blk1_2 (c : Dev nD) (t : Fin cfg1.N) (q : Fin 128) :
    iblk1 V c 2 t (ix2 (0 : Fin 1) q) = V c main_v49 (ix2 (0 : Fin 1) q) := by
  show V c main_v49 (((cfg1.win 2).blk t).view.emb (ix2 (0 : Fin 1) q)) = _
  rw [emb1_2 t q]

/-- The scale row's block read at (0, q) is the row at (0, q). -/
theorem blk1_3 (c : Dev nD) (t : Fin cfg1.N) (q : Fin 128) :
    iblk1 V c 3 t (ix2 (0 : Fin 1) q) = V c main_v50 (ix2 (0 : Fin 1) q) := by
  show V c main_v50 (((cfg1.win 3).blk t).view.emb (ix2 (0 : Fin 1) q)) = _
  rw [emb1_3 t q]

/-- The shift row's block read at (0, q) is the row at (0, q). -/
theorem blk1_4 (c : Dev nD) (t : Fin cfg1.N) (q : Fin 128) :
    iblk1 V c 4 t (ix2 (0 : Fin 1) q) = V c main_v51 (ix2 (0 : Fin 1) q) := by
  show V c main_v51 (((cfg1.win 4).blk t).view.emb (ix2 (0 : Fin 1) q)) = _
  rw [emb1_4 t q]

/-- What point t writes back is block t of the normalised, rectified table: the one store leaves the body's
    result, which at (p, q) is the spec's entry (4000·t + p, q). -/
theorem flushed1_eq (c : Dev nD) (t : Fin cfg1.N) :
    (Gen.dat1 V c).flushed 5 t = ((cfg1.win 5).blk t).view.read (Elt Ideal)
      (Cert.Layers.bnRelu (V c main_v43) (V c main_v48) (V c main_v49) (V c main_v50) (V c main_v51)) := by
  show (cfg1.win 5).cut (grid1.coords t) ((Gen.dat1 V c).after 5 t) = _
  rw [after1_5]
  unfold out1_5
  rw [View.canon_unit_zero hz]
  simp only [View.ld_unit_zero (S := S4000x128) hz, View.ld_unit_zero (S := S1x128) hz]
  funext j
  obtain ⟨p, q, rfl⟩ : ∃ (p : Fin 4000) (q : Fin 128), j = ix2 p q := ⟨j 0, j 1, eq_ix2 j⟩
  have hp : t.val * 4000 + p.val < 40000 := by have := t_lt1 t; have := p.isLt; omega
  show k1_pay1 (iblk1 V c 0 t) (iblk1 V c 1 t) (iblk1 V c 2 t) (iblk1 V c 3 t) (iblk1 V c 4 t) (ix2 p q)
    = Cert.Layers.bnRelu (V c main_v43) (V c main_v48) (V c main_v49) (V c main_v50) (V c main_v51)
        (((cfg1.win 5).blk t).view.emb (ix2 p q))
  rw [emb1_5 t p q hp, Cert.Layers.bnRelu_apply]
  refine (pay1_apply _ _ _ _ _ p q).trans ?_
  rw [blk1_0 V c t p q hp, blk1_1 V c t q, blk1_2 V c t q, blk1_3 V c t q, blk1_4 V c t q]

/-- An index of the output lies in block t iff each coordinate lies in the block's range on its axis. -/
theorem mem_blk1 (t : Fin cfg1.N) (i : S40000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v52).slice (win1_5.rect t)).set ↔ _
  rw [View.set_slice_whole, Rect.mem_set_unit]
  exact Iff.rfl

/-- The blocks cover the output: row r lies in block r / 4000, and every point writes its block back. -/
theorem cover1 (i : S40000x128.Idx) :
    ∃ t : Fin cfg1.N, (cfg1.win 5).flush t = true ∧ i ∈ ((cfg1.win 5).blk t).view.set := by
  have hi0 : (i 0).val < 40000 := (i 0).isLt
  have hi1 : (i 1).val < 128 := (i 1).isLt
  have hN : cfg1.N = 10 := N_1
  refine ⟨⟨(i 0).val / 4000, by omega⟩, flush1_5 _, ?_⟩
  rw [mem_blk1]
  obtain ⟨-, -, -, -, -, -, -, -, -, -, e0, e1⟩ := idx_facts1 ⟨(i 0).val / 4000, by omega⟩
  intro a
  match a with
  | ⟨0, _⟩ =>
    show win1_5.index _ (0 : Fin 2) * 4000 ≤ (i 0).val ∧ (i 0).val < win1_5.index _ (0 : Fin 2) * 4000 + 4000
    rw [e0]; show (i 0).val / 4000 * 4000 ≤ (i 0).val ∧ (i 0).val < (i 0).val / 4000 * 4000 + 4000; omega
  | ⟨1, _⟩ =>
    show win1_5.index _ (1 : Fin 2) * 128 ≤ (i 1).val ∧ (i 1).val < win1_5.index _ (1 : Fin 2) * 128 + 128
    rw [e1]; omega

/-- The output array after the region is the normalised, rectified table, whatever the buffers held on entry. -/
theorem region1 (c : Dev nD) :
    (Gen.dat1 (F := Ideal) V c).arrAt 5 cfg1.N
      = Cert.Layers.bnRelu (V c main_v43) (V c main_v48) (V c main_v49) (V c main_v50) (V c main_v51) :=
  (Gen.dat1 V c).arrAt_eq_of_cover 5 _ (fun t _ => flushed1_eq V c t) cover1

/-! ## The second normalise-and-rectify region -/

/-- The body's result at (p, q): the rows' entries at (0, q), the table's at (p, q), combined as
    max(g·(h − mu)·(va + ε)^(-1/2) + be, 0). The shape casts are to the same shape; a 1×128 row spread down
    4000 rows reads its entry (0, q); the remaining operations act entry by entry. -/
theorem pay3_apply (v0 : Vec Ideal S4000x128 .f32) (v2 v4 v6 v8 : Vec Ideal S1x128 .f32) (p : Fin 4000) (q : Fin 128) :
    Gen.k3_pay1 v0 v2 v4 v6 v8 (ix2 p q)
      = max (v6 (ix2 (0 : Fin 1) q) * (v0 (ix2 p q) - v2 (ix2 (0 : Fin 1) q))
          * Ideal.rsqrt (v4 (ix2 (0 : Fin 1) q) + Ideal.ofBits .f32 0x3727C5AC#32)
          + v8 (ix2 (0 : Fin 1) q)) (Ideal.ofBits .f32 0x00000000#32) := by
  unfold Gen.k3_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  rfl

/-- The block indices at grid point t, decided over the 10 points: the table's and the output's block is (t, 0),
    each statistics row's is (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- There are 10 grid points. -/
theorem t_lt3 (t : Fin cfg3.N) : t.val < 10 := by
  have h : t.val < cfg3.N := t.isLt
  have e : cfg3.N = 10 := N_3
  omega

/-- Entry (p, q) of the table's block t is entry (4000·t + p, q) of the table. -/
theorem emb3_0 (t : Fin cfg3.N) (p : Fin 4000) (q : Fin 128) (h : t.val * 4000 + p.val < 40000) :
    ((cfg3.win 0).blk t).view.emb (ix2 p q) = ix2 (⟨t.val * 4000 + p.val, h⟩ : Fin 40000) q := by
  obtain ⟨e0, e1, -⟩ := idx_facts3 t
  funext a; apply Fin.ext
  match a with
  | ⟨0, _⟩ => show win3_0.index t (0 : Fin 2) * 4000 + 1 * p.val = t.val * 4000 + p.val; omega
  | ⟨1, _⟩ => show win3_0.index t (1 : Fin 2) * 128 + 1 * q.val = q.val; omega

/-- Entry (p, q) of the output's block t is entry (4000·t + p, q) of the output. -/
theorem emb3_5 (t : Fin cfg3.N) (p : Fin 4000) (q : Fin 128) (h : t.val * 4000 + p.val < 40000) :
    ((cfg3.win 5).blk t).view.emb (ix2 p q) = ix2 (⟨t.val * 4000 + p.val, h⟩ : Fin 40000) q := by
  obtain ⟨-, -, -, -, -, -, -, -, -, -, e0, e1⟩ := idx_facts3 t
  funext a; apply Fin.ext
  match a with
  | ⟨0, _⟩ => show win3_5.index t (0 : Fin 2) * 4000 + 1 * p.val = t.val * 4000 + p.val; omega
  | ⟨1, _⟩ => show win3_5.index t (1 : Fin 2) * 128 + 1 * q.val = q.val; omega

/-- Entry (0, q) of the mean row's block, at any point, is entry (0, q) of the row. -/
theorem emb3_1 (t : Fin cfg3.N) (q : Fin 128) :
    ((cfg3.win 1).blk t).view.emb (ix2 (0 : Fin 1) q) = ix2 (0 : Fin 1) q := by
  obtain ⟨-, -, e0, e1, -⟩ := idx_facts3 t
  funext a; apply Fin.ext
  match a with
  | ⟨0, _⟩ => show win3_1.index t (0 : Fin 2) * 1 + 1 * 0 = 0; omega
  | ⟨1, _⟩ => show win3_1.index t (1 : Fin 2) * 128 + 1 * q.val = q.val; omega

/-- Entry (0, q) of the variance row's block, at any point, is entry (0, q) of the row. -/
theorem emb3_2 (t : Fin cfg3.N) (q : Fin 128) :
    ((cfg3.win 2).blk t).view.emb (ix2 (0 : Fin 1) q) = ix2 (0 : Fin 1) q := by
  obtain ⟨-, -, -, -, e0, e1, -⟩ := idx_facts3 t
  funext a; apply Fin.ext
  match a with
  | ⟨0, _⟩ => show win3_2.index t (0 : Fin 2) * 1 + 1 * 0 = 0; omega
  | ⟨1, _⟩ => show win3_2.index t (1 : Fin 2) * 128 + 1 * q.val = q.val; omega

/-- Entry (0, q) of the scale row's block, at any point, is entry (0, q) of the row. -/
theorem emb3_3 (t : Fin cfg3.N) (q : Fin 128) :
    ((cfg3.win 3).blk t).view.emb (ix2 (0 : Fin 1) q) = ix2 (0 : Fin 1) q := by
  obtain ⟨-, -, -, -, -, -, e0, e1, -⟩ := idx_facts3 t
  funext a; apply Fin.ext
  match a with
  | ⟨0, _⟩ => show win3_3.index t (0 : Fin 2) * 1 + 1 * 0 = 0; omega
  | ⟨1, _⟩ => show win3_3.index t (1 : Fin 2) * 128 + 1 * q.val = q.val; omega

/-- Entry (0, q) of the shift row's block, at any point, is entry (0, q) of the row. -/
theorem emb3_4 (t : Fin cfg3.N) (q : Fin 128) :
    ((cfg3.win 4).blk t).view.emb (ix2 (0 : Fin 1) q) = ix2 (0 : Fin 1) q := by
  obtain ⟨-, -, -, -, -, -, -, -, e0, e1, -⟩ := idx_facts3 t
  funext a; apply Fin.ext
  match a with
  | ⟨0, _⟩ => show win3_4.index t (0 : Fin 2) * 1 + 1 * 0 = 0; omega
  | ⟨1, _⟩ => show win3_4.index t (1 : Fin 2) * 128 + 1 * q.val = q.val; omega

/-- The table's block t read at (p, q) is the table at (4000·t + p, q). -/
theorem blk3_0 (c : Dev nD) (t : Fin cfg3.N) (p : Fin 4000) (q : Fin 128) (h : t.val * 4000 + p.val < 40000) :
    iblk3 V c 0 t (ix2 p q) = V c main_v69 (ix2 (⟨t.val * 4000 + p.val, h⟩ : Fin 40000) q) := by
  show V c main_v69 (((cfg3.win 0).blk t).view.emb (ix2 p q)) = _
  rw [emb3_0 t p q h]

/-- The mean row's block read at (0, q) is the row at (0, q). -/
theorem blk3_1 (c : Dev nD) (t : Fin cfg3.N) (q : Fin 128) :
    iblk3 V c 1 t (ix2 (0 : Fin 1) q) = V c main_v74 (ix2 (0 : Fin 1) q) := by
  show V c main_v74 (((cfg3.win 1).blk t).view.emb (ix2 (0 : Fin 1) q)) = _
  rw [emb3_1 t q]

/-- The variance row's block read at (0, q) is the row at (0, q). -/
theorem blk3_2 (c : Dev nD) (t : Fin cfg3.N) (q : Fin 128) :
    iblk3 V c 2 t (ix2 (0 : Fin 1) q) = V c main_v75 (ix2 (0 : Fin 1) q) := by
  show V c main_v75 (((cfg3.win 2).blk t).view.emb (ix2 (0 : Fin 1) q)) = _
  rw [emb3_2 t q]

/-- The scale row's block read at (0, q) is the row at (0, q). -/
theorem blk3_3 (c : Dev nD) (t : Fin cfg3.N) (q : Fin 128) :
    iblk3 V c 3 t (ix2 (0 : Fin 1) q) = V c main_v76 (ix2 (0 : Fin 1) q) := by
  show V c main_v76 (((cfg3.win 3).blk t).view.emb (ix2 (0 : Fin 1) q)) = _
  rw [emb3_3 t q]

/-- The shift row's block read at (0, q) is the row at (0, q). -/
theorem blk3_4 (c : Dev nD) (t : Fin cfg3.N) (q : Fin 128) :
    iblk3 V c 4 t (ix2 (0 : Fin 1) q) = V c main_v77 (ix2 (0 : Fin 1) q) := by
  show V c main_v77 (((cfg3.win 4).blk t).view.emb (ix2 (0 : Fin 1) q)) = _
  rw [emb3_4 t q]

/-- What point t writes back is block t of the normalised, rectified table: the one store leaves the body's
    result, which at (p, q) is the spec's entry (4000·t + p, q). -/
theorem flushed3_eq (c : Dev nD) (t : Fin cfg3.N) :
    (Gen.dat3 V c).flushed 5 t = ((cfg3.win 5).blk t).view.read (Elt Ideal)
      (Cert.Layers.bnRelu (V c main_v69) (V c main_v74) (V c main_v75) (V c main_v76) (V c main_v77)) := by
  show (cfg3.win 5).cut (grid3.coords t) ((Gen.dat3 V c).after 5 t) = _
  rw [after3_5]
  unfold out3_5
  rw [View.canon_unit_zero hz]
  simp only [View.ld_unit_zero (S := S4000x128) hz, View.ld_unit_zero (S := S1x128) hz]
  funext j
  obtain ⟨p, q, rfl⟩ : ∃ (p : Fin 4000) (q : Fin 128), j = ix2 p q := ⟨j 0, j 1, eq_ix2 j⟩
  have hp : t.val * 4000 + p.val < 40000 := by have := t_lt3 t; have := p.isLt; omega
  show k3_pay1 (iblk3 V c 0 t) (iblk3 V c 1 t) (iblk3 V c 2 t) (iblk3 V c 3 t) (iblk3 V c 4 t) (ix2 p q)
    = Cert.Layers.bnRelu (V c main_v69) (V c main_v74) (V c main_v75) (V c main_v76) (V c main_v77)
        (((cfg3.win 5).blk t).view.emb (ix2 p q))
  rw [emb3_5 t p q hp, Cert.Layers.bnRelu_apply]
  refine (pay3_apply _ _ _ _ _ p q).trans ?_
  rw [blk3_0 V c t p q hp, blk3_1 V c t q, blk3_2 V c t q, blk3_3 V c t q, blk3_4 V c t q]

/-- An index of the output lies in block t iff each coordinate lies in the block's range on its axis. -/
theorem mem_blk3 (t : Fin cfg3.N) (i : S40000x128.Idx) :
    i ∈ ((cfg3.win 5).blk t).view.set ↔ ∀ a : Fin 2, win3_5.index t a * S4000x128.size a ≤ (i a).val
      ∧ (i a).val < win3_5.index t a * S4000x128.size a + S4000x128.size a := by
  show i ∈ ((View.whole main_v78).slice (win3_5.rect t)).set ↔ _
  rw [View.set_slice_whole, Rect.mem_set_unit]
  exact Iff.rfl

/-- The blocks cover the output: row r lies in block r / 4000, and every point writes its block back. -/
theorem cover3 (i : S40000x128.Idx) :
    ∃ t : Fin cfg3.N, (cfg3.win 5).flush t = true ∧ i ∈ ((cfg3.win 5).blk t).view.set := by
  have hi0 : (i 0).val < 40000 := (i 0).isLt
  have hi1 : (i 1).val < 128 := (i 1).isLt
  have hN : cfg3.N = 10 := N_3
  refine ⟨⟨(i 0).val / 4000, by omega⟩, flush3_5 _, ?_⟩
  rw [mem_blk3]
  obtain ⟨-, -, -, -, -, -, -, -, -, -, e0, e1⟩ := idx_facts3 ⟨(i 0).val / 4000, by omega⟩
  intro a
  match a with
  | ⟨0, _⟩ =>
    show win3_5.index _ (0 : Fin 2) * 4000 ≤ (i 0).val ∧ (i 0).val < win3_5.index _ (0 : Fin 2) * 4000 + 4000
    rw [e0]; show (i 0).val / 4000 * 4000 ≤ (i 0).val ∧ (i 0).val < (i 0).val / 4000 * 4000 + 4000; omega
  | ⟨1, _⟩ =>
    show win3_5.index _ (1 : Fin 2) * 128 ≤ (i 1).val ∧ (i 1).val < win3_5.index _ (1 : Fin 2) * 128 + 128
    rw [e1]; omega

/-- The output array after the region is the normalised, rectified table, whatever the buffers held on entry. -/
theorem region3 (c : Dev nD) :
    (Gen.dat3 (F := Ideal) V c).arrAt 5 cfg3.N
      = Cert.Layers.bnRelu (V c main_v69) (V c main_v74) (V c main_v75) (V c main_v76) (V c main_v77) :=
  (Gen.dat3 V c).arrAt_eq_of_cover 5 _ (fun t _ => flushed3_eq V c t) cover3

end Cert.KernelIdeal.NormRegions

end
-- ==== Proof.RefRun.lean ====
/-
  The reference program's run, read back as a fold of its host operations.

  Its @main is a straight line of 200 host operations once the three outlined helpers (the variance with its
  "divisor positive" guard, which itself calls a select helper, and the rectifier) are written out at their four call
  sites over each call's own buffers. The line is cut where the printed program cuts it into windows and where a call
  starts and ends; the nine pieces in order are the whole program, so every weakly fair execution terminates with each
  buffer at the pieces' results folded in order over the launch contents.
-/
import proofs.«136930_j9698036155164_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-! ## The nine pieces -/

/-- 59 operations. -/
abbrev w0_0 : List (HloOp τ sig (Elt F)) :=
  [ StableHlo.nullary main_v0 (iotaInDim S40000 32 0),
    StableHlo.unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v1 main_v2 rfl shapeCasts_S1x640000_S640000,
    StableHlo.binary main_v2 main_v0 main_v3 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    StableHlo.unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v4 main_v5 rfl shapeCasts_S1x640000_S640000,
    StableHlo.binary main_v5 main_v0 main_v6 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    StableHlo.nullary main_cst (constant S_ .f32 0x3F800000#32),
    StableHlo.unary main_cst main_v7 (broadcastInDim S680000 ![] bcast_S_S680000 : (⟨S_, .f32⟩ : BufTy).Contents (Elt F) → (⟨S680000, .f32⟩ : BufTy).Contents (Elt F)),
    StableHlo.nullary main_cst_0 (constant S_ .f32 0x00000000#32),
    StableHlo.unary main_cst_0 main_v8 (broadcastInDim S40000 ![] bcast_S_S40000 : (⟨S_, .f32⟩ : BufTy).Contents (Elt F) → (⟨S40000, .f32⟩ : BufTy).Contents (Elt F)),
    StableHlo.unary main_v6 main_v9 (broadcastInDim S680000x1 ![0] bcast_S680000_S680000x1_0 : (⟨S680000, .i32⟩ : BufTy).Contents (Elt F) → (⟨S680000x1, .i32⟩ : BufTy).Contents (Elt F)),
    StableHlo.ternary main_v8 main_v9 main_v7 main_v10 ((fun x i u => Host.scatterAdd scatter_S40000_S680000x1_S680000_n_0_0_1 x i u) : (⟨S40000, .f32⟩ : BufTy).Contents (Elt F) → (⟨S680000x1, .i32⟩ : BufTy).Contents (Elt F) → (⟨S680000, .f32⟩ : BufTy).Contents (Elt F) → (⟨S40000, .f32⟩ : BufTy).Contents (Elt F)),
    StableHlo.unary main_v10 main_v11 (Host.rsqrt : (⟨S40000, .f32⟩ : BufTy).Contents (Elt F) → (⟨S40000, .f32⟩ : BufTy).Contents (Elt F)),
    StableHlo.nullary main_c (constantI S_ 32 0#32),
    StableHlo.unary main_c main_v12 (broadcastInDim S680000 ![] bcast_S_S680000 : (⟨S_, .i32⟩ : BufTy).Contents (Elt F) → (⟨S680000, .i32⟩ : BufTy).Contents (Elt F)),
    StableHlo.binary main_v3 main_v12 main_v13 (cmpi .slt : (⟨S680000, .i32⟩ : BufTy).Contents (Elt F) → (⟨S680000, .i32⟩ : BufTy).Contents (Elt F) → (⟨S680000, .i1⟩ : BufTy).Contents (Elt F)),
    StableHlo.nullary main_c_1 (constantI S_ 32 40000#32),
    StableHlo.unary main_c_1 main_v14 (broadcastInDim S680000 ![] bcast_S_S680000 : (⟨S_, .i32⟩ : BufTy).Contents (Elt F) → (⟨S680000, .i32⟩ : BufTy).Contents (Elt F)),
    StableHlo.binary main_v3 main_v14 main_v15 (addi : (⟨S680000, .i32⟩ : BufTy).Contents (Elt F) → (⟨S680000, .i32⟩ : BufTy).Contents (Elt F) → (⟨S680000, .i32⟩ : BufTy).Contents (Elt F)),
    StableHlo.ternary main_v13 main_v15 main_v3 main_v16 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v16 main_v17 (broadcastInDim S680000x1 ![0] bcast_S680000_S680000x1_0 : (⟨S680000, .i32⟩ : BufTy).Contents (Elt F) → (⟨S680000x1, .i32⟩ : BufTy).Contents (Elt F)),
    StableHlo.binary main_v11 main_v17 main_v18 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.nullary main_c_2 (constantI S_ 32 0#32),
    StableHlo.unary main_c_2 main_v19 (broadcastInDim S680000 ![] bcast_S_S680000 : (⟨S_, .i32⟩ : BufTy).Contents (Elt F) → (⟨S680000, .i32⟩ : BufTy).Contents (Elt F)),
    StableHlo.binary main_v6 main_v19 main_v20 (cmpi .slt : (⟨S680000, .i32⟩ : BufTy).Contents (Elt F) → (⟨S680000, .i32⟩ : BufTy).Contents (Elt F) → (⟨S680000, .i1⟩ : BufTy).Contents (Elt F)),
    StableHlo.nullary main_c_3 (constantI S_ 32 40000#32),
    StableHlo.unary main_c_3 main_v21 (broadcastInDim S680000 ![] bcast_S_S680000 : (⟨S_, .i32⟩ : BufTy).Contents (Elt F) → (⟨S680000, .i32⟩ : BufTy).Contents (Elt F)),
    StableHlo.binary main_v6 main_v21 main_v22 (addi : (⟨S680000, .i32⟩ : BufTy).Contents (Elt F) → (⟨S680000, .i32⟩ : BufTy).Contents (Elt F) → (⟨S680000, .i32⟩ : BufTy).Contents (Elt F)),
    StableHlo.ternary main_v20 main_v22 main_v6 main_v23 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v23 main_v24 (broadcastInDim S680000x1 ![0] bcast_S680000_S680000x1_0 : (⟨S680000, .i32⟩ : BufTy).Contents (Elt F) → (⟨S680000x1, .i32⟩ : BufTy).Contents (Elt F)),
    StableHlo.binary main_v11 main_v24 main_v25 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.binary main_v18 main_v25 main_v26 (mulf : (⟨S680000, .f32⟩ : BufTy).Contents (Elt F) → (⟨S680000, .f32⟩ : BufTy).Contents (Elt F) → (⟨S680000, .f32⟩ : BufTy).Contents (Elt F)),
    StableHlo.binary main_arg0 main_arg2 main_v27 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.nullary main_c_4 (constantI S_ 32 0#32),
    StableHlo.unary main_c_4 main_v28 (broadcastInDim S680000 ![] bcast_S_S680000 : (⟨S_, .i32⟩ : BufTy).Contents (Elt F) → (⟨S680000, .i32⟩ : BufTy).Contents (Elt F)),
    StableHlo.binary main_v3 main_v28 main_v29 (cmpi .slt : (⟨S680000, .i32⟩ : BufTy).Contents (Elt F) → (⟨S680000, .i32⟩ : BufTy).Contents (Elt F) → (⟨S680000, .i1⟩ : BufTy).Contents (Elt F)),
    StableHlo.nullary main_c_5 (constantI S_ 32 40000#32),
    StableHlo.unary main_c_5 main_v30 (broadcastInDim S680000 ![] bcast_S_S680000 : (⟨S_, .i32⟩ : BufTy).Contents (Elt F) → (⟨S680000, .i32⟩ : BufTy).Contents (Elt F)),
    StableHlo.binary main_v3 main_v30 main_v31 (addi : (⟨S680000, .i32⟩ : BufTy).Contents (Elt F) → (⟨S680000, .i32⟩ : BufTy).Contents (Elt F) → (⟨S680000, .i32⟩ : BufTy).Contents (Elt F)),
    StableHlo.ternary main_v29 main_v31 main_v3 main_v32 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v32 main_v33 (broadcastInDim S680000x1 ![0] bcast_S680000_S680000x1_0 : (⟨S680000, .i32⟩ : BufTy).Contents (Elt F) → (⟨S680000x1, .i32⟩ : BufTy).Contents (Elt F)),
    StableHlo.binary main_v27 main_v33 main_v34 ((fun x i => Host.gather gather_S40000x128_S680000x1_S680000x128_1_0_n_n_0_1_1128 x i) : (⟨S40000x128, .f32⟩ : BufTy).Contents (Elt F) → (⟨S680000x1, .i32⟩ : BufTy).Contents (Elt F) → (⟨S680000x128, .f32⟩ : BufTy).Contents (Elt F)),
    StableHlo.unary main_v26 main_v35 (broadcastInDim S680000x1 ![0] bcast_S680000_S680000x1_0 : (⟨S680000, .f32⟩ : BufTy).Contents (Elt F) → (⟨S680000x1, .f32⟩ : BufTy).Contents (Elt F)),
    StableHlo.unary main_v35 main_v36 (broadcastInDim S680000x128 ![0, 1] bcast_S680000x1_S680000x128_0_1 : (⟨S680000x1, .f32⟩ : BufTy).Contents (Elt F) → (⟨S680000x128, .f32⟩ : BufTy).Contents (Elt F)),
    StableHlo.binary main_v34 main_v36 main_v37 (mulf : (⟨S680000x128, .f32⟩ : BufTy).Contents (Elt F) → (⟨S680000x128, .f32⟩ : BufTy).Contents (Elt F) → (⟨S680000x128, .f32⟩ : BufTy).Contents (Elt F)),
    StableHlo.nullary main_cst_6 (constant S_ .f32 0x00000000#32),
    StableHlo.unary main_cst_6 main_v38 (broadcastInDim S40000x128 ![] bcast_S_S40000x128 : (⟨S_, .f32⟩ : BufTy).Contents (Elt F) → (⟨S40000x128, .f32⟩ : BufTy).Contents (Elt F)),
    StableHlo.unary main_v6 main_v39 (broadcastInDim S680000x1 ![0] bcast_S680000_S680000x1_0 : (⟨S680000, .i32⟩ : BufTy).Contents (Elt F) → (⟨S680000x1, .i32⟩ : BufTy).Contents (Elt F)),
    StableHlo.ternary main_v38 main_v39 main_v37 main_v40 ((fun x i u => Host.scatterAdd scatter_S40000x128_S680000x1_S680000x128_1_0_0_1 x i u) : (⟨S40000x128, .f32⟩ : BufTy).Contents (Elt F) → (⟨S680000x1, .i32⟩ : BufTy).Contents (Elt F) → (⟨S680000x128, .f32⟩ : BufTy).Contents (Elt F) → (⟨S40000x128, .f32⟩ : BufTy).Contents (Elt F)),
    StableHlo.unary main_arg3 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S40000x128 ![0, 1] bcast_S1x128_S40000x128_0_1 : (⟨S1x128, .f32⟩ : BufTy).Contents (Elt F) → (⟨S40000x128, .f32⟩ : BufTy).Contents (Elt F)),
    StableHlo.binary main_v40 main_v42 main_v43 (addf : (⟨S40000x128, .f32⟩ : BufTy).Contents (Elt F) → (⟨S40000x128, .f32⟩ : BufTy).Contents (Elt F) → (⟨S40000x128, .f32⟩ : BufTy).Contents (Elt F)),
    StableHlo.nullary main_cst_7 (constant S_ .f32 0x00000000#32),
    StableHlo.binary main_v43 main_cst_7 main_v44 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_8 (constant S_ .f32 0x471C4000#32),
    StableHlo.unary main_cst_8 main_v45 (broadcastInDim S128 ![] bcast_S_S128 : (⟨S_, .f32⟩ : BufTy).Contents (Elt F) → (⟨S128, .f32⟩ : BufTy).Contents (Elt F)),
    StableHlo.binary main_v44 main_v45 main_v46 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32) ]
theorem w0_0_sub : (w0_0 : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
theorem w0_0_fresh : (w0_0 : List (HloOp τ sig (Elt F))).Forall fun op => op.fresh = ∅ := by
  simp only [List.Forall]; repeat' constructor

/-- 22 operations. -/
abbrev w0_1_var : List (HloOp τ sig (Elt F)) :=
  [ StableHlo.TRef.nullary main_call0.cst (constant S_ .f32 0x00000000#32),
    StableHlo.TRef.binary (.of main_v43) main_call0.cst main_call0.v0 (fun x v => Host.reduceAdd x v reducesTo_S40000x128_S128_d0 h_S_),
    StableHlo.TRef.unary main_call0.v0 main_call0.v1 (broadcastInDim S1x128 ![1] bcast_S128_S1x128_1),
    StableHlo.TRef.nullary main_call0.cst_0 (constant S_ .f32 0x471C4000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S40000x128 ![0, 1] bcast_S1x128_S40000x128_0_1),
    StableHlo.TRef.binary (.of main_v43) main_call0.v4 main_call0.v5 subf,
    StableHlo.TRef.binary main_call0.v5 main_call0.v5 main_call0.v6 mulf,
    StableHlo.TRef.unary (.of main_c_9) main_call0.v7 (sitofp .f32),
    StableHlo.TRef.nullary main_call0.cst_1 (constant S_ .f32 0x471C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S40000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]
theorem w0_1_var_sub : (w0_1_var : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem w0_1_var_fresh : (w0_1_var : List (HloOp τ sig (Elt F))).Forall fun op => op.fresh = ∅ := by
  simp only [List.Forall]; repeat' constructor

/-- 16 operations. -/
abbrev w1_0 : List (HloOp τ sig (Elt F)) :=
  [ StableHlo.unary main_v46 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S40000x128 ![0, 1] bcast_S1x128_S40000x128_0_1 : (⟨S1x128, .f32⟩ : BufTy).Contents (Elt F) → (⟨S40000x128, .f32⟩ : BufTy).Contents (Elt F)),
    StableHlo.binary main_v43 main_v49 main_v50 (subf : (⟨S40000x128, .f32⟩ : BufTy).Contents (Elt F) → (⟨S40000x128, .f32⟩ : BufTy).Contents (Elt F) → (⟨S40000x128, .f32⟩ : BufTy).Contents (Elt F)),
    StableHlo.unary main_arg4 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S40000x128 ![0, 1] bcast_S1x128_S40000x128_0_1 : (⟨S1x128, .f32⟩ : BufTy).Contents (Elt F) → (⟨S40000x128, .f32⟩ : BufTy).Contents (Elt F)),
    StableHlo.binary main_v52 main_v50 main_v53 (mulf : (⟨S40000x128, .f32⟩ : BufTy).Contents (Elt F) → (⟨S40000x128, .f32⟩ : BufTy).Contents (Elt F) → (⟨S40000x128, .f32⟩ : BufTy).Contents (Elt F)),
    StableHlo.nullary main_cst_10 (constant S_ .f32 0x3727C5AC#32),
    StableHlo.unary main_cst_10 main_v54 (broadcastInDim S128 ![] bcast_S_S128 : (⟨S_, .f32⟩ : BufTy).Contents (Elt F) → (⟨S128, .f32⟩ : BufTy).Contents (Elt F)),
    StableHlo.binary main_v47 main_v54 main_v55 (addf : (⟨S128, .f32⟩ : BufTy).Contents (Elt F) → (⟨S128, .f32⟩ : BufTy).Contents (Elt F) → (⟨S128, .f32⟩ : BufTy).Contents (Elt F)),
    StableHlo.unary main_v55 main_v56 (Host.rsqrt : (⟨S128, .f32⟩ : BufTy).Contents (Elt F) → (⟨S128, .f32⟩ : BufTy).Contents (Elt F)),
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S40000x128 ![0, 1] bcast_S1x128_S40000x128_0_1 : (⟨S1x128, .f32⟩ : BufTy).Contents (Elt F) → (⟨S40000x128, .f32⟩ : BufTy).Contents (Elt F)),
    StableHlo.binary main_v53 main_v58 main_v59 (mulf : (⟨S40000x128, .f32⟩ : BufTy).Contents (Elt F) → (⟨S40000x128, .f32⟩ : BufTy).Contents (Elt F) → (⟨S40000x128, .f32⟩ : BufTy).Contents (Elt F)),
    StableHlo.unary main_arg5 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S40000x128 ![0, 1] bcast_S1x128_S40000x128_0_1 : (⟨S1x128, .f32⟩ : BufTy).Contents (Elt F) → (⟨S40000x128, .f32⟩ : BufTy).Contents (Elt F)),
    StableHlo.binary main_v59 main_v61 main_v62 (addf : (⟨S40000x128, .f32⟩ : BufTy).Contents (Elt F) → (⟨S40000x128, .f32⟩ : BufTy).Contents (Elt F) → (⟨S40000x128, .f32⟩ : BufTy).Contents (Elt F)) ]
theorem w1_0_sub : (w1_0 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩
theorem w1_0_fresh : (w1_0 : List (HloOp τ sig (Elt F))).Forall fun op => op.fresh = ∅ := by
  simp only [List.Forall]; repeat' constructor

/-- 3 operations. -/
abbrev w1_1_relu : List (HloOp τ sig (Elt F)) :=
  [ StableHlo.TRef.nullary main_call1.cst (constant S_ .f32 0x00000000#32),
    StableHlo.TRef.unary main_call1.cst main_call1.v0 (broadcastInDim S40000x128 ![] bcast_S_S40000x128),
    StableHlo.TRef.binary (.of main_v62) main_call1.v0 main_call1.v1 maximumf ]
theorem w1_1_relu_sub : (w1_1_relu : List (HloOp τ sig (Elt F))).Forall fun op => op.bufs ⊆ StableHlo.tcRefs τ sig :=
  ⟨StableHlo.nullary_bufs_sub .., StableHlo.unary_bufs_sub .., StableHlo.binary_bufs_sub ..⟩
theorem w1_1_relu_fresh : (w1_1_relu : List (HloOp τ sig (Elt F))).Forall fun op => op.fresh = ∅ := by
  simp only [List.Forall]; repeat' constructor

/-- 43 operations. -/
abbrev w1_2 : List (HloOp τ sig (Elt F)) :=
  [ StableHlo.nullary main_v64 (iotaInDim S40000 32 0),
    StableHlo.unary main_arg1 main_v65 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v65 main_v66 rfl shapeCasts_S1x640000_S640000,
    StableHlo.binary main_v66 main_v64 main_v67 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    StableHlo.unary main_arg1 main_v68 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v68 main_v69 rfl shapeCasts_S1x640000_S640000,
    StableHlo.binary main_v69 main_v64 main_v70 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    StableHlo.nullary main_cst_11 (constant S_ .f32 0x3F800000#32),
    StableHlo.unary main_cst_11 main_v71 (broadcastInDim S680000 ![] bcast_S_S680000 : (⟨S_, .f32⟩ : BufTy).Contents (Elt F) → (⟨S680000, .f32⟩ : BufTy).Contents (Elt F)),
    StableHlo.nullary main_cst_12 (constant S_ .f32 0x00000000#32),
    StableHlo.unary main_cst_12 main_v72 (broadcastInDim S40000 ![] bcast_S_S40000 : (⟨S_, .f32⟩ : BufTy).Contents (Elt F) → (⟨S40000, .f32⟩ : BufTy).Contents (Elt F)),
    StableHlo.unary main_v70 main_v73 (broadcastInDim S680000x1 ![0] bcast_S680000_S680000x1_0 : (⟨S680000, .i32⟩ : BufTy).Contents (Elt F) → (⟨S680000x1, .i32⟩ : BufTy).Contents (Elt F)),
    StableHlo.ternary main_v72 main_v73 main_v71 main_v74 ((fun x i u => Host.scatterAdd scatter_S40000_S680000x1_S680000_n_0_0_1 x i u) : (⟨S40000, .f32⟩ : BufTy).Contents (Elt F) → (⟨S680000x1, .i32⟩ : BufTy).Contents (Elt F) → (⟨S680000, .f32⟩ : BufTy).Contents (Elt F) → (⟨S40000, .f32⟩ : BufTy).Contents (Elt F)),
    StableHlo.unary main_v74 main_v75 (Host.rsqrt : (⟨S40000, .f32⟩ : BufTy).Contents (Elt F) → (⟨S40000, .f32⟩ : BufTy).Contents (Elt F)),
    StableHlo.nullary main_c_13 (constantI S_ 32 0#32),
    StableHlo.unary main_c_13 main_v76 (broadcastInDim S680000 ![] bcast_S_S680000 : (⟨S_, .i32⟩ : BufTy).Contents (Elt F) → (⟨S680000, .i32⟩ : BufTy).Contents (Elt F)),
    StableHlo.binary main_v67 main_v76 main_v77 (cmpi .slt : (⟨S680000, .i32⟩ : BufTy).Contents (Elt F) → (⟨S680000, .i32⟩ : BufTy).Contents (Elt F) → (⟨S680000, .i1⟩ : BufTy).Contents (Elt F)),
    StableHlo.nullary main_c_14 (constantI S_ 32 40000#32),
    StableHlo.unary main_c_14 main_v78 (broadcastInDim S680000 ![] bcast_S_S680000 : (⟨S_, .i32⟩ : BufTy).Contents (Elt F) → (⟨S680000, .i32⟩ : BufTy).Contents (Elt F)),
    StableHlo.binary main_v67 main_v78 main_v79 (addi : (⟨S680000, .i32⟩ : BufTy).Contents (Elt F) → (⟨S680000, .i32⟩ : BufTy).Contents (Elt F) → (⟨S680000, .i32⟩ : BufTy).Contents (Elt F)),
    StableHlo.ternary main_v77 main_v79 main_v67 main_v80 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v80 main_v81 (broadcastInDim S680000x1 ![0] bcast_S680000_S680000x1_0 : (⟨S680000, .i32⟩ : BufTy).Contents (Elt F) → (⟨S680000x1, .i32⟩ : BufTy).Contents (Elt F)),
    StableHlo.binary main_v75 main_v81 main_v82 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.nullary main_c_15 (constantI S_ 32 0#32),
    StableHlo.unary main_c_15 main_v83 (broadcastInDim S680000 ![] bcast_S_S680000 : (⟨S_, .i32⟩ : BufTy).Contents (Elt F) → (⟨S680000, .i32⟩ : BufTy).Contents (Elt F)),
    StableHlo.binary main_v70 main_v83 main_v84 (cmpi .slt : (⟨S680000, .i32⟩ : BufTy).Contents (Elt F) → (⟨S680000, .i32⟩ : BufTy).Contents (Elt F) → (⟨S680000, .i1⟩ : BufTy).Contents (Elt F)),
    StableHlo.nullary main_c_16 (constantI S_ 32 40000#32),
    StableHlo.unary main_c_16 main_v85 (broadcastInDim S680000 ![] bcast_S_S680000 : (⟨S_, .i32⟩ : BufTy).Contents (Elt F) → (⟨S680000, .i32⟩ : BufTy).Contents (Elt F)),
    StableHlo.binary main_v70 main_v85 main_v86 (addi : (⟨S680000, .i32⟩ : BufTy).Contents (Elt F) → (⟨S680000, .i32⟩ : BufTy).Contents (Elt F) → (⟨S680000, .i32⟩ : BufTy).Contents (Elt F)),
    StableHlo.ternary main_v84 main_v86 main_v70 main_v87 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v87 main_v88 (broadcastInDim S680000x1 ![0] bcast_S680000_S680000x1_0 : (⟨S680000, .i32⟩ : BufTy).Contents (Elt F) → (⟨S680000x1, .i32⟩ : BufTy).Contents (Elt F)),
    StableHlo.binary main_v75 main_v88 main_v89 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.binary main_v82 main_v89 main_v90 (mulf : (⟨S680000, .f32⟩ : BufTy).Contents (Elt F) → (⟨S680000, .f32⟩ : BufTy).Contents (Elt F) → (⟨S680000, .f32⟩ : BufTy).Contents (Elt F)),
    StableHlo.binary main_v63 main_arg6 main_v91 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.nullary main_c_17 (constantI S_ 32 0#32),
    StableHlo.unary main_c_17 main_v92 (broadcastInDim S680000 ![] bcast_S_S680000 : (⟨S_, .i32⟩ : BufTy).Contents (Elt F) → (⟨S680000, .i32⟩ : BufTy).Contents (Elt F)),
    StableHlo.binary main_v67 main_v92 main_v93 (cmpi .slt : (⟨S680000, .i32⟩ : BufTy).Contents (Elt F) → (⟨S680000, .i32⟩ : BufTy).Contents (Elt F) → (⟨S680000, .i1⟩ : BufTy).Contents (Elt F)),
    StableHlo.nullary main_c_18 (constantI S_ 32 40000#32),
    StableHlo.unary main_c_18 main_v94 (broadcastInDim S680000 ![] bcast_S_S680000 : (⟨S_, .i32⟩ : BufTy).Contents (Elt F) → (⟨S680000, .i32⟩ : BufTy).Contents (Elt F)),
    StableHlo.binary main_v67 main_v94 main_v95 (addi : (⟨S680000, .i32⟩ : BufTy).Contents (Elt F) → (⟨S680000, .i32⟩ : BufTy).Contents (Elt F) → (⟨S680000, .i32⟩ : BufTy).Contents (Elt F)),
    StableHlo.ternary main_v93 main_v95 main_v67 main_v96 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v96 main_v97 (broadcastInDim S680000x1 ![0] bcast_S680000_S680000x1_0 : (⟨S680000, .i32⟩ : BufTy).Contents (Elt F) → (⟨S680000x1, .i32⟩ : BufTy).Contents (Elt F)),
    StableHlo.binary main_v91 main_v97 main_v98 ((fun x i => Host.gather gather_S40000x128_S680000x1_S680000x128_1_0_n_n_0_1_1128 x i) : (⟨S40000x128, .f32⟩ : BufTy).Contents (Elt F) → (⟨S680000x1, .i32⟩ : BufTy).Contents (Elt F) → (⟨S680000x128, .f32⟩ : BufTy).Contents (Elt F)) ]
theorem w1_2_sub : (w1_2 : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
theorem w1_2_fresh : (w1_2 : List (HloOp τ sig (Elt F))).Forall fun op => op.fresh = ∅ := by
  simp only [List.Forall]; repeat' constructor

/-- 16 operations. -/
abbrev w2_0 : List (HloOp τ sig (Elt F)) :=
  [ StableHlo.unary main_v90 main_v99 (broadcastInDim S680000x1 ![0] bcast_S680000_S680000x1_0 : (⟨S680000, .f32⟩ : BufTy).Contents (Elt F) → (⟨S680000x1, .f32⟩ : BufTy).Contents (Elt F)),
    StableHlo.unary main_v99 main_v100 (broadcastInDim S680000x128 ![0, 1] bcast_S680000x1_S680000x128_0_1 : (⟨S680000x1, .f32⟩ : BufTy).Contents (Elt F) → (⟨S680000x128, .f32⟩ : BufTy).Contents (Elt F)),
    StableHlo.binary main_v98 main_v100 main_v101 (mulf : (⟨S680000x128, .f32⟩ : BufTy).Contents (Elt F) → (⟨S680000x128, .f32⟩ : BufTy).Contents (Elt F) → (⟨S680000x128, .f32⟩ : BufTy).Contents (Elt F)),
    StableHlo.nullary main_cst_19 (constant S_ .f32 0x00000000#32),
    StableHlo.unary main_cst_19 main_v102 (broadcastInDim S40000x128 ![] bcast_S_S40000x128 : (⟨S_, .f32⟩ : BufTy).Contents (Elt F) → (⟨S40000x128, .f32⟩ : BufTy).Contents (Elt F)),
    StableHlo.unary main_v70 main_v103 (broadcastInDim S680000x1 ![0] bcast_S680000_S680000x1_0 : (⟨S680000, .i32⟩ : BufTy).Contents (Elt F) → (⟨S680000x1, .i32⟩ : BufTy).Contents (Elt F)),
    StableHlo.ternary main_v102 main_v103 main_v101 main_v104 ((fun x i u => Host.scatterAdd scatter_S40000x128_S680000x1_S680000x128_1_0_0_1 x i u) : (⟨S40000x128, .f32⟩ : BufTy).Contents (Elt F) → (⟨S680000x1, .i32⟩ : BufTy).Contents (Elt F) → (⟨S680000x128, .f32⟩ : BufTy).Contents (Elt F) → (⟨S40000x128, .f32⟩ : BufTy).Contents (Elt F)),
    StableHlo.unary main_arg7 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S40000x128 ![0, 1] bcast_S1x128_S40000x128_0_1 : (⟨S1x128, .f32⟩ : BufTy).Contents (Elt F) → (⟨S40000x128, .f32⟩ : BufTy).Contents (Elt F)),
    StableHlo.binary main_v104 main_v106 main_v107 (addf : (⟨S40000x128, .f32⟩ : BufTy).Contents (Elt F) → (⟨S40000x128, .f32⟩ : BufTy).Contents (Elt F) → (⟨S40000x128, .f32⟩ : BufTy).Contents (Elt F)),
    StableHlo.nullary main_cst_20 (constant S_ .f32 0x00000000#32),
    StableHlo.binary main_v107 main_cst_20 main_v108 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_21 (constant S_ .f32 0x471C4000#32),
    StableHlo.unary main_cst_21 main_v109 (broadcastInDim S128 ![] bcast_S_S128 : (⟨S_, .f32⟩ : BufTy).Contents (Elt F) → (⟨S128, .f32⟩ : BufTy).Contents (Elt F)),
    StableHlo.binary main_v108 main_v109 main_v110 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32) ]
theorem w2_0_sub : (w2_0 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
theorem w2_0_fresh : (w2_0 : List (HloOp τ sig (Elt F))).Forall fun op => op.fresh = ∅ := by
  simp only [List.Forall]; repeat' constructor

/-- 22 operations. -/
abbrev w2_1_var : List (HloOp τ sig (Elt F)) :=
  [ StableHlo.TRef.nullary main_call2.cst (constant S_ .f32 0x00000000#32),
    StableHlo.TRef.binary (.of main_v107) main_call2.cst main_call2.v0 (fun x v => Host.reduceAdd x v reducesTo_S40000x128_S128_d0 h_S_),
    StableHlo.TRef.unary main_call2.v0 main_call2.v1 (broadcastInDim S1x128 ![1] bcast_S128_S1x128_1),
    StableHlo.TRef.nullary main_call2.cst_0 (constant S_ .f32 0x471C4000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S40000x128 ![0, 1] bcast_S1x128_S40000x128_0_1),
    StableHlo.TRef.binary (.of main_v107) main_call2.v4 main_call2.v5 subf,
    StableHlo.TRef.binary main_call2.v5 main_call2.v5 main_call2.v6 mulf,
    StableHlo.TRef.unary (.of main_c_22) main_call2.v7 (sitofp .f32),
    StableHlo.TRef.nullary main_call2.cst_1 (constant S_ .f32 0x471C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S40000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]
theorem w2_1_var_sub : (w2_1_var : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem w2_1_var_fresh : (w2_1_var : List (HloOp τ sig (Elt F))).Forall fun op => op.fresh = ∅ := by
  simp only [List.Forall]; repeat' constructor

/-- 16 operations. -/
abbrev w2_2 : List (HloOp τ sig (Elt F)) :=
  [ StableHlo.unary main_v110 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S40000x128 ![0, 1] bcast_S1x128_S40000x128_0_1 : (⟨S1x128, .f32⟩ : BufTy).Contents (Elt F) → (⟨S40000x128, .f32⟩ : BufTy).Contents (Elt F)),
    StableHlo.binary main_v107 main_v113 main_v114 (subf : (⟨S40000x128, .f32⟩ : BufTy).Contents (Elt F) → (⟨S40000x128, .f32⟩ : BufTy).Contents (Elt F) → (⟨S40000x128, .f32⟩ : BufTy).Contents (Elt F)),
    StableHlo.unary main_arg8 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S40000x128 ![0, 1] bcast_S1x128_S40000x128_0_1 : (⟨S1x128, .f32⟩ : BufTy).Contents (Elt F) → (⟨S40000x128, .f32⟩ : BufTy).Contents (Elt F)),
    StableHlo.binary main_v116 main_v114 main_v117 (mulf : (⟨S40000x128, .f32⟩ : BufTy).Contents (Elt F) → (⟨S40000x128, .f32⟩ : BufTy).Contents (Elt F) → (⟨S40000x128, .f32⟩ : BufTy).Contents (Elt F)),
    StableHlo.nullary main_cst_23 (constant S_ .f32 0x3727C5AC#32),
    StableHlo.unary main_cst_23 main_v118 (broadcastInDim S128 ![] bcast_S_S128 : (⟨S_, .f32⟩ : BufTy).Contents (Elt F) → (⟨S128, .f32⟩ : BufTy).Contents (Elt F)),
    StableHlo.binary main_v111 main_v118 main_v119 (addf : (⟨S128, .f32⟩ : BufTy).Contents (Elt F) → (⟨S128, .f32⟩ : BufTy).Contents (Elt F) → (⟨S128, .f32⟩ : BufTy).Contents (Elt F)),
    StableHlo.unary main_v119 main_v120 (Host.rsqrt : (⟨S128, .f32⟩ : BufTy).Contents (Elt F) → (⟨S128, .f32⟩ : BufTy).Contents (Elt F)),
    StableHlo.unary main_v120 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S40000x128 ![0, 1] bcast_S1x128_S40000x128_0_1 : (⟨S1x128, .f32⟩ : BufTy).Contents (Elt F) → (⟨S40000x128, .f32⟩ : BufTy).Contents (Elt F)),
    StableHlo.binary main_v117 main_v122 main_v123 (mulf : (⟨S40000x128, .f32⟩ : BufTy).Contents (Elt F) → (⟨S40000x128, .f32⟩ : BufTy).Contents (Elt F) → (⟨S40000x128, .f32⟩ : BufTy).Contents (Elt F)),
    StableHlo.unary main_arg9 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S40000x128 ![0, 1] bcast_S1x128_S40000x128_0_1 : (⟨S1x128, .f32⟩ : BufTy).Contents (Elt F) → (⟨S40000x128, .f32⟩ : BufTy).Contents (Elt F)),
    StableHlo.binary main_v123 main_v125 main_v126 (addf : (⟨S40000x128, .f32⟩ : BufTy).Contents (Elt F) → (⟨S40000x128, .f32⟩ : BufTy).Contents (Elt F) → (⟨S40000x128, .f32⟩ : BufTy).Contents (Elt F)) ]
theorem w2_2_sub : (w2_2 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩
theorem w2_2_fresh : (w2_2 : List (HloOp τ sig (Elt F))).Forall fun op => op.fresh = ∅ := by
  simp only [List.Forall]; repeat' constructor

/-- 3 operations. -/
abbrev w2_3_relu : List (HloOp τ sig (Elt F)) :=
  [ StableHlo.TRef.nullary main_call3.cst (constant S_ .f32 0x00000000#32),
    StableHlo.TRef.unary main_call3.cst main_call3.v0 (broadcastInDim S40000x128 ![] bcast_S_S40000x128),
    StableHlo.TRef.binary (.of main_v126) main_call3.v0 main_call3.v1 maximumf ]
theorem w2_3_relu_sub : (w2_3_relu : List (HloOp τ sig (Elt F))).Forall fun op => op.bufs ⊆ StableHlo.tcRefs τ sig :=
  ⟨StableHlo.nullary_bufs_sub .., StableHlo.unary_bufs_sub .., StableHlo.binary_bufs_sub ..⟩
theorem w2_3_relu_fresh : (w2_3_relu : List (HloOp τ sig (Elt F))).Forall fun op => op.fresh = ∅ := by
  simp only [List.Forall]; repeat' constructor

/-! ## The windows are their pieces, and @main is all nine in order -/

theorem main_part0_eq (c : Dev nD) : main_part0 (F := F) c = (Pipeline.chainK [seq w0_0] (seq w0_1_var)
    : Prog (TpuEff nD τ sig (Elt F) (Pipeline.Sig Λ₀ (Fin 0) fun p => (pcfgs (F := F) p).Adm) .tc) PUnit) := by
  chain_rfl

theorem main_part1_eq (c : Dev nD) : main_part1 (F := F) c = (Pipeline.chainK [seq w1_0, seq w1_1_relu] (seq w1_2)
    : Prog (TpuEff nD τ sig (Elt F) (Pipeline.Sig Λ₀ (Fin 0) fun p => (pcfgs (F := F) p).Adm) .tc) PUnit) := by
  chain_rfl

theorem main_part2_eq (c : Dev nD) : main_part2 (F := F) c = (Pipeline.chain [seq w2_0, seq w2_1_var, seq w2_2, seq w2_3_relu]
    : Prog (TpuEff nD τ sig (Elt F) (Pipeline.Sig Λ₀ (Fin 0) fun p => (pcfgs (F := F) p).Adm) .tc) PUnit) := by
  chain_rfl

/-- All 200 operations, in order. -/
abbrev ops : List (HloOp τ sig (Elt F)) :=
  w0_0 ++ (w0_1_var ++ (w1_0 ++ (w1_1_relu ++ (w1_2 ++ (w2_0 ++ (w2_1_var ++ (w2_2 ++ (w2_3_relu ++ []))))))))

theorem main_eq (c : Dev nD) : main (F := F) c = seq ops := by
  show (main_part0 (F := F) c >>= fun _ => main_part1 (F := F) c >>= fun _ => main_part2 (F := F) c) = _
  rw [main_part2_eq, main_part1_eq, main_part0_eq, Pipeline.chainK_bind_chain, Pipeline.chainK_bind_chain]
  simp only [ops, seq_append, List.cons_append, List.nil_append, Pipeline.chain_cons, Pipeline.chain_nil]
  rfl

/-- The fold of a line cut in two is the second piece's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem ops_sub : (ops : List (HloOp τ sig (Elt F))).Forall fun op => op.bufs ⊆ tcRefs τ sig := by
  simp only [ops, List.forall_append]
  exact ⟨w0_0_sub, w0_1_var_sub, w1_0_sub, w1_1_relu_sub, w1_2_sub, w2_0_sub, w2_1_var_sub, w2_2_sub, w2_3_relu_sub, trivial⟩

theorem ops_fresh : ∀ op ∈ (ops : List (HloOp τ sig (Elt F))), op.fresh = ∅ := by
  have h : (ops : List (HloOp τ sig (Elt F))).Forall fun op => op.fresh = ∅ := by
    simp only [ops, List.forall_append]
    exact ⟨w0_0_fresh, w0_1_var_fresh, w1_0_fresh, w1_1_relu_fresh, w1_2_fresh, w2_0_fresh, w2_1_var_fresh, w2_2_fresh, w2_3_relu_fresh, trivial⟩
  exact List.forall_iff_forall_mem.mp h

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of the
    reference terminates with each buffer at the nine pieces' results folded in order over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after w2_3_relu (after w2_2 (after w2_1_var (after w2_0 (after w1_2 (after w1_1_relu (after w1_0 (after w0_1_var
            (after w0_0 (launchContents m c))))))))) (Proc.devRef .tc b) :=
  (θ_run defs _ _).mono (fun _ h c b => (h c b).trans (by simp only [ops, after_append, after_nil]))
    (run_seq scopedRefs_eq scopedSems_eq defs main (fun _ => ops) main_eq (fun _ => ops_sub) m ρ (fun _ => ops_fresh))

end Cert.ReferenceIdeal.RefRun

end
-- ==== Proof.RefDot.lean ====
/-
  The host's matrix product of the 40000×128 node table with a 128×128 weight matrix, as the reference spells it
  (one contracted axis, no batch axes), named so that the stages of the reference's fold can mention it closed.
-/
import proofs.«136930_j9698036155164_1_alg».proof.Proof.RefRun
import proofs.«136930_j9698036155164_1_alg».proof.Proof.NetSpec
import proofs.«136930_j9698036155164_1_alg».proof.Proof.Gen.KernelIdeal

noncomputable section

namespace Cert.ReferenceIdeal.RefDot

open Idealize.ShloMosaic Cert.ReferenceIdeal Cert.KernelIdeal.HostSpec

variable {F : FTy → Type} [FloatOps F]

/-- The host's matrix product of the node table with a weight matrix, for any float values. -/
def hostDot (x : Ct F Cert.KernelIdeal.S40000x128 .f32) (W : Ct F Cert.KernelIdeal.S128x128 .f32) :
    Ct F Cert.KernelIdeal.S40000x128 .f32 :=
  Host.dotGeneral (F := F) (φ₁ := .f32) (φ₂ := .f32) dot_S40000x128_S128x128_S40000x128_1_0_0_1_n_n none x W

end Cert.ReferenceIdeal.RefDot

end
-- ==== Proof.RefSplit.lean ====
/-
  Two of the reference's nine pieces cut once more, after the edge weights: the first piece of the first window is the
  edge lists and edge weights (33 operations) followed by the first layer's product, aggregation and column mean (26);
  the third piece of the second window is the same 33 operations again followed by the second layer's product and
  gather (10).  A piece's fold is the second part's fold over the first's.
-/
import proofs.«136930_j9698036155164_1_alg».proof.Proof.RefDot

noncomputable section

namespace Cert.ReferenceIdeal.RefSplit

open Cert.ReferenceIdeal Cert.ReferenceIdeal.Facts₀ Cert.ReferenceIdeal.Facts Cert.ReferenceIdeal.RefRun
open Idealize.ShloMosaic Idealize.ShloMosaic.TcCoe Idealize.SL.Sem Idealize.ShloMosaic.StableHlo

variable {F : FTy → Type} [FloatOps F]

/-- 33 operations. -/
abbrev w0_0a : List (HloOp τ sig (Elt F)) :=
  [ StableHlo.nullary main_v0 (iotaInDim S40000 32 0),
    StableHlo.unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v1 main_v2 rfl shapeCasts_S1x640000_S640000,
    StableHlo.binary main_v2 main_v0 main_v3 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    StableHlo.unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v4 main_v5 rfl shapeCasts_S1x640000_S640000,
    StableHlo.binary main_v5 main_v0 main_v6 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    StableHlo.nullary main_cst (constant S_ .f32 0x3F800000#32),
    StableHlo.unary main_cst main_v7 (broadcastInDim S680000 ![] bcast_S_S680000 : (⟨S_, .f32⟩ : BufTy).Contents (Elt F) → (⟨S680000, .f32⟩ : BufTy).Contents (Elt F)),
    StableHlo.nullary main_cst_0 (constant S_ .f32 0x00000000#32),
    StableHlo.unary main_cst_0 main_v8 (broadcastInDim S40000 ![] bcast_S_S40000 : (⟨S_, .f32⟩ : BufTy).Contents (Elt F) → (⟨S40000, .f32⟩ : BufTy).Contents (Elt F)),
    StableHlo.unary main_v6 main_v9 (broadcastInDim S680000x1 ![0] bcast_S680000_S680000x1_0 : (⟨S680000, .i32⟩ : BufTy).Contents (Elt F) → (⟨S680000x1, .i32⟩ : BufTy).Contents (Elt F)),
    StableHlo.ternary main_v8 main_v9 main_v7 main_v10 ((fun x i u => Host.scatterAdd scatter_S40000_S680000x1_S680000_n_0_0_1 x i u) : (⟨S40000, .f32⟩ : BufTy).Contents (Elt F) → (⟨S680000x1, .i32⟩ : BufTy).Contents (Elt F) → (⟨S680000, .f32⟩ : BufTy).Contents (Elt F) → (⟨S40000, .f32⟩ : BufTy).Contents (Elt F)),
    StableHlo.unary main_v10 main_v11 (Host.rsqrt : (⟨S40000, .f32⟩ : BufTy).Contents (Elt F) → (⟨S40000, .f32⟩ : BufTy).Contents (Elt F)),
    StableHlo.nullary main_c (constantI S_ 32 0#32),
    StableHlo.unary main_c main_v12 (broadcastInDim S680000 ![] bcast_S_S680000 : (⟨S_, .i32⟩ : BufTy).Contents (Elt F) → (⟨S680000, .i32⟩ : BufTy).Contents (Elt F)),
    StableHlo.binary main_v3 main_v12 main_v13 (cmpi .slt : (⟨S680000, .i32⟩ : BufTy).Contents (Elt F) → (⟨S680000, .i32⟩ : BufTy).Contents (Elt F) → (⟨S680000, .i1⟩ : BufTy).Contents (Elt F)),
    StableHlo.nullary main_c_1 (constantI S_ 32 40000#32),
    StableHlo.unary main_c_1 main_v14 (broadcastInDim S680000 ![] bcast_S_S680000 : (⟨S_, .i32⟩ : BufTy).Contents (Elt F) → (⟨S680000, .i32⟩ : BufTy).Contents (Elt F)),
    StableHlo.binary main_v3 main_v14 main_v15 (addi : (⟨S680000, .i32⟩ : BufTy).Contents (Elt F) → (⟨S680000, .i32⟩ : BufTy).Contents (Elt F) → (⟨S680000, .i32⟩ : BufTy).Contents (Elt F)),
    StableHlo.ternary main_v13 main_v15 main_v3 main_v16 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v16 main_v17 (broadcastInDim S680000x1 ![0] bcast_S680000_S680000x1_0 : (⟨S680000, .i32⟩ : BufTy).Contents (Elt F) → (⟨S680000x1, .i32⟩ : BufTy).Contents (Elt F)),
    StableHlo.binary main_v11 main_v17 main_v18 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.nullary main_c_2 (constantI S_ 32 0#32),
    StableHlo.unary main_c_2 main_v19 (broadcastInDim S680000 ![] bcast_S_S680000 : (⟨S_, .i32⟩ : BufTy).Contents (Elt F) → (⟨S680000, .i32⟩ : BufTy).Contents (Elt F)),
    StableHlo.binary main_v6 main_v19 main_v20 (cmpi .slt : (⟨S680000, .i32⟩ : BufTy).Contents (Elt F) → (⟨S680000, .i32⟩ : BufTy).Contents (Elt F) → (⟨S680000, .i1⟩ : BufTy).Contents (Elt F)),
    StableHlo.nullary main_c_3 (constantI S_ 32 40000#32),
    StableHlo.unary main_c_3 main_v21 (broadcastInDim S680000 ![] bcast_S_S680000 : (⟨S_, .i32⟩ : BufTy).Contents (Elt F) → (⟨S680000, .i32⟩ : BufTy).Contents (Elt F)),
    StableHlo.binary main_v6 main_v21 main_v22 (addi : (⟨S680000, .i32⟩ : BufTy).Contents (Elt F) → (⟨S680000, .i32⟩ : BufTy).Contents (Elt F) → (⟨S680000, .i32⟩ : BufTy).Contents (Elt F)),
    StableHlo.ternary main_v20 main_v22 main_v6 main_v23 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v23 main_v24 (broadcastInDim S680000x1 ![0] bcast_S680000_S680000x1_0 : (⟨S680000, .i32⟩ : BufTy).Contents (Elt F) → (⟨S680000x1, .i32⟩ : BufTy).Contents (Elt F)),
    StableHlo.binary main_v11 main_v24 main_v25 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.binary main_v18 main_v25 main_v26 (mulf : (⟨S680000, .f32⟩ : BufTy).Contents (Elt F) → (⟨S680000, .f32⟩ : BufTy).Contents (Elt F) → (⟨S680000, .f32⟩ : BufTy).Contents (Elt F)) ]

/-- 26 operations. -/
abbrev w0_0b : List (HloOp τ sig (Elt F)) :=
  [ StableHlo.binary main_arg0 main_arg2 main_v27 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.nullary main_c_4 (constantI S_ 32 0#32),
    StableHlo.unary main_c_4 main_v28 (broadcastInDim S680000 ![] bcast_S_S680000 : (⟨S_, .i32⟩ : BufTy).Contents (Elt F) → (⟨S680000, .i32⟩ : BufTy).Contents (Elt F)),
    StableHlo.binary main_v3 main_v28 main_v29 (cmpi .slt : (⟨S680000, .i32⟩ : BufTy).Contents (Elt F) → (⟨S680000, .i32⟩ : BufTy).Contents (Elt F) → (⟨S680000, .i1⟩ : BufTy).Contents (Elt F)),
    StableHlo.nullary main_c_5 (constantI S_ 32 40000#32),
    StableHlo.unary main_c_5 main_v30 (broadcastInDim S680000 ![] bcast_S_S680000 : (⟨S_, .i32⟩ : BufTy).Contents (Elt F) → (⟨S680000, .i32⟩ : BufTy).Contents (Elt F)),
    StableHlo.binary main_v3 main_v30 main_v31 (addi : (⟨S680000, .i32⟩ : BufTy).Contents (Elt F) → (⟨S680000, .i32⟩ : BufTy).Contents (Elt F) → (⟨S680000, .i32⟩ : BufTy).Contents (Elt F)),
    StableHlo.ternary main_v29 main_v31 main_v3 main_v32 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v32 main_v33 (broadcastInDim S680000x1 ![0] bcast_S680000_S680000x1_0 : (⟨S680000, .i32⟩ : BufTy).Contents (Elt F) → (⟨S680000x1, .i32⟩ : BufTy).Contents (Elt F)),
    StableHlo.binary main_v27 main_v33 main_v34 ((fun x i => Host.gather gather_S40000x128_S680000x1_S680000x128_1_0_n_n_0_1_1128 x i) : (⟨S40000x128, .f32⟩ : BufTy).Contents (Elt F) → (⟨S680000x1, .i32⟩ : BufTy).Contents (Elt F) → (⟨S680000x128, .f32⟩ : BufTy).Contents (Elt F)),
    StableHlo.unary main_v26 main_v35 (broadcastInDim S680000x1 ![0] bcast_S680000_S680000x1_0 : (⟨S680000, .f32⟩ : BufTy).Contents (Elt F) → (⟨S680000x1, .f32⟩ : BufTy).Contents (Elt F)),
    StableHlo.unary main_v35 main_v36 (broadcastInDim S680000x128 ![0, 1] bcast_S680000x1_S680000x128_0_1 : (⟨S680000x1, .f32⟩ : BufTy).Contents (Elt F) → (⟨S680000x128, .f32⟩ : BufTy).Contents (Elt F)),
    StableHlo.binary main_v34 main_v36 main_v37 (mulf : (⟨S680000x128, .f32⟩ : BufTy).Contents (Elt F) → (⟨S680000x128, .f32⟩ : BufTy).Contents (Elt F) → (⟨S680000x128, .f32⟩ : BufTy).Contents (Elt F)),
    StableHlo.nullary main_cst_6 (constant S_ .f32 0x00000000#32),
    StableHlo.unary main_cst_6 main_v38 (broadcastInDim S40000x128 ![] bcast_S_S40000x128 : (⟨S_, .f32⟩ : BufTy).Contents (Elt F) → (⟨S40000x128, .f32⟩ : BufTy).Contents (Elt F)),
    StableHlo.unary main_v6 main_v39 (broadcastInDim S680000x1 ![0] bcast_S680000_S680000x1_0 : (⟨S680000, .i32⟩ : BufTy).Contents (Elt F) → (⟨S680000x1, .i32⟩ : BufTy).Contents (Elt F)),
    StableHlo.ternary main_v38 main_v39 main_v37 main_v40 ((fun x i u => Host.scatterAdd scatter_S40000x128_S680000x1_S680000x128_1_0_0_1 x i u) : (⟨S40000x128, .f32⟩ : BufTy).Contents (Elt F) → (⟨S680000x1, .i32⟩ : BufTy).Contents (Elt F) → (⟨S680000x128, .f32⟩ : BufTy).Contents (Elt F) → (⟨S40000x128, .f32⟩ : BufTy).Contents (Elt F)),
    StableHlo.unary main_arg3 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S40000x128 ![0, 1] bcast_S1x128_S40000x128_0_1 : (⟨S1x128, .f32⟩ : BufTy).Contents (Elt F) → (⟨S40000x128, .f32⟩ : BufTy).Contents (Elt F)),
    StableHlo.binary main_v40 main_v42 main_v43 (addf : (⟨S40000x128, .f32⟩ : BufTy).Contents (Elt F) → (⟨S40000x128, .f32⟩ : BufTy).Contents (Elt F) → (⟨S40000x128, .f32⟩ : BufTy).Contents (Elt F)),
    StableHlo.nullary main_cst_7 (constant S_ .f32 0x00000000#32),
    StableHlo.binary main_v43 main_cst_7 main_v44 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_8 (constant S_ .f32 0x471C4000#32),
    StableHlo.unary main_cst_8 main_v45 (broadcastInDim S128 ![] bcast_S_S128 : (⟨S_, .f32⟩ : BufTy).Contents (Elt F) → (⟨S128, .f32⟩ : BufTy).Contents (Elt F)),
    StableHlo.binary main_v44 main_v45 main_v46 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32) ]

/-- 33 operations. -/
abbrev w1_2a : List (HloOp τ sig (Elt F)) :=
  [ StableHlo.nullary main_v64 (iotaInDim S40000 32 0),
    StableHlo.unary main_arg1 main_v65 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v65 main_v66 rfl shapeCasts_S1x640000_S640000,
    StableHlo.binary main_v66 main_v64 main_v67 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    StableHlo.unary main_arg1 main_v68 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v68 main_v69 rfl shapeCasts_S1x640000_S640000,
    StableHlo.binary main_v69 main_v64 main_v70 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    StableHlo.nullary main_cst_11 (constant S_ .f32 0x3F800000#32),
    StableHlo.unary main_cst_11 main_v71 (broadcastInDim S680000 ![] bcast_S_S680000 : (⟨S_, .f32⟩ : BufTy).Contents (Elt F) → (⟨S680000, .f32⟩ : BufTy).Contents (Elt F)),
    StableHlo.nullary main_cst_12 (constant S_ .f32 0x00000000#32),
    StableHlo.unary main_cst_12 main_v72 (broadcastInDim S40000 ![] bcast_S_S40000 : (⟨S_, .f32⟩ : BufTy).Contents (Elt F) → (⟨S40000, .f32⟩ : BufTy).Contents (Elt F)),
    StableHlo.unary main_v70 main_v73 (broadcastInDim S680000x1 ![0] bcast_S680000_S680000x1_0 : (⟨S680000, .i32⟩ : BufTy).Contents (Elt F) → (⟨S680000x1, .i32⟩ : BufTy).Contents (Elt F)),
    StableHlo.ternary main_v72 main_v73 main_v71 main_v74 ((fun x i u => Host.scatterAdd scatter_S40000_S680000x1_S680000_n_0_0_1 x i u) : (⟨S40000, .f32⟩ : BufTy).Contents (Elt F) → (⟨S680000x1, .i32⟩ : BufTy).Contents (Elt F) → (⟨S680000, .f32⟩ : BufTy).Contents (Elt F) → (⟨S40000, .f32⟩ : BufTy).Contents (Elt F)),
    StableHlo.unary main_v74 main_v75 (Host.rsqrt : (⟨S40000, .f32⟩ : BufTy).Contents (Elt F) → (⟨S40000, .f32⟩ : BufTy).Contents (Elt F)),
    StableHlo.nullary main_c_13 (constantI S_ 32 0#32),
    StableHlo.unary main_c_13 main_v76 (broadcastInDim S680000 ![] bcast_S_S680000 : (⟨S_, .i32⟩ : BufTy).Contents (Elt F) → (⟨S680000, .i32⟩ : BufTy).Contents (Elt F)),
    StableHlo.binary main_v67 main_v76 main_v77 (cmpi .slt : (⟨S680000, .i32⟩ : BufTy).Contents (Elt F) → (⟨S680000, .i32⟩ : BufTy).Contents (Elt F) → (⟨S680000, .i1⟩ : BufTy).Contents (Elt F)),
    StableHlo.nullary main_c_14 (constantI S_ 32 40000#32),
    StableHlo.unary main_c_14 main_v78 (broadcastInDim S680000 ![] bcast_S_S680000 : (⟨S_, .i32⟩ : BufTy).Contents (Elt F) → (⟨S680000, .i32⟩ : BufTy).Contents (Elt F)),
    StableHlo.binary main_v67 main_v78 main_v79 (addi : (⟨S680000, .i32⟩ : BufTy).Contents (Elt F) → (⟨S680000, .i32⟩ : BufTy).Contents (Elt F) → (⟨S680000, .i32⟩ : BufTy).Contents (Elt F)),
    StableHlo.ternary main_v77 main_v79 main_v67 main_v80 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v80 main_v81 (broadcastInDim S680000x1 ![0] bcast_S680000_S680000x1_0 : (⟨S680000, .i32⟩ : BufTy).Contents (Elt F) → (⟨S680000x1, .i32⟩ : BufTy).Contents (Elt F)),
    StableHlo.binary main_v75 main_v81 main_v82 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.nullary main_c_15 (constantI S_ 32 0#32),
    StableHlo.unary main_c_15 main_v83 (broadcastInDim S680000 ![] bcast_S_S680000 : (⟨S_, .i32⟩ : BufTy).Contents (Elt F) → (⟨S680000, .i32⟩ : BufTy).Contents (Elt F)),
    StableHlo.binary main_v70 main_v83 main_v84 (cmpi .slt : (⟨S680000, .i32⟩ : BufTy).Contents (Elt F) → (⟨S680000, .i32⟩ : BufTy).Contents (Elt F) → (⟨S680000, .i1⟩ : BufTy).Contents (Elt F)),
    StableHlo.nullary main_c_16 (constantI S_ 32 40000#32),
    StableHlo.unary main_c_16 main_v85 (broadcastInDim S680000 ![] bcast_S_S680000 : (⟨S_, .i32⟩ : BufTy).Contents (Elt F) → (⟨S680000, .i32⟩ : BufTy).Contents (Elt F)),
    StableHlo.binary main_v70 main_v85 main_v86 (addi : (⟨S680000, .i32⟩ : BufTy).Contents (Elt F) → (⟨S680000, .i32⟩ : BufTy).Contents (Elt F) → (⟨S680000, .i32⟩ : BufTy).Contents (Elt F)),
    StableHlo.ternary main_v84 main_v86 main_v70 main_v87 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v87 main_v88 (broadcastInDim S680000x1 ![0] bcast_S680000_S680000x1_0 : (⟨S680000, .i32⟩ : BufTy).Contents (Elt F) → (⟨S680000x1, .i32⟩ : BufTy).Contents (Elt F)),
    StableHlo.binary main_v75 main_v88 main_v89 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.binary main_v82 main_v89 main_v90 (mulf : (⟨S680000, .f32⟩ : BufTy).Contents (Elt F) → (⟨S680000, .f32⟩ : BufTy).Contents (Elt F) → (⟨S680000, .f32⟩ : BufTy).Contents (Elt F)) ]

/-- 10 operations. -/
abbrev w1_2b : List (HloOp τ sig (Elt F)) :=
  [ StableHlo.binary main_v63 main_arg6 main_v91 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.nullary main_c_17 (constantI S_ 32 0#32),
    StableHlo.unary main_c_17 main_v92 (broadcastInDim S680000 ![] bcast_S_S680000 : (⟨S_, .i32⟩ : BufTy).Contents (Elt F) → (⟨S680000, .i32⟩ : BufTy).Contents (Elt F)),
    StableHlo.binary main_v67 main_v92 main_v93 (cmpi .slt : (⟨S680000, .i32⟩ : BufTy).Contents (Elt F) → (⟨S680000, .i32⟩ : BufTy).Contents (Elt F) → (⟨S680000, .i1⟩ : BufTy).Contents (Elt F)),
    StableHlo.nullary main_c_18 (constantI S_ 32 40000#32),
    StableHlo.unary main_c_18 main_v94 (broadcastInDim S680000 ![] bcast_S_S680000 : (⟨S_, .i32⟩ : BufTy).Contents (Elt F) → (⟨S680000, .i32⟩ : BufTy).Contents (Elt F)),
    StableHlo.binary main_v67 main_v94 main_v95 (addi : (⟨S680000, .i32⟩ : BufTy).Contents (Elt F) → (⟨S680000, .i32⟩ : BufTy).Contents (Elt F) → (⟨S680000, .i32⟩ : BufTy).Contents (Elt F)),
    StableHlo.ternary main_v93 main_v95 main_v67 main_v96 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v96 main_v97 (broadcastInDim S680000x1 ![0] bcast_S680000_S680000x1_0 : (⟨S680000, .i32⟩ : BufTy).Contents (Elt F) → (⟨S680000x1, .i32⟩ : BufTy).Contents (Elt F)),
    StableHlo.binary main_v91 main_v97 main_v98 ((fun x i => Host.gather gather_S40000x128_S680000x1_S680000x128_1_0_n_n_0_1_1128 x i) : (⟨S40000x128, .f32⟩ : BufTy).Contents (Elt F) → (⟨S680000x1, .i32⟩ : BufTy).Contents (Elt F) → (⟨S680000x128, .f32⟩ : BufTy).Contents (Elt F)) ]

theorem w0_0_split : (w0_0 : List (HloOp τ sig (Elt F))) = w0_0a ++ w0_0b := rfl

theorem w1_2_split : (w1_2 : List (HloOp τ sig (Elt F))) = w1_2a ++ w1_2b := rfl

theorem after_w0_0 (V : Valuation τ sig (Elt F)) : after w0_0 V = after w0_0b (after w0_0a V) := by
  rw [w0_0_split, after_append]

theorem after_w1_2 (V : Valuation τ sig (Elt F)) : after w1_2 V = after w1_2b (after w1_2a V) := by
  rw [w1_2_split, after_append]

end Cert.ReferenceIdeal.RefSplit

end
-- ==== Proof.RefStageN0.lean ====
/-
  The reference's fold, one stage: the edge lists and the edge weights, from the edge-index argument, read for ANY float values and ANY starting contents.  Each buffer the later
  stages need is one of the named host functions of the buffers the stage starts from, and every argument array is
  unchanged.  The gathers, the scatter-adds, the column sums and the product stay closed; the reference's dimension
  records are the kernel program's under other names, so each equation only matches the shape of the two spellings.
-/
import proofs.«136930_j9698036155164_1_alg».proof.Proof.RefSplit

noncomputable section

namespace Cert.ReferenceIdeal.RefStageN0

open Idealize.ShloMosaic Idealize.ShloMosaic.StableHlo Cert.ReferenceIdeal Cert.ReferenceIdeal.RefRun Cert.ReferenceIdeal.RefDot
open Cert.ReferenceIdeal.RefSplit Cert.KernelIdeal.HostSpec

variable {F : FTy → Type} [FloatOps F]

attribute [local irreducible] Host.gather Host.scatterAdd Host.reduceAdd Host.rsqrt Host.divf concatenate in
set_option maxHeartbeats 4000000 in
theorem src (V : Valuation τ sig (Elt F)) :
    after w0_0a V (Proc.devRef .tc main_v3) = srcOf (V (Proc.devRef .tc main_arg1)) := by
  after_results_simp
  rfl

attribute [local irreducible] Host.gather Host.scatterAdd Host.reduceAdd Host.rsqrt Host.divf concatenate in
set_option maxHeartbeats 4000000 in
theorem dst (V : Valuation τ sig (Elt F)) :
    after w0_0a V (Proc.devRef .tc main_v6) = dstOf (V (Proc.devRef .tc main_arg1)) := by
  after_results_simp
  rfl

attribute [local irreducible] Host.gather Host.scatterAdd Host.reduceAdd Host.rsqrt Host.divf concatenate in
set_option maxHeartbeats 4000000 in
theorem norm (V : Valuation τ sig (Elt F)) :
    after w0_0a V (Proc.devRef .tc main_v26) = normOf (srcOf (V (Proc.devRef .tc main_arg1))) (dstOf (V (Proc.devRef .tc main_arg1))) := by
  after_results_simp
  rfl

attribute [local irreducible] Host.gather Host.scatterAdd Host.reduceAdd Host.rsqrt Host.divf concatenate in
set_option maxHeartbeats 4000000 in
theorem keep0 (V : Valuation τ sig (Elt F)) :
    after w0_0a V (Proc.devRef .tc main_arg0) = V (Proc.devRef .tc main_arg0) := by
  after_results_simp

attribute [local irreducible] Host.gather Host.scatterAdd Host.reduceAdd Host.rsqrt Host.divf concatenate in
set_option maxHeartbeats 4000000 in
theorem keep1 (V : Valuation τ sig (Elt F)) :
    after w0_0a V (Proc.devRef .tc main_arg1) = V (Proc.devRef .tc main_arg1) := by
  after_results_simp

attribute [local irreducible] Host.gather Host.scatterAdd Host.reduceAdd Host.rsqrt Host.divf concatenate in
set_option maxHeartbeats 4000000 in
theorem keep2 (V : Valuation τ sig (Elt F)) :
    after w0_0a V (Proc.devRef .tc main_arg2) = V (Proc.devRef .tc main_arg2) := by
  after_results_simp

attribute [local irreducible] Host.gather Host.scatterAdd Host.reduceAdd Host.rsqrt Host.divf concatenate in
set_option maxHeartbeats 4000000 in
theorem keep3 (V : Valuation τ sig (Elt F)) :
    after w0_0a V (Proc.devRef .tc main_arg3) = V (Proc.devRef .tc main_arg3) := by
  after_results_simp

attribute [local irreducible] Host.gather Host.scatterAdd Host.reduceAdd Host.rsqrt Host.divf concatenate in
set_option maxHeartbeats 4000000 in
theorem keep4 (V : Valuation τ sig (Elt F)) :
    after w0_0a V (Proc.devRef .tc main_arg4) = V (Proc.devRef .tc main_arg4) := by
  after_results_simp

attribute [local irreducible] Host.gather Host.scatterAdd Host.reduceAdd Host.rsqrt Host.divf concatenate in
set_option maxHeartbeats 4000000 in
theorem keep5 (V : Valuation τ sig (Elt F)) :
    after w0_0a V (Proc.devRef .tc main_arg5) = V (Proc.devRef .tc main_arg5) := by
  after_results_simp

attribute [local irreducible] Host.gather Host.scatterAdd Host.reduceAdd Host.rsqrt Host.divf concatenate in
set_option maxHeartbeats 4000000 in
theorem keep6 (V : Valuation τ sig (Elt F)) :
    after w0_0a V (Proc.devRef .tc main_arg6) = V (Proc.devRef .tc main_arg6) := by
  after_results_simp

attribute [local irreducible] Host.gather Host.scatterAdd Host.reduceAdd Host.rsqrt Host.divf concatenate in
set_option maxHeartbeats 4000000 in
theorem keep7 (V : Valuation τ sig (Elt F)) :
    after w0_0a V (Proc.devRef .tc main_arg7) = V (Proc.devRef .tc main_arg7) := by
  after_results_simp

attribute [local irreducible] Host.gather Host.scatterAdd Host.reduceAdd Host.rsqrt Host.divf concatenate in
set_option maxHeartbeats 4000000 in
theorem keep8 (V : Valuation τ sig (Elt F)) :
    after w0_0a V (Proc.devRef .tc main_arg8) = V (Proc.devRef .tc main_arg8) := by
  after_results_simp

attribute [local irreducible] Host.gather Host.scatterAdd Host.reduceAdd Host.rsqrt Host.divf concatenate in
set_option maxHeartbeats 4000000 in
theorem keep9 (V : Valuation τ sig (Elt F)) :
    after w0_0a V (Proc.devRef .tc main_arg9) = V (Proc.devRef .tc main_arg9) := by
  after_results_simp

end Cert.ReferenceIdeal.RefStageN0

end
-- ==== Proof.RefStageA.lean ====
/-
  The reference's fold, one stage: the first layer from its product to its column statistics, read for ANY float values and ANY starting contents.  Each buffer the later
  stages need is one of the named host functions of the buffers the stage starts from, and every argument array is
  unchanged.  The gathers, the scatter-adds, the column sums and the product stay closed; the reference's dimension
  records are the kernel program's under other names, so each equation only matches the shape of the two spellings.
-/
import proofs.«136930_j9698036155164_1_alg».proof.Proof.RefSplit

noncomputable section

namespace Cert.ReferenceIdeal.RefStageA

open Idealize.ShloMosaic Idealize.ShloMosaic.StableHlo Cert.ReferenceIdeal Cert.ReferenceIdeal.RefRun Cert.ReferenceIdeal.RefDot
open Cert.ReferenceIdeal.RefSplit Cert.KernelIdeal.HostSpec

variable {F : FTy → Type} [FloatOps F]

attribute [local irreducible] Host.gather Host.scatterAdd Host.reduceAdd Host.rsqrt Host.divf concatenate in
set_option maxHeartbeats 4000000 in
theorem agg (V : Valuation τ sig (Elt F)) :
    after w0_1_var (after w0_0b V) (Proc.devRef .tc main_v43) = aggOf (hostDot (V (Proc.devRef .tc main_arg0)) (V (Proc.devRef .tc main_arg2))) (V (Proc.devRef .tc main_v3)) (V (Proc.devRef .tc main_v6)) (V (Proc.devRef .tc main_v26)) (V (Proc.devRef .tc main_arg3)) := by
  after_results_simp
  rfl

attribute [local irreducible] Host.gather Host.scatterAdd Host.reduceAdd Host.rsqrt Host.divf concatenate in
set_option maxHeartbeats 4000000 in
theorem mean (V : Valuation τ sig (Elt F)) :
    after w0_1_var (after w0_0b V) (Proc.devRef .tc main_v46) = meanOf (aggOf (hostDot (V (Proc.devRef .tc main_arg0)) (V (Proc.devRef .tc main_arg2))) (V (Proc.devRef .tc main_v3)) (V (Proc.devRef .tc main_v6)) (V (Proc.devRef .tc main_v26)) (V (Proc.devRef .tc main_arg3))) := by
  after_results_simp
  rfl

attribute [local irreducible] Host.gather Host.scatterAdd Host.reduceAdd Host.rsqrt Host.divf concatenate in
set_option maxHeartbeats 4000000 in
theorem var (V : Valuation τ sig (Elt F)) :
    after w0_1_var (after w0_0b V) (Proc.devRef .tc main_v47) = varOf (aggOf (hostDot (V (Proc.devRef .tc main_arg0)) (V (Proc.devRef .tc main_arg2))) (V (Proc.devRef .tc main_v3)) (V (Proc.devRef .tc main_v6)) (V (Proc.devRef .tc main_v26)) (V (Proc.devRef .tc main_arg3))) := by
  after_results_simp
  rfl

attribute [local irreducible] Host.gather Host.scatterAdd Host.reduceAdd Host.rsqrt Host.divf concatenate in
set_option maxHeartbeats 4000000 in
theorem keep0 (V : Valuation τ sig (Elt F)) :
    after w0_1_var (after w0_0b V) (Proc.devRef .tc main_arg0) = V (Proc.devRef .tc main_arg0) := by
  after_results_simp

attribute [local irreducible] Host.gather Host.scatterAdd Host.reduceAdd Host.rsqrt Host.divf concatenate in
set_option maxHeartbeats 4000000 in
theorem keep1 (V : Valuation τ sig (Elt F)) :
    after w0_1_var (after w0_0b V) (Proc.devRef .tc main_arg1) = V (Proc.devRef .tc main_arg1) := by
  after_results_simp

attribute [local irreducible] Host.gather Host.scatterAdd Host.reduceAdd Host.rsqrt Host.divf concatenate in
set_option maxHeartbeats 4000000 in
theorem keep2 (V : Valuation τ sig (Elt F)) :
    after w0_1_var (after w0_0b V) (Proc.devRef .tc main_arg2) = V (Proc.devRef .tc main_arg2) := by
  after_results_simp

attribute [local irreducible] Host.gather Host.scatterAdd Host.reduceAdd Host.rsqrt Host.divf concatenate in
set_option maxHeartbeats 4000000 in
theorem keep3 (V : Valuation τ sig (Elt F)) :
    after w0_1_var (after w0_0b V) (Proc.devRef .tc main_arg3) = V (Proc.devRef .tc main_arg3) := by
  after_results_simp

attribute [local irreducible] Host.gather Host.scatterAdd Host.reduceAdd Host.rsqrt Host.divf concatenate in
set_option maxHeartbeats 4000000 in
theorem keep4 (V : Valuation τ sig (Elt F)) :
    after w0_1_var (after w0_0b V) (Proc.devRef .tc main_arg4) = V (Proc.devRef .tc main_arg4) := by
  after_results_simp

attribute [local irreducible] Host.gather Host.scatterAdd Host.reduceAdd Host.rsqrt Host.divf concatenate in
set_option maxHeartbeats 4000000 in
theorem keep5 (V : Valuation τ sig (Elt F)) :
    after w0_1_var (after w0_0b V) (Proc.devRef .tc main_arg5) = V (Proc.devRef .tc main_arg5) := by
  after_results_simp

attribute [local irreducible] Host.gather Host.scatterAdd Host.reduceAdd Host.rsqrt Host.divf concatenate in
set_option maxHeartbeats 4000000 in
theorem keep6 (V : Valuation τ sig (Elt F)) :
    after w0_1_var (after w0_0b V) (Proc.devRef .tc main_arg6) = V (Proc.devRef .tc main_arg6) := by
  after_results_simp

attribute [local irreducible] Host.gather Host.scatterAdd Host.reduceAdd Host.rsqrt Host.divf concatenate in
set_option maxHeartbeats 4000000 in
theorem keep7 (V : Valuation τ sig (Elt F)) :
    after w0_1_var (after w0_0b V) (Proc.devRef .tc main_arg7) = V (Proc.devRef .tc main_arg7) := by
  after_results_simp

attribute [local irreducible] Host.gather Host.scatterAdd Host.reduceAdd Host.rsqrt Host.divf concatenate in
set_option maxHeartbeats 4000000 in
theorem keep8 (V : Valuation τ sig (Elt F)) :
    after w0_1_var (after w0_0b V) (Proc.devRef .tc main_arg8) = V (Proc.devRef .tc main_arg8) := by
  after_results_simp

attribute [local irreducible] Host.gather Host.scatterAdd Host.reduceAdd Host.rsqrt Host.divf concatenate in
set_option maxHeartbeats 4000000 in
theorem keep9 (V : Valuation τ sig (Elt F)) :
    after w0_1_var (after w0_0b V) (Proc.devRef .tc main_arg9) = V (Proc.devRef .tc main_arg9) := by
  after_results_simp

end Cert.ReferenceIdeal.RefStageA

end
-- ==== Proof.RefStageB.lean ====
/-
  The reference's fold, one stage: the first normalisation and rectifier, read for ANY float values and ANY starting contents.  Each buffer the later
  stages need is one of the named host functions of the buffers the stage starts from, and every argument array is
  unchanged.  The gathers, the scatter-adds, the column sums and the product stay closed; the reference's dimension
  records are the kernel program's under other names, so each equation only matches the shape of the two spellings.
-/
import proofs.«136930_j9698036155164_1_alg».proof.Proof.RefSplit

noncomputable section

namespace Cert.ReferenceIdeal.RefStageB

open Idealize.ShloMosaic Idealize.ShloMosaic.StableHlo Cert.ReferenceIdeal Cert.ReferenceIdeal.RefRun Cert.ReferenceIdeal.RefDot
open Cert.ReferenceIdeal.RefSplit Cert.KernelIdeal.HostSpec

variable {F : FTy → Type} [FloatOps F]

attribute [local irreducible] Host.gather Host.scatterAdd Host.reduceAdd Host.rsqrt Host.divf concatenate in
set_option maxHeartbeats 4000000 in
theorem out (V : Valuation τ sig (Elt F)) :
    after w1_1_relu (after w1_0 V) (Proc.devRef .tc main_v63) = bnHost (V (Proc.devRef .tc main_v43)) (V (Proc.devRef .tc main_v46)) (V (Proc.devRef .tc main_v47)) (V (Proc.devRef .tc main_arg4)) (V (Proc.devRef .tc main_arg5)) := by
  after_results_simp
  rfl

attribute [local irreducible] Host.gather Host.scatterAdd Host.reduceAdd Host.rsqrt Host.divf concatenate in
set_option maxHeartbeats 4000000 in
theorem keep0 (V : Valuation τ sig (Elt F)) :
    after w1_1_relu (after w1_0 V) (Proc.devRef .tc main_arg0) = V (Proc.devRef .tc main_arg0) := by
  after_results_simp

attribute [local irreducible] Host.gather Host.scatterAdd Host.reduceAdd Host.rsqrt Host.divf concatenate in
set_option maxHeartbeats 4000000 in
theorem keep1 (V : Valuation τ sig (Elt F)) :
    after w1_1_relu (after w1_0 V) (Proc.devRef .tc main_arg1) = V (Proc.devRef .tc main_arg1) := by
  after_results_simp

attribute [local irreducible] Host.gather Host.scatterAdd Host.reduceAdd Host.rsqrt Host.divf concatenate in
set_option maxHeartbeats 4000000 in
theorem keep2 (V : Valuation τ sig (Elt F)) :
    after w1_1_relu (after w1_0 V) (Proc.devRef .tc main_arg2) = V (Proc.devRef .tc main_arg2) := by
  after_results_simp

attribute [local irreducible] Host.gather Host.scatterAdd Host.reduceAdd Host.rsqrt Host.divf concatenate in
set_option maxHeartbeats 4000000 in
theorem keep3 (V : Valuation τ sig (Elt F)) :
    after w1_1_relu (after w1_0 V) (Proc.devRef .tc main_arg3) = V (Proc.devRef .tc main_arg3) := by
  after_results_simp

attribute [local irreducible] Host.gather Host.scatterAdd Host.reduceAdd Host.rsqrt Host.divf concatenate in
set_option maxHeartbeats 4000000 in
theorem keep4 (V : Valuation τ sig (Elt F)) :
    after w1_1_relu (after w1_0 V) (Proc.devRef .tc main_arg4) = V (Proc.devRef .tc main_arg4) := by
  after_results_simp

attribute [local irreducible] Host.gather Host.scatterAdd Host.reduceAdd Host.rsqrt Host.divf concatenate in
set_option maxHeartbeats 4000000 in
theorem keep5 (V : Valuation τ sig (Elt F)) :
    after w1_1_relu (after w1_0 V) (Proc.devRef .tc main_arg5) = V (Proc.devRef .tc main_arg5) := by
  after_results_simp

attribute [local irreducible] Host.gather Host.scatterAdd Host.reduceAdd Host.rsqrt Host.divf concatenate in
set_option maxHeartbeats 4000000 in
theorem keep6 (V : Valuation τ sig (Elt F)) :
    after w1_1_relu (after w1_0 V) (Proc.devRef .tc main_arg6) = V (Proc.devRef .tc main_arg6) := by
  after_results_simp

attribute [local irreducible] Host.gather Host.scatterAdd Host.reduceAdd Host.rsqrt Host.divf concatenate in
set_option maxHeartbeats 4000000 in
theorem keep7 (V : Valuation τ sig (Elt F)) :
    after w1_1_relu (after w1_0 V) (Proc.devRef .tc main_arg7) = V (Proc.devRef .tc main_arg7) := by
  after_results_simp

attribute [local irreducible] Host.gather Host.scatterAdd Host.reduceAdd Host.rsqrt Host.divf concatenate in
set_option maxHeartbeats 4000000 in
theorem keep8 (V : Valuation τ sig (Elt F)) :
    after w1_1_relu (after w1_0 V) (Proc.devRef .tc main_arg8) = V (Proc.devRef .tc main_arg8) := by
  after_results_simp

attribute [local irreducible] Host.gather Host.scatterAdd Host.reduceAdd Host.rsqrt Host.divf concatenate in
set_option maxHeartbeats 4000000 in
theorem keep9 (V : Valuation τ sig (Elt F)) :
    after w1_1_relu (after w1_0 V) (Proc.devRef .tc main_arg9) = V (Proc.devRef .tc main_arg9) := by
  after_results_simp

end Cert.ReferenceIdeal.RefStageB

end
-- ==== Proof.RefStageN1.lean ====
/-
  The reference's fold, one stage: the edge lists and the edge weights computed a second time, read for ANY float values and ANY starting contents.  Each buffer the later
  stages need is one of the named host functions of the buffers the stage starts from, and every argument array is
  unchanged.  The gathers, the scatter-adds, the column sums and the product stay closed; the reference's dimension
  records are the kernel program's under other names, so each equation only matches the shape of the two spellings.
-/
import proofs.«136930_j9698036155164_1_alg».proof.Proof.RefSplit

noncomputable section

namespace Cert.ReferenceIdeal.RefStageN1

open Idealize.ShloMosaic Idealize.ShloMosaic.StableHlo Cert.ReferenceIdeal Cert.ReferenceIdeal.RefRun Cert.ReferenceIdeal.RefDot
open Cert.ReferenceIdeal.RefSplit Cert.KernelIdeal.HostSpec

variable {F : FTy → Type} [FloatOps F]

attribute [local irreducible] Host.gather Host.scatterAdd Host.reduceAdd Host.rsqrt Host.divf concatenate in
set_option maxHeartbeats 4000000 in
theorem src (V : Valuation τ sig (Elt F)) :
    after w1_2a V (Proc.devRef .tc main_v67) = srcOf (V (Proc.devRef .tc main_arg1)) := by
  after_results_simp
  rfl

attribute [local irreducible] Host.gather Host.scatterAdd Host.reduceAdd Host.rsqrt Host.divf concatenate in
set_option maxHeartbeats 4000000 in
theorem dst (V : Valuation τ sig (Elt F)) :
    after w1_2a V (Proc.devRef .tc main_v70) = dstOf (V (Proc.devRef .tc main_arg1)) := by
  after_results_simp
  rfl

attribute [local irreducible] Host.gather Host.scatterAdd Host.reduceAdd Host.rsqrt Host.divf concatenate in
set_option maxHeartbeats 4000000 in
theorem norm (V : Valuation τ sig (Elt F)) :
    after w1_2a V (Proc.devRef .tc main_v90) = normOf (srcOf (V (Proc.devRef .tc main_arg1))) (dstOf (V (Proc.devRef .tc main_arg1))) := by
  after_results_simp
  rfl

attribute [local irreducible] Host.gather Host.scatterAdd Host.reduceAdd Host.rsqrt Host.divf concatenate in
set_option maxHeartbeats 4000000 in
theorem keep_v63 (V : Valuation τ sig (Elt F)) :
    after w1_2a V (Proc.devRef .tc main_v63) = V (Proc.devRef .tc main_v63) := by
  after_results_simp

attribute [local irreducible] Host.gather Host.scatterAdd Host.reduceAdd Host.rsqrt Host.divf concatenate in
set_option maxHeartbeats 4000000 in
theorem keep0 (V : Valuation τ sig (Elt F)) :
    after w1_2a V (Proc.devRef .tc main_arg0) = V (Proc.devRef .tc main_arg0) := by
  after_results_simp

attribute [local irreducible] Host.gather Host.scatterAdd Host.reduceAdd Host.rsqrt Host.divf concatenate in
set_option maxHeartbeats 4000000 in
theorem keep1 (V : Valuation τ sig (Elt F)) :
    after w1_2a V (Proc.devRef .tc main_arg1) = V (Proc.devRef .tc main_arg1) := by
  after_results_simp

attribute [local irreducible] Host.gather Host.scatterAdd Host.reduceAdd Host.rsqrt Host.divf concatenate in
set_option maxHeartbeats 4000000 in
theorem keep2 (V : Valuation τ sig (Elt F)) :
    after w1_2a V (Proc.devRef .tc main_arg2) = V (Proc.devRef .tc main_arg2) := by
  after_results_simp

attribute [local irreducible] Host.gather Host.scatterAdd Host.reduceAdd Host.rsqrt Host.divf concatenate in
set_option maxHeartbeats 4000000 in
theorem keep3 (V : Valuation τ sig (Elt F)) :
    after w1_2a V (Proc.devRef .tc main_arg3) = V (Proc.devRef .tc main_arg3) := by
  after_results_simp

attribute [local irreducible] Host.gather Host.scatterAdd Host.reduceAdd Host.rsqrt Host.divf concatenate in
set_option maxHeartbeats 4000000 in
theorem keep4 (V : Valuation τ sig (Elt F)) :
    after w1_2a V (Proc.devRef .tc main_arg4) = V (Proc.devRef .tc main_arg4) := by
  after_results_simp

attribute [local irreducible] Host.gather Host.scatterAdd Host.reduceAdd Host.rsqrt Host.divf concatenate in
set_option maxHeartbeats 4000000 in
theorem keep5 (V : Valuation τ sig (Elt F)) :
    after w1_2a V (Proc.devRef .tc main_arg5) = V (Proc.devRef .tc main_arg5) := by
  after_results_simp

attribute [local irreducible] Host.gather Host.scatterAdd Host.reduceAdd Host.rsqrt Host.divf concatenate in
set_option maxHeartbeats 4000000 in
theorem keep6 (V : Valuation τ sig (Elt F)) :
    after w1_2a V (Proc.devRef .tc main_arg6) = V (Proc.devRef .tc main_arg6) := by
  after_results_simp

attribute [local irreducible] Host.gather Host.scatterAdd Host.reduceAdd Host.rsqrt Host.divf concatenate in
set_option maxHeartbeats 4000000 in
theorem keep7 (V : Valuation τ sig (Elt F)) :
    after w1_2a V (Proc.devRef .tc main_arg7) = V (Proc.devRef .tc main_arg7) := by
  after_results_simp

attribute [local irreducible] Host.gather Host.scatterAdd Host.reduceAdd Host.rsqrt Host.divf concatenate in
set_option maxHeartbeats 4000000 in
theorem keep8 (V : Valuation τ sig (Elt F)) :
    after w1_2a V (Proc.devRef .tc main_arg8) = V (Proc.devRef .tc main_arg8) := by
  after_results_simp

attribute [local irreducible] Host.gather Host.scatterAdd Host.reduceAdd Host.rsqrt Host.divf concatenate in
set_option maxHeartbeats 4000000 in
theorem keep9 (V : Valuation τ sig (Elt F)) :
    after w1_2a V (Proc.devRef .tc main_arg9) = V (Proc.devRef .tc main_arg9) := by
  after_results_simp

end Cert.ReferenceIdeal.RefStageN1

end
-- ==== Proof.RefStageC.lean ====
/-
  The reference's fold, one stage: the second layer from its product to its column statistics, read for ANY float values and ANY starting contents.  Each buffer the later
  stages need is one of the named host functions of the buffers the stage starts from, and every argument array is
  unchanged.  The gathers, the scatter-adds, the column sums and the product stay closed; the reference's dimension
  records are the kernel program's under other names, so each equation only matches the shape of the two spellings.
-/
import proofs.«136930_j9698036155164_1_alg».proof.Proof.RefSplit

noncomputable section

namespace Cert.ReferenceIdeal.RefStageC

open Idealize.ShloMosaic Idealize.ShloMosaic.StableHlo Cert.ReferenceIdeal Cert.ReferenceIdeal.RefRun Cert.ReferenceIdeal.RefDot
open Cert.ReferenceIdeal.RefSplit Cert.KernelIdeal.HostSpec

variable {F : FTy → Type} [FloatOps F]

attribute [local irreducible] Host.gather Host.scatterAdd Host.reduceAdd Host.rsqrt Host.divf concatenate in
set_option maxHeartbeats 4000000 in
theorem agg (V : Valuation τ sig (Elt F)) :
    after w2_1_var (after w2_0 (after w1_2b V)) (Proc.devRef .tc main_v107) = aggOf (hostDot (V (Proc.devRef .tc main_v63)) (V (Proc.devRef .tc main_arg6))) (V (Proc.devRef .tc main_v67)) (V (Proc.devRef .tc main_v70)) (V (Proc.devRef .tc main_v90)) (V (Proc.devRef .tc main_arg7)) := by
  after_results_simp
  rfl

attribute [local irreducible] Host.gather Host.scatterAdd Host.reduceAdd Host.rsqrt Host.divf concatenate in
set_option maxHeartbeats 4000000 in
theorem mean (V : Valuation τ sig (Elt F)) :
    after w2_1_var (after w2_0 (after w1_2b V)) (Proc.devRef .tc main_v110) = meanOf (aggOf (hostDot (V (Proc.devRef .tc main_v63)) (V (Proc.devRef .tc main_arg6))) (V (Proc.devRef .tc main_v67)) (V (Proc.devRef .tc main_v70)) (V (Proc.devRef .tc main_v90)) (V (Proc.devRef .tc main_arg7))) := by
  after_results_simp
  rfl

attribute [local irreducible] Host.gather Host.scatterAdd Host.reduceAdd Host.rsqrt Host.divf concatenate in
set_option maxHeartbeats 4000000 in
theorem var (V : Valuation τ sig (Elt F)) :
    after w2_1_var (after w2_0 (after w1_2b V)) (Proc.devRef .tc main_v111) = varOf (aggOf (hostDot (V (Proc.devRef .tc main_v63)) (V (Proc.devRef .tc main_arg6))) (V (Proc.devRef .tc main_v67)) (V (Proc.devRef .tc main_v70)) (V (Proc.devRef .tc main_v90)) (V (Proc.devRef .tc main_arg7))) := by
  after_results_simp
  rfl

attribute [local irreducible] Host.gather Host.scatterAdd Host.reduceAdd Host.rsqrt Host.divf concatenate in
set_option maxHeartbeats 4000000 in
theorem keep0 (V : Valuation τ sig (Elt F)) :
    after w2_1_var (after w2_0 (after w1_2b V)) (Proc.devRef .tc main_arg0) = V (Proc.devRef .tc main_arg0) := by
  after_results_simp

attribute [local irreducible] Host.gather Host.scatterAdd Host.reduceAdd Host.rsqrt Host.divf concatenate in
set_option maxHeartbeats 4000000 in
theorem keep1 (V : Valuation τ sig (Elt F)) :
    after w2_1_var (after w2_0 (after w1_2b V)) (Proc.devRef .tc main_arg1) = V (Proc.devRef .tc main_arg1) := by
  after_results_simp

attribute [local irreducible] Host.gather Host.scatterAdd Host.reduceAdd Host.rsqrt Host.divf concatenate in
set_option maxHeartbeats 4000000 in
theorem keep2 (V : Valuation τ sig (Elt F)) :
    after w2_1_var (after w2_0 (after w1_2b V)) (Proc.devRef .tc main_arg2) = V (Proc.devRef .tc main_arg2) := by
  after_results_simp

attribute [local irreducible] Host.gather Host.scatterAdd Host.reduceAdd Host.rsqrt Host.divf concatenate in
set_option maxHeartbeats 4000000 in
theorem keep3 (V : Valuation τ sig (Elt F)) :
    after w2_1_var (after w2_0 (after w1_2b V)) (Proc.devRef .tc main_arg3) = V (Proc.devRef .tc main_arg3) := by
  after_results_simp

attribute [local irreducible] Host.gather Host.scatterAdd Host.reduceAdd Host.rsqrt Host.divf concatenate in
set_option maxHeartbeats 4000000 in
theorem keep4 (V : Valuation τ sig (Elt F)) :
    after w2_1_var (after w2_0 (after w1_2b V)) (Proc.devRef .tc main_arg4) = V (Proc.devRef .tc main_arg4) := by
  after_results_simp

attribute [local irreducible] Host.gather Host.scatterAdd Host.reduceAdd Host.rsqrt Host.divf concatenate in
set_option maxHeartbeats 4000000 in
theorem keep5 (V : Valuation τ sig (Elt F)) :
    after w2_1_var (after w2_0 (after w1_2b V)) (Proc.devRef .tc main_arg5) = V (Proc.devRef .tc main_arg5) := by
  after_results_simp

attribute [local irreducible] Host.gather Host.scatterAdd Host.reduceAdd Host.rsqrt Host.divf concatenate in
set_option maxHeartbeats 4000000 in
theorem keep6 (V : Valuation τ sig (Elt F)) :
    after w2_1_var (after w2_0 (after w1_2b V)) (Proc.devRef .tc main_arg6) = V (Proc.devRef .tc main_arg6) := by
  after_results_simp

attribute [local irreducible] Host.gather Host.scatterAdd Host.reduceAdd Host.rsqrt Host.divf concatenate in
set_option maxHeartbeats 4000000 in
theorem keep7 (V : Valuation τ sig (Elt F)) :
    after w2_1_var (after w2_0 (after w1_2b V)) (Proc.devRef .tc main_arg7) = V (Proc.devRef .tc main_arg7) := by
  after_results_simp

attribute [local irreducible] Host.gather Host.scatterAdd Host.reduceAdd Host.rsqrt Host.divf concatenate in
set_option maxHeartbeats 4000000 in
theorem keep8 (V : Valuation τ sig (Elt F)) :
    after w2_1_var (after w2_0 (after w1_2b V)) (Proc.devRef .tc main_arg8) = V (Proc.devRef .tc main_arg8) := by
  after_results_simp

attribute [local irreducible] Host.gather Host.scatterAdd Host.reduceAdd Host.rsqrt Host.divf concatenate in
set_option maxHeartbeats 4000000 in
theorem keep9 (V : Valuation τ sig (Elt F)) :
    after w2_1_var (after w2_0 (after w1_2b V)) (Proc.devRef .tc main_arg9) = V (Proc.devRef .tc main_arg9) := by
  after_results_simp

end Cert.ReferenceIdeal.RefStageC

end
-- ==== Proof.RefStageD.lean ====
/-
  The reference's fold, one stage: the second normalisation and rectifier, read for ANY float values and ANY starting contents.  Each buffer the later
  stages need is one of the named host functions of the buffers the stage starts from, and every argument array is
  unchanged.  The gathers, the scatter-adds, the column sums and the product stay closed; the reference's dimension
  records are the kernel program's under other names, so each equation only matches the shape of the two spellings.
-/
import proofs.«136930_j9698036155164_1_alg».proof.Proof.RefSplit

noncomputable section

namespace Cert.ReferenceIdeal.RefStageD

open Idealize.ShloMosaic Idealize.ShloMosaic.StableHlo Cert.ReferenceIdeal Cert.ReferenceIdeal.RefRun Cert.ReferenceIdeal.RefDot
open Cert.ReferenceIdeal.RefSplit Cert.KernelIdeal.HostSpec

variable {F : FTy → Type} [FloatOps F]

attribute [local irreducible] Host.gather Host.scatterAdd Host.reduceAdd Host.rsqrt Host.divf concatenate in
set_option maxHeartbeats 4000000 in
theorem out (V : Valuation τ sig (Elt F)) :
    after w2_3_relu (after w2_2 V) (Proc.devRef .tc main_v127) = bnHost (V (Proc.devRef .tc main_v107)) (V (Proc.devRef .tc main_v110)) (V (Proc.devRef .tc main_v111)) (V (Proc.devRef .tc main_arg8)) (V (Proc.devRef .tc main_arg9)) := by
  after_results_simp
  rfl

attribute [local irreducible] Host.gather Host.scatterAdd Host.reduceAdd Host.rsqrt Host.divf concatenate in
set_option maxHeartbeats 4000000 in
theorem keep0 (V : Valuation τ sig (Elt F)) :
    after w2_3_relu (after w2_2 V) (Proc.devRef .tc main_arg0) = V (Proc.devRef .tc main_arg0) := by
  after_results_simp

attribute [local irreducible] Host.gather Host.scatterAdd Host.reduceAdd Host.rsqrt Host.divf concatenate in
set_option maxHeartbeats 4000000 in
theorem keep1 (V : Valuation τ sig (Elt F)) :
    after w2_3_relu (after w2_2 V) (Proc.devRef .tc main_arg1) = V (Proc.devRef .tc main_arg1) := by
  after_results_simp

attribute [local irreducible] Host.gather Host.scatterAdd Host.reduceAdd Host.rsqrt Host.divf concatenate in
set_option maxHeartbeats 4000000 in
theorem keep2 (V : Valuation τ sig (Elt F)) :
    after w2_3_relu (after w2_2 V) (Proc.devRef .tc main_arg2) = V (Proc.devRef .tc main_arg2) := by
  after_results_simp

attribute [local irreducible] Host.gather Host.scatterAdd Host.reduceAdd Host.rsqrt Host.divf concatenate in
set_option maxHeartbeats 4000000 in
theorem keep3 (V : Valuation τ sig (Elt F)) :
    after w2_3_relu (after w2_2 V) (Proc.devRef .tc main_arg3) = V (Proc.devRef .tc main_arg3) := by
  after_results_simp

attribute [local irreducible] Host.gather Host.scatterAdd Host.reduceAdd Host.rsqrt Host.divf concatenate in
set_option maxHeartbeats 4000000 in
theorem keep4 (V : Valuation τ sig (Elt F)) :
    after w2_3_relu (after w2_2 V) (Proc.devRef .tc main_arg4) = V (Proc.devRef .tc main_arg4) := by
  after_results_simp

attribute [local irreducible] Host.gather Host.scatterAdd Host.reduceAdd Host.rsqrt Host.divf concatenate in
set_option maxHeartbeats 4000000 in
theorem keep5 (V : Valuation τ sig (Elt F)) :
    after w2_3_relu (after w2_2 V) (Proc.devRef .tc main_arg5) = V (Proc.devRef .tc main_arg5) := by
  after_results_simp

attribute [local irreducible] Host.gather Host.scatterAdd Host.reduceAdd Host.rsqrt Host.divf concatenate in
set_option maxHeartbeats 4000000 in
theorem keep6 (V : Valuation τ sig (Elt F)) :
    after w2_3_relu (after w2_2 V) (Proc.devRef .tc main_arg6) = V (Proc.devRef .tc main_arg6) := by
  after_results_simp

attribute [local irreducible] Host.gather Host.scatterAdd Host.reduceAdd Host.rsqrt Host.divf concatenate in
set_option maxHeartbeats 4000000 in
theorem keep7 (V : Valuation τ sig (Elt F)) :
    after w2_3_relu (after w2_2 V) (Proc.devRef .tc main_arg7) = V (Proc.devRef .tc main_arg7) := by
  after_results_simp

attribute [local irreducible] Host.gather Host.scatterAdd Host.reduceAdd Host.rsqrt Host.divf concatenate in
set_option maxHeartbeats 4000000 in
theorem keep8 (V : Valuation τ sig (Elt F)) :
    after w2_3_relu (after w2_2 V) (Proc.devRef .tc main_arg8) = V (Proc.devRef .tc main_arg8) := by
  after_results_simp

attribute [local irreducible] Host.gather Host.scatterAdd Host.reduceAdd Host.rsqrt Host.divf concatenate in
set_option maxHeartbeats 4000000 in
theorem keep9 (V : Valuation τ sig (Elt F)) :
    after w2_3_relu (after w2_2 V) (Proc.devRef .tc main_arg9) = V (Proc.devRef .tc main_arg9) := by
  after_results_simp

end Cert.ReferenceIdeal.RefStageD

end
-- ==== Proof.RefValue.lean ====
/-
  The reference's result as the network function of its arguments, in the whole-array spelling: the six stages of its
  fold chained.  The last stage's result is the whole-array normalisation of the second aggregation by its own column
  statistics; the second aggregation reads the host product of the first layer's output and the edge lists and edge
  weights the reference computes a second time — the same functions of the same edge-index argument, which no stage
  writes; the first layer's output is the normalisation of the first aggregation, which reads the product of the node
  table and the edge lists and weights computed the first time.  Every argument array comes through all stages
  unchanged.
-/
import proofs.«136930_j9698036155164_1_alg».proof.Proof.RefStageN0
import proofs.«136930_j9698036155164_1_alg».proof.Proof.RefStageA
import proofs.«136930_j9698036155164_1_alg».proof.Proof.RefStageB
import proofs.«136930_j9698036155164_1_alg».proof.Proof.RefStageN1
import proofs.«136930_j9698036155164_1_alg».proof.Proof.RefStageC
import proofs.«136930_j9698036155164_1_alg».proof.Proof.RefStageD

noncomputable section

namespace Cert.ReferenceIdeal.RefValue

open Idealize.ShloMosaic Idealize.ShloMosaic.StableHlo Cert.ReferenceIdeal Cert.ReferenceIdeal.RefRun Cert.ReferenceIdeal.RefDot
open Cert.ReferenceIdeal.RefSplit Cert.KernelIdeal.HostSpec Cert.KernelIdeal.NetSpec

theorem result_eq (V : Valuation τ sig (Elt Ideal)) :
    after w2_3_relu (after w2_2 (after w2_1_var (after w2_0 (after w1_2 (after w1_1_relu (after w1_0 (after w0_1_var (after w0_0 V)))))))) (Proc.devRef .tc main_v127)
      = netHost hostDot (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) := by
  rw [after_w0_0, after_w1_2]
  rw [RefStageD.out, RefStageC.agg, RefStageC.mean, RefStageC.var, RefStageC.keep8, RefStageC.keep9]
  rw [RefStageN1.keep_v63, RefStageN1.src, RefStageN1.dst, RefStageN1.norm, RefStageN1.keep6, RefStageN1.keep7,
    RefStageN1.keep8, RefStageN1.keep9]
  rw [RefStageB.out, RefStageB.keep1, RefStageB.keep6, RefStageB.keep7, RefStageB.keep8, RefStageB.keep9]
  rw [RefStageA.agg, RefStageA.mean, RefStageA.var, RefStageA.keep1, RefStageA.keep4, RefStageA.keep5, RefStageA.keep6,
    RefStageA.keep7, RefStageA.keep8, RefStageA.keep9]
  rw [RefStageN0.src, RefStageN0.dst, RefStageN0.norm, RefStageN0.keep0, RefStageN0.keep1, RefStageN0.keep2,
    RefStageN0.keep3, RefStageN0.keep4, RefStageN0.keep5, RefStageN0.keep6, RefStageN0.keep7, RefStageN0.keep8,
    RefStageN0.keep9]
  rfl

theorem keeps_arg0 (V : Valuation τ sig (Elt Ideal)) :
    after w2_3_relu (after w2_2 (after w2_1_var (after w2_0 (after w1_2 (after w1_1_relu (after w1_0 (after w0_1_var (after w0_0 V)))))))) (Proc.devRef .tc main_arg0) = V (Proc.devRef .tc main_arg0) := by
  rw [after_w0_0, after_w1_2, RefStageD.keep0, RefStageC.keep0, RefStageN1.keep0, RefStageB.keep0,
    RefStageA.keep0, RefStageN0.keep0]

theorem keeps_arg1 (V : Valuation τ sig (Elt Ideal)) :
    after w2_3_relu (after w2_2 (after w2_1_var (after w2_0 (after w1_2 (after w1_1_relu (after w1_0 (after w0_1_var (after w0_0 V)))))))) (Proc.devRef .tc main_arg1) = V (Proc.devRef .tc main_arg1) := by
  rw [after_w0_0, after_w1_2, RefStageD.keep1, RefStageC.keep1, RefStageN1.keep1, RefStageB.keep1,
    RefStageA.keep1, RefStageN0.keep1]

theorem keeps_arg2 (V : Valuation τ sig (Elt Ideal)) :
    after w2_3_relu (after w2_2 (after w2_1_var (after w2_0 (after w1_2 (after w1_1_relu (after w1_0 (after w0_1_var (after w0_0 V)))))))) (Proc.devRef .tc main_arg2) = V (Proc.devRef .tc main_arg2) := by
  rw [after_w0_0, after_w1_2, RefStageD.keep2, RefStageC.keep2, RefStageN1.keep2, RefStageB.keep2,
    RefStageA.keep2, RefStageN0.keep2]

theorem keeps_arg3 (V : Valuation τ sig (Elt Ideal)) :
    after w2_3_relu (after w2_2 (after w2_1_var (after w2_0 (after w1_2 (after w1_1_relu (after w1_0 (after w0_1_var (after w0_0 V)))))))) (Proc.devRef .tc main_arg3) = V (Proc.devRef .tc main_arg3) := by
  rw [after_w0_0, after_w1_2, RefStageD.keep3, RefStageC.keep3, RefStageN1.keep3, RefStageB.keep3,
    RefStageA.keep3, RefStageN0.keep3]

theorem keeps_arg4 (V : Valuation τ sig (Elt Ideal)) :
    after w2_3_relu (after w2_2 (after w2_1_var (after w2_0 (after w1_2 (after w1_1_relu (after w1_0 (after w0_1_var (after w0_0 V)))))))) (Proc.devRef .tc main_arg4) = V (Proc.devRef .tc main_arg4) := by
  rw [after_w0_0, after_w1_2, RefStageD.keep4, RefStageC.keep4, RefStageN1.keep4, RefStageB.keep4,
    RefStageA.keep4, RefStageN0.keep4]

theorem keeps_arg5 (V : Valuation τ sig (Elt Ideal)) :
    after w2_3_relu (after w2_2 (after w2_1_var (after w2_0 (after w1_2 (after w1_1_relu (after w1_0 (after w0_1_var (after w0_0 V)))))))) (Proc.devRef .tc main_arg5) = V (Proc.devRef .tc main_arg5) := by
  rw [after_w0_0, after_w1_2, RefStageD.keep5, RefStageC.keep5, RefStageN1.keep5, RefStageB.keep5,
    RefStageA.keep5, RefStageN0.keep5]

theorem keeps_arg6 (V : Valuation τ sig (Elt Ideal)) :
    after w2_3_relu (after w2_2 (after w2_1_var (after w2_0 (after w1_2 (after w1_1_relu (after w1_0 (after w0_1_var (after w0_0 V)))))))) (Proc.devRef .tc main_arg6) = V (Proc.devRef .tc main_arg6) := by
  rw [after_w0_0, after_w1_2, RefStageD.keep6, RefStageC.keep6, RefStageN1.keep6, RefStageB.keep6,
    RefStageA.keep6, RefStageN0.keep6]

theorem keeps_arg7 (V : Valuation τ sig (Elt Ideal)) :
    after w2_3_relu (after w2_2 (after w2_1_var (after w2_0 (after w1_2 (after w1_1_relu (after w1_0 (after w0_1_var (after w0_0 V)))))))) (Proc.devRef .tc main_arg7) = V (Proc.devRef .tc main_arg7) := by
  rw [after_w0_0, after_w1_2, RefStageD.keep7, RefStageC.keep7, RefStageN1.keep7, RefStageB.keep7,
    RefStageA.keep7, RefStageN0.keep7]

theorem keeps_arg8 (V : Valuation τ sig (Elt Ideal)) :
    after w2_3_relu (after w2_2 (after w2_1_var (after w2_0 (after w1_2 (after w1_1_relu (after w1_0 (after w0_1_var (after w0_0 V)))))))) (Proc.devRef .tc main_arg8) = V (Proc.devRef .tc main_arg8) := by
  rw [after_w0_0, after_w1_2, RefStageD.keep8, RefStageC.keep8, RefStageN1.keep8, RefStageB.keep8,
    RefStageA.keep8, RefStageN0.keep8]

theorem keeps_arg9 (V : Valuation τ sig (Elt Ideal)) :
    after w2_3_relu (after w2_2 (after w2_1_var (after w2_0 (after w1_2 (after w1_1_relu (after w1_0 (after w0_1_var (after w0_0 V)))))))) (Proc.devRef .tc main_arg9) = V (Proc.devRef .tc main_arg9) := by
  rw [after_w0_0, after_w1_2, RefStageD.keep9, RefStageC.keep9, RefStageN1.keep9, RefStageB.keep9,
    RefStageA.keep9, RefStageN0.keep9]

end Cert.ReferenceIdeal.RefValue

end
-- ==== Proof.DenseBridges.lean ====
/-
  Two readings, entry by entry over the extended reals, that identify the host's whole-array spellings with the
  layer functions.

  * The host's matrix product of a 40000×128 table with a 128×128 matrix, contracting the table's columns with
    the matrix's rows, reads at (p, q) the sum over k of x(p, k) · W(k, q): it is the layer's product.
  * The host's normalise–scale–shift–rectify chain spreads each length-128 vector down the 40000 rows (first laid as
    a 1×128 row, then repeated), so at (p, q) a spread vector reads its entry q. Entry (p, q) of the chain is
    therefore max( g(q) · (h(p, q) − mu(q)) · (va(q) + ε)^(-1/2) + be(q), 0 ), which is the layer's function of the
    same vectors laid as 1×128 rows (a row read at (0, q) is the vector's entry q).
-/
import proofs.«136930_j9698036155164_1_alg».proof.Proof.HostSpec
import proofs.«136930_j9698036155164_1_alg».proof.Proof.LayerSpec
import proofs.«136930_j9698036155164_1_alg».proof.Proof.Gen.KernelIdeal
import proofs.«136930_j9698036155164_1_alg».proof.Proof.Gen.ReferenceIdeal
import Idealize.ShloMosaic.Lib.StackMember
import Idealize.ShloMosaic.Lib.KernelVsHost
import Idealize.ShloMosaic.Lib.ValueLayout
import Idealize.ShloMosaic.Lib.IdealHost
import Idealize.ShloMosaic.Lib.Pipeline.Value
import Idealize.ShloMosaic.Lib.ValueIdx
import Idealize.ShloMosaic.PureOps.Ideal.Laws

noncomputable section

open scoped BigOperators

namespace Cert.DenseBridges

open Idealize.ShloMosaic Idealize.ShloMosaic.ValueIdx
open Cert.KernelIdeal.HostSpec (Ct rowOf spread bnHost)

/-! ## The host's matrix product is the layer's -/

/-- The host's plain product of the table with a weight matrix, entry by entry. -/
theorem hostDot_eq_mm (x : Ct Ideal Cert.KernelIdeal.S40000x128 .f32) (W : Ct Ideal Cert.KernelIdeal.S128x128 .f32) :
    Host.dotGeneral (F := Ideal) (φ₁ := .f32) (φ₂ := .f32) Cert.ReferenceIdeal.dot_S40000x128_S128x128_S40000x128_1_0_0_1_n_n none x W
      = Cert.Layers.mm x W := by
  funext i
  obtain ⟨p, q, rfl⟩ : ∃ (p : Fin 40000) (q : Fin 128), i = ix2 p q := ⟨i 0, i 1, eq_ix2 i⟩
  rw [Cert.Layers.mm_apply]
  exact StackMember.dotGeneral_plain_apply (m := 40000) (n := 128) (k := 128) none x W p q

/-! ## The host's normalisation chain is the layer's -/

section Chain

open Cert.KernelIdeal (S40000x128 S128 S1x128 S_)

/-- A length-128 vector laid as a row and repeated down the 40000 rows reads, at (r, q), its entry q. -/
theorem spread_apply (b : Ct Ideal S128 .f32) (r : Fin 40000) (q : Fin 128) :
    spread (F := Ideal) b (ix2 r q) = b (ix1 q) := by
  unfold spread
  refine (broadcastInDim_oneRow_apply _ _ r q).trans ?_
  refine broadcastInDim_apply ![1] _ b (ix2 (0 : Fin 1) q) (ix1 q) ?_
  intro a
  obtain rfl : a = 0 := Subsingleton.elim _ _
  show q.val = if (128 : ℕ) = 1 then 0 else q.val
  rw [if_neg (by decide)]

/-- A length-128 vector re-laid as a 1×128 row reads, at (0, q), its entry q. -/
theorem rowOf_apply (v : Ct Ideal S128 .f32) (q : Fin 128) :
    rowOf (F := Ideal) v (ix2 (0 : Fin 1) q) = v (ix1 q) := by
  unfold rowOf
  exact shapeCast_a_1a_apply v _ 0 q

/-- The whole-array chain, entry by entry, is the layer's normalise–scale–shift–rectify of the same vectors as rows. -/
theorem bnHost_eq_bnRelu (p : Ct Ideal S40000x128 .f32) (mu va g be : Ct Ideal S128 .f32) :
    bnHost p mu va g be = Cert.Layers.bnRelu p (rowOf mu) (rowOf va) (rowOf g) (rowOf be) := by
  funext i
  obtain ⟨r, q, rfl⟩ : ∃ (r : Fin 40000) (q : Fin 128), i = ix2 r q := ⟨i 0, i 1, eq_ix2 i⟩
  rw [Cert.Layers.bnRelu_apply, rowOf_apply, rowOf_apply, rowOf_apply, rowOf_apply]
  unfold bnHost
  simp only [maximumf_apply, addf_apply, mulf_apply, subf_apply]
  rw [spread_apply, spread_apply, spread_apply, spread_apply, broadcastInDim_scalar_apply]
  -- what remains computes: the inverse square root acts entry by entry, and a scalar read anywhere is the scalar
  rfl

end Chain

end Cert.DenseBridges

end
-- ==== Proof.lean ====
/-
  A two-layer graph convolution with batch normalisation: the kernel program against its whole-array reference.

  Both programs compute, from a node table x, an edge list and two sets of layer parameters,
      h₁ = relu(bn(Â·(x·W₁) + b₁)),   out = relu(bn(Â·(h₁·W₂) + b₂)),
  where Â aggregates over the edges (with a self-loop per node) under the symmetric weights deg^(-1/2)[src]·deg^(-1/2)[dst]
  and bn normalises every column by its own mean and variance over the 40000 nodes, scales and shifts.
  The kernel program runs the two matrix products and the two normalise–rectify steps as launched kernels over ten row
  blocks each, and everything else (edge weights, gathers, scatter-adds, column statistics) as host operations; the
  reference runs everything as host operations and computes the edge weights once per layer.

  Over the extended reals the two results are one function of the arguments:
  * a row block of the product into a zero accumulator, its operands narrowed to a shorter float format (the identity
    here), is the corresponding rows of the matrix product, the sum over the contracted coordinate, which is also what the
    host's product is (MatmulRegions, DenseBridges);
  * the normalise–rectify kernel reads the column statistics as 1×128 rows spread down its block, the reference spreads
    the same vectors over the whole table: entry by entry the same expression, associated the same way (NormRegions,
    DenseBridges);
  * the aggregation, the statistics and the edge weights are the same host operations on both sides, never opened
    (HostSpec, HostStretches, RefValue), and the edge weights computed twice are the same function of the same edge list.
  No step uses distributivity or cancellation, so the precondition (finite inputs) is not needed for the value;
  the integer edge list may hold anything: both programs index with it in the same way.

  The frames of the two kernel programs are the generated ones; the reference's is its run with the result dropped;
  the idealisation rewrote nothing, so `preserves` is trivial.
-/
import proofs.«136930_j9698036155164_1_alg».proof.Defs
import proofs.«136930_j9698036155164_1_alg».proof.Proof.Gen.Kernel
import proofs.«136930_j9698036155164_1_alg».proof.Proof.Gen.Kernel.Skeleton
import proofs.«136930_j9698036155164_1_alg».proof.Proof.Gen.Kernel.Launch
import proofs.«136930_j9698036155164_1_alg».proof.Proof.Gen.Kernel.Points
import proofs.«136930_j9698036155164_1_alg».proof.Proof.Gen.Kernel.Frame
import proofs.«136930_j9698036155164_1_alg».proof.Proof.Gen.KernelIdeal
import proofs.«136930_j9698036155164_1_alg».proof.Proof.Gen.KernelIdeal.Skeleton
import proofs.«136930_j9698036155164_1_alg».proof.Proof.Gen.KernelIdeal.Launch
import proofs.«136930_j9698036155164_1_alg».proof.Proof.Gen.KernelIdeal.Points
import proofs.«136930_j9698036155164_1_alg».proof.Proof.Gen.KernelIdeal.Frame
import proofs.«136930_j9698036155164_1_alg».proof.Proof.Gen.ReferenceIdeal
import proofs.«136930_j9698036155164_1_alg».proof.Proof.Gen.Pre_finite_inputs
import proofs.«136930_j9698036155164_1_alg».proof.Proof.KernelRun
import proofs.«136930_j9698036155164_1_alg».proof.Proof.KernelValue
import proofs.«136930_j9698036155164_1_alg».proof.Proof.MatmulRegions
import proofs.«136930_j9698036155164_1_alg».proof.Proof.NormRegions
import proofs.«136930_j9698036155164_1_alg».proof.Proof.RefRun
import proofs.«136930_j9698036155164_1_alg».proof.Proof.RefValue
import proofs.«136930_j9698036155164_1_alg».proof.Proof.DenseBridges
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates with its arguments unchanged: its run, the result dropped. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefValue.keeps_arg0 _),
     (h c Cert.ReferenceIdeal.main_arg1).trans (Cert.ReferenceIdeal.RefValue.keeps_arg1 _),
     (h c Cert.ReferenceIdeal.main_arg2).trans (Cert.ReferenceIdeal.RefValue.keeps_arg2 _),
     (h c Cert.ReferenceIdeal.main_arg3).trans (Cert.ReferenceIdeal.RefValue.keeps_arg3 _),
     (h c Cert.ReferenceIdeal.main_arg4).trans (Cert.ReferenceIdeal.RefValue.keeps_arg4 _),
     (h c Cert.ReferenceIdeal.main_arg5).trans (Cert.ReferenceIdeal.RefValue.keeps_arg5 _),
     (h c Cert.ReferenceIdeal.main_arg6).trans (Cert.ReferenceIdeal.RefValue.keeps_arg6 _),
     (h c Cert.ReferenceIdeal.main_arg7).trans (Cert.ReferenceIdeal.RefValue.keeps_arg7 _),
     (h c Cert.ReferenceIdeal.main_arg8).trans (Cert.ReferenceIdeal.RefValue.keeps_arg8 _),
     (h c Cert.ReferenceIdeal.main_arg9).trans (Cert.ReferenceIdeal.RefValue.keeps_arg9 _)⟩)
    (Cert.ReferenceIdeal.RefRun.run (F := Ideal) m ρ)

/-- The two spellings of the network agree: the host's product is the matrix product, and the whole-array
    normalisation is the row-wise one. -/
theorem nets_agree (x : Cert.KernelIdeal.HostSpec.Ct Ideal Cert.KernelIdeal.S40000x128 .f32)
    (ei : Cert.KernelIdeal.HostSpec.Ct Ideal Cert.KernelIdeal.S2x640000 .i32)
    (W1 : Cert.KernelIdeal.HostSpec.Ct Ideal Cert.KernelIdeal.S128x128 .f32)
    (b1 g1 be1 : Cert.KernelIdeal.HostSpec.Ct Ideal Cert.KernelIdeal.S128 .f32)
    (W2 : Cert.KernelIdeal.HostSpec.Ct Ideal Cert.KernelIdeal.S128x128 .f32)
    (b2 g2 be2 : Cert.KernelIdeal.HostSpec.Ct Ideal Cert.KernelIdeal.S128 .f32) :
    Cert.KernelIdeal.NetSpec.netHost Cert.ReferenceIdeal.RefDot.hostDot x ei W1 b1 g1 be1 W2 b2 g2 be2
      = Cert.KernelIdeal.NetSpec.net x ei W1 b1 g1 be1 W2 b2 g2 be2 :=
  Cert.KernelIdeal.NetSpec.netHost_eq_net Cert.ReferenceIdeal.RefDot.hostDot
    (fun x W => Cert.DenseBridges.hostDot_eq_mm x W) (fun p mu va g be => Cert.DenseBridges.bnHost_eq_bnRelu p mu va g be)
    x ei W1 b1 g1 be1 W2 b2 g2 be2

/-- Both programs end with the network of the (agreeing) arguments in their result arrays. -/
theorem algebraic : Cert.algebraic_KernelIdeal_ReferenceIdeal := by
  intro m ρ m' ρ' _ hagree
  refine ⟨fun c => Cert.KernelIdeal.NetSpec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.KernelValue.result m ρ c
          Cert.KernelIdeal.MatmulRegions.region0 Cert.KernelIdeal.NormRegions.region1
          Cert.KernelIdeal.MatmulRegions.region2 Cert.KernelIdeal.NormRegions.region3), (h c).2⟩)
      (Cert.KernelIdeal.KernelRun.run_named (F := Ideal) m ρ)
  · refine (θ_run Cert.ReferenceIdeal.defs _ _).mono (fun _ h c => ⟨?_,
      (h c Cert.ReferenceIdeal.main_arg0).trans (Cert.ReferenceIdeal.RefValue.keeps_arg0 _),
      (h c Cert.ReferenceIdeal.main_arg1).trans (Cert.ReferenceIdeal.RefValue.keeps_arg1 _),
      (h c Cert.ReferenceIdeal.main_arg2).trans (Cert.ReferenceIdeal.RefValue.keeps_arg2 _),
      (h c Cert.ReferenceIdeal.main_arg3).trans (Cert.ReferenceIdeal.RefValue.keeps_arg3 _),
      (h c Cert.ReferenceIdeal.main_arg4).trans (Cert.ReferenceIdeal.RefValue.keeps_arg4 _),
      (h c Cert.ReferenceIdeal.main_arg5).trans (Cert.ReferenceIdeal.RefValue.keeps_arg5 _),
      (h c Cert.ReferenceIdeal.main_arg6).trans (Cert.ReferenceIdeal.RefValue.keeps_arg6 _),
      (h c Cert.ReferenceIdeal.main_arg7).trans (Cert.ReferenceIdeal.RefValue.keeps_arg7 _),
      (h c Cert.ReferenceIdeal.main_arg8).trans (Cert.ReferenceIdeal.RefValue.keeps_arg8 _),
      (h c Cert.ReferenceIdeal.main_arg9).trans (Cert.ReferenceIdeal.RefValue.keeps_arg9 _)⟩)
      (Cert.ReferenceIdeal.RefRun.run (F := Ideal) m' ρ')
    refine (h c Cert.ReferenceIdeal.main_v127).trans ((Cert.ReferenceIdeal.RefValue.result_eq _).trans ?_)
    obtain ⟨e0, e1, e2, e3, e4, e5, e6, e7, e8, e9⟩ := hagree c
    refine (nets_agree _ _ _ _ _ _ _ _ _ _).trans ?_
    show Cert.KernelIdeal.NetSpec.net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
